-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v58)) (v1 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_v59) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x3 : Shape := ⟨2, ![50000, 3]⟩
abbrev S50000x128 : Shape := ⟨2, ![50000, 128]⟩
abbrev S2x640000 : Shape := ⟨2, ![2, 640000]⟩
abbrev S128x257 : Shape := ⟨2, ![128, 257]⟩
abbrev S128 : Shape := ⟨1, ![128]⟩
abbrev S128x128 : Shape := ⟨2, ![128, 128]⟩
abbrev S1x128 : Shape := ⟨2, ![1, 128]⟩
abbrev S1 : Shape := ⟨1, ![1]⟩
abbrev S128x256 : Shape := ⟨2, ![128, 256]⟩
abbrev S_ : Shape := ⟨0, ![]⟩

class Facts : Prop where
  bcast_S_S50000x3 : S_.BroadcastsInDim S50000x3 (![] : Fin 0 → Fin S50000x3.rank)
  reducesTo_S50000x3_S_d0_1 : S50000x3.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x257 : S_.BroadcastsInDim S128x257 (![] : Fin 0 → Fin S128x257.rank)
  reducesTo_S128x257_S_d0_1 : S128x257.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_
  bcast_S_S128x256 : S_.BroadcastsInDim S128x256 (![] : Fin 0 → Fin S128x256.rank)
  reducesTo_S128x256_S_d0_1 : S128x256.ReducesTo [0, 1] S_

variable [Facts]

def fn_part5 {F : FTy → Type} [FloatOps F] (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  main_v88

def fn_part4 {F : FTy → Type} [FloatOps F] (main_arg15 : FVec F S128x128 .f32) (main_arg16 : FVec F S128 .f32) (main_arg17 : FVec F S128x128 .f32) (main_arg18 : FVec F S128 .f32) (main_v63 : IVec S_ 1) (main_v67 : IVec S_ 1) : IVec S_ 1 :=
  let main_v68 : IVec S_ 1 := andi main_v63 main_v67
  let main_v69 : FVec F S128x128 .f32 := Host.absf main_arg15
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg17
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_v83 main_v84 main_cst_32

def fn_part3 {F : FTy → Type} [FloatOps F] (main_arg12 : FVec F S1 .f32) (main_arg13 : FVec F S128x256 .f32) (main_arg14 : FVec F S128 .f32) (main_arg15 : FVec F S128x128 .f32) (main_arg16 : FVec F S128 .f32) (main_arg17 : FVec F S128x128 .f32) (main_arg18 : FVec F S128 .f32) (main_v48 : IVec S_ 1) (main_v49 : FVec F S1x128 .f32) (main_v50 : FVec F S1x128 .f32) : IVec S_ 1 :=
  let main_v51 : IVec S1x128 1 := cmpf .olt main_v49 main_v50
  let main_c_19 : IVec S_ 1 := constantI S_ 1 1#1
  let main_v52 : IVec S_ 1 := (fun x v => Host.reduce IntOp.andi x v reducesTo_S1x128_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : FVec F S128x256 .f32 := Host.absf main_arg13
  let main_cst_22 : FVec F S_ .f32 := constant S_ .f32 0x7F800000#32
  let main_v60 : FVec F S128x256 .f32 := broadcastInDim S128x256 ![] bcast_S_S128x256 main_cst_22
  let main_v61 : IVec S128x256 1 := cmpf .olt main_v59 main_v60
  let main_c_23 : IVec S_ 1 := constantI S_ 1 1#1
  let main_v62 : IVec S_ 1 := (fun x v => Host.reduce IntOp.andi x v reducesTo_S128x256_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_v63 main_v67

def fn_part2 {F : FTy → Type} [FloatOps F] (main_arg8 : FVec F S128 .f32) (main_arg9 : FVec F S128x128 .f32) (main_arg10 : FVec F S128 .f32) (main_arg11 : FVec F S1x128 .f32) (main_arg12 : FVec F S1 .f32) (main_arg13 : FVec F S128x256 .f32) (main_arg14 : FVec F S128 .f32) (main_arg15 : FVec F S128x128 .f32) (main_arg16 : FVec F S128 .f32) (main_arg17 : FVec F S128x128 .f32) (main_arg18 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S1x128 .f32 := Host.absf main_arg11
  let main_cst_18 : FVec F S_ .f32 := constant S_ .f32 0x7F800000#32
  let main_v50 : FVec F S1x128 .f32 := broadcastInDim S1x128 ![] bcast_S_S1x128 main_cst_18
  fn_part3 (F := F) main_arg12 main_arg13 main_arg14 main_arg15 main_arg16 main_arg17 main_arg18 main_v48 main_v49 main_v50

def fn_part1 {F : FTy → Type} [FloatOps F] (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S1x128 .f32) (main_arg12 : FVec F S1 .f32) (main_arg13 : FVec F S128x256 .f32) (main_arg14 : FVec F S128 .f32) (main_arg15 : FVec F S128x128 .f32) (main_arg16 : FVec F S128 .f32) (main_arg17 : FVec F S128x128 .f32) (main_arg18 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S50000x3 .f32) (main_arg1 : FVec F S50000x128 .f32) (main_arg2 : IVec S2x640000 32) (main_arg3 : FVec F S128x257 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S1x128 .f32) (main_arg12 : FVec F S1 .f32) (main_arg13 : FVec F S128x256 .f32) (main_arg14 : FVec F S128 .f32) (main_arg15 : FVec F S128x128 .f32) (main_arg16 : FVec F S128 .f32) (main_arg17 : FVec F S128x128 .f32) (main_arg18 : FVec F S128 .f32) : IVec S_ 1 :=
  let main_v0 : FVec F S50000x3 .f32 := Host.absf main_arg0
  let main_cst : FVec F S_ .f32 := constant S_ .f32 0x7F800000#32
  let main_v1 : FVec F S50000x3 .f32 := broadcastInDim S50000x3 ![] bcast_S_S50000x3 main_cst
  let main_v2 : IVec S50000x3 1 := cmpf .olt main_v0 main_v1
  let main_c : IVec S_ 1 := constantI S_ 1 1#1
  let main_v3 : IVec S_ 1 := (fun x v => Host.reduce IntOp.andi x v reducesTo_S50000x3_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x257 .f32 := Host.absf main_arg3
  let main_cst_2 : FVec F S_ .f32 := constant S_ .f32 0x7F800000#32
  let main_v10 : FVec F S128x257 .f32 := broadcastInDim S128x257 ![] bcast_S_S128x257 main_cst_2
  let main_v11 : IVec S128x257 1 := cmpf .olt main_v9 main_v10
  let main_c_3 : IVec S_ 1 := constantI S_ 1 1#1
  let main_v12 : IVec S_ 1 := (fun x v => Host.reduce IntOp.andi x v reducesTo_S128x257_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S50000x3 : Shape := ⟨2, ![50000, 3]⟩
abbrev S50000x128 : Shape := ⟨2, ![50000, 128]⟩
abbrev S2x640000 : Shape := ⟨2, ![2, 640000]⟩
abbrev S128x257 : Shape := ⟨2, ![128, 257]⟩
abbrev S128 : Shape := ⟨1, ![128]⟩
abbrev S128x128 : Shape := ⟨2, ![128, 128]⟩
abbrev S1x128 : Shape := ⟨2, ![1, 128]⟩
abbrev S1 : Shape := ⟨1, ![1]⟩
abbrev S128x256 : Shape := ⟨2, ![128, 256]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S640000x3 : Shape := ⟨2, ![640000, 3]⟩
abbrev S640000x4 : Shape := ⟨2, ![640000, 4]⟩
abbrev S257x128 : Shape := ⟨2, ![257, 128]⟩
abbrev S256x128 : Shape := ⟨2, ![256, 128]⟩
abbrev S5120x128 : Shape := ⟨2, ![5120, 128]⟩
abbrev S5120x4 : Shape := ⟨2, ![5120, 4]⟩
abbrev S5120x3 : Shape := ⟨2, ![5120, 3]⟩
abbrev S5120x1 : Shape := ⟨2, ![5120, 1]⟩
abbrev S5120 : Shape := ⟨1, ![5120]⟩
abbrev S1x1 : Shape := ⟨2, ![1, 1]⟩
abbrev S640000x131 : Shape := ⟨2, ![640000, 131]⟩
abbrev S50000x131 : Shape := ⟨2, ![50000, 131]⟩
abbrev S5000x128 : Shape := ⟨2, ![5000, 128]⟩

abbrev nBuf : Space → Nat
  | .hbm => 90
  | .vmem => 35
  | .smem => 0
  | _ => 0

abbrev bufTy : (tb : Table) → Fin (tcTables nBuf tb) → BufTy
  | .hbm, ⟨0, _⟩ => ⟨S50000x3, .f32⟩
  | .hbm, ⟨1, _⟩ => ⟨S50000x128, .f32⟩
  | .hbm, ⟨2, _⟩ => ⟨S2x640000, .i32⟩
  | .hbm, ⟨3, _⟩ => ⟨S128x257, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x128, .f32⟩
  | .hbm, ⟨12, _⟩ => ⟨S1, .f32⟩
  | .hbm, ⟨13, _⟩ => ⟨S128x256, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S1x640000, .i32⟩
  | .hbm, ⟨20, _⟩ => ⟨S640000, .i32⟩
  | .hbm, ⟨21, _⟩ => ⟨S1x640000, .i32⟩
  | .hbm, ⟨22, _⟩ => ⟨S640000, .i32⟩
  | .hbm, ⟨23, _⟩ => ⟨S50000x128, .bf16⟩
  | .hbm, ⟨24, _⟩ => ⟨S_, .i32⟩
  | .hbm, ⟨25, _⟩ => ⟨S640000, .i32⟩
  | .hbm, ⟨26, _⟩ => ⟨S640000, .i1⟩
  | .hbm, ⟨27, _⟩ => ⟨S_, .i32⟩
  | .hbm, ⟨28, _⟩ => ⟨S640000, .i32⟩
  | .hbm, ⟨29, _⟩ => ⟨S640000, .i32⟩
  | .hbm, ⟨30, _⟩ => ⟨S640000, .i32⟩
  | .hbm, ⟨31, _⟩ => ⟨S640000x1, .i32⟩
  | .hbm, ⟨32, _⟩ => ⟨S640000x128, .bf16⟩
  | .hbm, ⟨33, _⟩ => ⟨S_, .i32⟩
  | .hbm, ⟨34, _⟩ => ⟨S640000, .i32⟩
  | .hbm, ⟨35, _⟩ => ⟨S640000, .i1⟩
  | .hbm, ⟨36, _⟩ => ⟨S_, .i32⟩
  | .hbm, ⟨37, _⟩ => ⟨S640000, .i32⟩
  | .hbm, ⟨38, _⟩ => ⟨S640000, .i32⟩
  | .hbm, ⟨39, _⟩ => ⟨S640000, .i32⟩
  | .hbm, ⟨40, _⟩ => ⟨S640000x1, .i32⟩
  | .hbm, ⟨41, _⟩ => ⟨S640000x128, .bf16⟩
  | .hbm, ⟨42, _⟩ => ⟨S_, .i32⟩
  | .hbm, ⟨43, _⟩ => ⟨S640000, .i32⟩
  | .hbm, ⟨44, _⟩ => ⟨S640000, .i1⟩
  | .hbm, ⟨45, _⟩ => ⟨S_, .i32⟩
  | .hbm, ⟨46, _⟩ => ⟨S640000, .i32⟩
  | .hbm, ⟨47, _⟩ => ⟨S640000, .i32⟩
  | .hbm, ⟨48, _⟩ => ⟨S640000, .i32⟩
  | .hbm, ⟨49, _⟩ => ⟨S640000x1, .i32⟩
  | .hbm, ⟨50, _⟩ => ⟨S640000x3, .f32⟩
  | .hbm, ⟨51, _⟩ => ⟨S_, .i32⟩
  | .hbm, ⟨52, _⟩ => ⟨S640000, .i32⟩
  | .hbm, ⟨53, _⟩ => ⟨S640000, .i1⟩
  | .hbm, ⟨54, _⟩ => ⟨S_, .i32⟩
  | .hbm, ⟨55, _⟩ => ⟨S640000, .i32⟩
  | .hbm, ⟨56, _⟩ => ⟨S640000, .i32⟩
  | .hbm, ⟨57, _⟩ => ⟨S640000, .i32⟩
  | .hbm, ⟨58, _⟩ => ⟨S640000x1, .i32⟩
  | .hbm, ⟨59, _⟩ => ⟨S640000x3, .f32⟩
  | .hbm, ⟨60, _⟩ => ⟨S640000x3, .f32⟩
  | .hbm, ⟨61, _⟩ => ⟨S640000x3, .f32⟩
  | .hbm, ⟨62, _⟩ => ⟨S_, .f32⟩
  | .hbm, ⟨63, _⟩ => ⟨S640000, .f32⟩
  | .hbm, ⟨64, _⟩ => ⟨S640000x1, .f32⟩
  | .hbm, ⟨65, _⟩ => ⟨S640000x4, .f32⟩
  | .hbm, ⟨66, _⟩ => ⟨S257x128, .f32⟩
  | .hbm, ⟨67, _⟩ => ⟨S128x128, .f32⟩
  | .hbm, ⟨68, _⟩ => ⟨S128x128, .f32⟩
  | .hbm, ⟨69, _⟩ => ⟨S1x128, .f32⟩
  | .hbm, ⟨70, _⟩ => ⟨S128x128, .f32⟩
  | .hbm, ⟨71, _⟩ => ⟨S128x128, .f32⟩
  | .hbm, ⟨72, _⟩ => ⟨S128x128, .f32⟩
  | .hbm, ⟨73, _⟩ => ⟨S256x128, .f32⟩
  | .hbm, ⟨74, _⟩ => ⟨S128x128, .f32⟩
  | .hbm, ⟨75, _⟩ => ⟨S128x128, .f32⟩
  | .hbm, ⟨76, _⟩ => ⟨S128x128, .f32⟩
  | .hbm, ⟨77, _⟩ => ⟨S128x128, .f32⟩
  | .hbm, ⟨78, _⟩ => ⟨S640000x128, .bf16⟩
  | .hbm, ⟨79, _⟩ => ⟨S640000x3, .bf16⟩
  | .hbm, ⟨80, _⟩ => ⟨S640000x131, .bf16⟩
  | .hbm, ⟨81, _⟩ => ⟨S640000x131, .f32⟩
  | .hbm, ⟨82, _⟩ => ⟨S_, .f32⟩
  | .hbm, ⟨83, _⟩ => ⟨S50000x131, .f32⟩
  | .hbm, ⟨84, _⟩ => ⟨S640000x1, .i32⟩
  | .hbm, ⟨85, _⟩ => ⟨S50000x131, .f32⟩
  | .hbm, ⟨86, _⟩ => ⟨S50000x128, .f32⟩
  | .hbm, ⟨87, _⟩ => ⟨S50000x3, .f32⟩
  | .hbm, ⟨88, _⟩ => ⟨S50000x3, .f32⟩
  | .hbm, ⟨89, _⟩ => ⟨S50000x128, .f32⟩
  | .local _ .vmem, ⟨0, _⟩ => ⟨S5120x128, .bf16⟩
  | .local _ .vmem, ⟨1, _⟩ => ⟨S5120x128, .bf16⟩
  | .local _ .vmem, ⟨2, _⟩ => ⟨S5120x128, .bf16⟩
  | .local _ .vmem, ⟨3, _⟩ => ⟨S5120x128, .bf16⟩
  | .local _ .vmem, ⟨4, _⟩ => ⟨S5120x4, .f32⟩
  | .local _ .vmem, ⟨5, _⟩ => ⟨S5120x4, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S128x128, .f32⟩
  | .local _ .vmem, ⟨13, _⟩ => ⟨S128, .f32⟩
  | .local _ .vmem, ⟨14, _⟩ => ⟨S128x128, .f32⟩
  | .local _ .vmem, ⟨15, _⟩ => ⟨S128, .f32⟩
  | .local _ .vmem, ⟨16, _⟩ => ⟨S1x128, .f32⟩
  | .local _ .vmem, ⟨17, _⟩ => ⟨S1, .f32⟩
  | .local _ .vmem, ⟨18, _⟩ => ⟨S5120x128, .bf16⟩
  | .local _ .vmem, ⟨19, _⟩ => ⟨S5120x128, .bf16⟩
  | .local _ .vmem, ⟨20, _⟩ => ⟨S5120x3, .bf16⟩
  | .local _ .vmem, ⟨21, _⟩ => ⟨S5120x3, .bf16⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S128x128, .f32⟩
  | .local _ .vmem, ⟨28, _⟩ => ⟨S128, .f32⟩
  | .local _ .vmem, ⟨29, _⟩ => ⟨S128x128, .f32⟩
  | .local _ .vmem, ⟨30, _⟩ => ⟨S128, .f32⟩
  | .local _ .vmem, ⟨31, _⟩ => ⟨S128x128, .f32⟩
  | .local _ .vmem, ⟨32, _⟩ => ⟨S128, .f32⟩
  | .local _ .vmem, ⟨33, _⟩ => ⟨S5000x128, .f32⟩
  | .local _ .vmem, ⟨34, _⟩ => ⟨S5000x128, .f32⟩
  | _, _ => ⟨S50000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_c : Ref sig .tc := ⟨.hbm, 24, rfl⟩
abbrev main_v5 : Ref sig .tc := ⟨.hbm, 25, rfl⟩
abbrev main_v6 : Ref sig .tc := ⟨.hbm, 26, rfl⟩
abbrev main_c_0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_c_1 : Ref sig .tc := ⟨.hbm, 33, rfl⟩
abbrev main_v12 : Ref sig .tc := ⟨.hbm, 34, rfl⟩
abbrev main_v13 : Ref sig .tc := ⟨.hbm, 35, rfl⟩
abbrev main_c_2 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_c_3 : Ref sig .tc := ⟨.hbm, 42, rfl⟩
abbrev main_v19 : Ref sig .tc := ⟨.hbm, 43, rfl⟩
abbrev main_v20 : Ref sig .tc := ⟨.hbm, 44, rfl⟩
abbrev main_c_4 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_c_5 : Ref sig .tc := ⟨.hbm, 51, rfl⟩
abbrev main_v26 : Ref sig .tc := ⟨.hbm, 52, rfl⟩
abbrev main_v27 : Ref sig .tc := ⟨.hbm, 53, rfl⟩
abbrev main_c_6 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50_0 : Ref sig .tc := ⟨.hbm, 78, rfl⟩
abbrev main_v50_1 : Ref sig .tc := ⟨.hbm, 79, rfl⟩
abbrev main_v51 : Ref sig .tc := ⟨.hbm, 80, rfl⟩
abbrev main_v52 : Ref sig .tc := ⟨.hbm, 81, rfl⟩
abbrev main_cst_7 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg3_0 : Ref sig .tc := ⟨.vmem, 27, rfl⟩
abbrev cc1_stg4_0 : Ref sig .tc := ⟨.vmem, 28, rfl⟩
abbrev cc1_stg5_0 : Ref sig .tc := ⟨.vmem, 29, rfl⟩
abbrev cc1_stg6_0 : Ref sig .tc := ⟨.vmem, 30, rfl⟩
abbrev cc1_stg7_0 : Ref sig .tc := ⟨.vmem, 31, rfl⟩
abbrev cc1_stg8_0 : Ref sig .tc := ⟨.vmem, 32, rfl⟩
abbrev cc1_stg9_0 : Ref sig .tc := ⟨.vmem, 33, rfl⟩
abbrev cc1_stg9_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem3_0 : DmaSem sig := 27
abbrev cc1_sem4_0 : DmaSem sig := 28
abbrev cc1_sem5_0 : DmaSem sig := 29
abbrev cc1_sem6_0 : DmaSem sig := 30
abbrev cc1_sem7_0 : DmaSem sig := 31
abbrev cc1_sem8_0 : DmaSem sig := 32
abbrev cc1_sem9_0 : DmaSem sig := 33
abbrev cc1_sem9_1 : DmaSem sig := 34

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5120x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5120x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5120x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S5120x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S5120x3 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bitsLt_bf16_f32 : FTy.bits .bf16 < FTy.bits .f32
  bcast_S_S640000 : S_.BroadcastsInDim S640000 (![] : Fin 0 → Fin S640000.rank)
  bcast_S640000_S640000x1_0 : S640000.BroadcastsInDim S640000x1 (![0] : Fin 1 → Fin S640000x1.rank)
  reducesTo_S640000x3_S640000_d1 : S640000x3.ReducesTo [1] S640000
  h_S_ : 0 < S_.numel
  concatenates_S640000x3_S640000x1_S640000x4_d1 : Shape.Concatenates [S640000x3, S640000x1] S640000x4 1
  transposes_S128x257_S257x128_1_0 : S128x257.Transposes [1, 0] S257x128
  slices_S257x128_S128x128_0_0 : S257x128.Slices ![0, 0] S128x128
  slices_S257x128_S128x128_128_0 : S257x128.Slices ![128, 0] S128x128
  slices_S257x128_S1x128_256_0 : S257x128.Slices ![256, 0] S1x128
  transposes_S128x128_S128x128_1_0 : S128x128.Transposes [1, 0] S128x128
  transposes_S128x256_S256x128_1_0 : S128x256.Transposes [1, 0] S256x128
  slices_S256x128_S128x128_0_0 : S256x128.Slices ![0, 0] S128x128
  slices_S256x128_S128x128_128_0 : S256x128.Slices ![128, 0] S128x128
  inb_S5120x128_S5120x128_0_0 : ∀ a, (![0, 0] : Fin 2 → Nat) a + S5120x128.size a ≤ S5120x128.size a
  h_S5120x128 : 0 < S5120x128.numel
  shapeCasts_S5120x128_S5120x128 : S5120x128.ShapeCasts S5120x128
  inb_S5120x4_S5120x4_0_0 : ∀ a, (![0, 0] : Fin 2 → Nat) a + S5120x4.size a ≤ S5120x4.size a
  h_S5120x4 : 0 < S5120x4.numel
  shapeCasts_S5120x4_S5120x4 : S5120x4.ShapeCasts S5120x4
  slices_S5120x4_o0_0_S5120x3 : S5120x4.Slices ![0, 0] S5120x3
  slices_S5120x4_o0_3_S5120x1 : S5120x4.Slices ![0, 3] S5120x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S5120x1_S5120x128 : S5120x1.Broadcasts S5120x128
  broadcasts_S1x128_S5120x128 : S1x128.Broadcasts S5120x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  reduces_S5120x128_S5120 : S5120x128.Reduces [1] S5120
  shapeCasts_S5120_S5120x1 : S5120.ShapeCasts S5120x1
  inb_S1_S1_0 : ∀ a, (![0] : Fin 1 → Nat) a + S1.size a ≤ S1.size a
  h_S1 : 0 < S1.numel
  shapeCasts_S1_S1x1 : S1.ShapeCasts S1x1
  broadcasts_S1x1_S5120x1 : S1x1.Broadcasts S5120x1
  packedbf16_S5120x128_S5120x128_0_0 : (Rect.unit (s := S5120x128) ![0, 0] S5120x128.size inb_S5120x128_S5120x128_0_0).PackedRows (EltTy.packing .bf16)
  broadcasts_S5120x1_S5120x3 : S5120x1.Broadcasts S5120x3
  inb_S5120x3_S5120x3_0_0 : ∀ a, (![0, 0] : Fin 2 → Nat) a + S5120x3.size a ≤ S5120x3.size a
  h_S5120x3 : 0 < S5120x3.numel
  packedbf16_S5120x3_S5120x3_0_0 : (Rect.unit (s := S5120x3) ![0, 0] S5120x3.size inb_S5120x3_S5120x3_0_0).PackedRows (EltTy.packing .bf16)
  concatenates_S640000x128_S640000x3_S640000x131_d1 : Shape.Concatenates [S640000x128, S640000x3] S640000x131 1
  bcast_S_S50000x131 : S_.BroadcastsInDim S50000x131 (![] : Fin 0 → Fin S50000x131.rank)
  slices_S50000x131_S50000x128_0_0 : S50000x131.Slices ![0, 0] S50000x128
  slices_S50000x131_S50000x3_0_128 : S50000x131.Slices ![0, 128] S50000x3
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  gather_S50000x128_S640000x1_S640000x128_1_0_n_n_0_1_1128_wf : GatherDims.WF S50000x128 S640000x1 S640000x128 [1] [0] [] [0] [] 1 ![1, 128]
  gather_S50000x3_S640000x1_S640000x3_1_0_n_n_0_1_13_wf : GatherDims.WF S50000x3 S640000x1 S640000x3 [1] [0] [] [0] [] 1 ![1, 3]
  dot_S5120x128_S128x128_S5120x128_1_0_0_1_n_n_wf : DotDims.WF S5120x128 S128x128 S5120x128 [1] [0] [0] [1] [] []
  scatter_S50000x131_S640000x1_S640000x131_1_0_0_1_wf : ScatterDims.WF S50000x131 S640000x1 S640000x131 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5120x128.size a ≤ S640000x128.size a
  hwx0_0 : ∀ i : grid0.Coords, EltTy.bits .bf16 = 32 ∨ (Rect.block (s := S640000x128) S5120x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5120x128.size a ≤ S640000x128.size a
  hwx0_1 : ∀ i : grid0.Coords, EltTy.bits .bf16 = 32 ∨ (Rect.block (s := S640000x128) S5120x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5120x4.size a ≤ S640000x4.size a
  hwx0_2 : ∀ i : grid0.Coords, EltTy.bits .f32 = 32 ∨ (Rect.block (s := S640000x4) S5120x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .f32 = 32 ∨ (Rect.block (s := S128x128) S128x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128.size a ≤ S128.size a
  hwx0_12 : ∀ i : grid0.Coords, EltTy.bits .f32 = 32 ∨ (Rect.block (s := S128) S128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1.size a ≤ S1.size a
  hwx0_14 : ∀ i : grid0.Coords, EltTy.bits .f32 = 32 ∨ (Rect.block (s := S1) S1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S5120x128.size a ≤ S640000x128.size a
  hwx0_15 : ∀ i : grid0.Coords, EltTy.bits .bf16 = 32 ∨ (Rect.block (s := S640000x128) S5120x128.size (cc0_transform_15 i) (hinb0_15 i)).WholeWords (EltTy.packing .bf16)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S5120x3.size a ≤ S640000x3.size a
  hwx0_16 : ∀ i : grid0.Coords, EltTy.bits .bf16 = 32 ∨ (Rect.block (s := S640000x3) S5120x3.size (cc0_transform_16 i) (hinb0_16 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x128.size a ≤ S50000x128.size a
  hwx1_9 : ∀ i : grid1.Coords, EltTy.bits .f32 = 32 ∨ (Rect.block (s := S50000x128) S5000x128.size (cc1_transform_9 i) (hinb1_9 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def gather_S50000x3_S640000x1_S640000x3_1_0_n_n_0_1_13 : GatherDims S50000x3 S640000x1 S640000x3 where
  offsetDims := [1]
  collapsedSliceDims := [0]
  operandBatchingDims := []
  startIndicesBatchingDims := []
  startIndexMap := [0]
  indexVectorDim := 1
  sliceSizes := ![1, 3]
  wf := gather_S50000x3_S640000x1_S640000x3_1_0_n_n_0_1_13_wf
def dot_S5120x128_S128x128_S5120x128_1_0_0_1_n_n : DotDims S5120x128 S128x128 S5120x128 where
  lhsContracting := [1]
  rhsContracting := [0]
  lhsNonContracting := [0]
  rhsNonContracting := [1]
  lhsBatch := []
  rhsBatch := []
  wf := dot_S5120x128_S128x128_S5120x128_1_0_0_1_n_n_wf
def scatter_S50000x131_S640000x1_S640000x131_1_0_0_1 : ScatterDims S50000x131 S640000x1 S640000x131 where
  updateWindowDims := [1]
  insertedWindowDims := [0]
  scatterDimsToOperandDims := [0]
  indexVectorDim := 1
  wf := scatter_S50000x131_S640000x1_S640000x131_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v11) S5120x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5120x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v37) S5120x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v39) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v40) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v41) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v42) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v43) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v44) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg10) S128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg11) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg12) S1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v50_0) S5120x128.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v50_1) S5120x3.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v56) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg14) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg16) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v49) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg18) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v59) S5000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x3 : Shape := ⟨2, ![50000, 3]⟩
abbrev S50000x128 : Shape := ⟨2, ![50000, 128]⟩
abbrev S2x640000 : Shape := ⟨2, ![2, 640000]⟩
abbrev S128x257 : Shape := ⟨2, ![128, 257]⟩
abbrev S128 : Shape := ⟨1, ![128]⟩
abbrev S128x128 : Shape := ⟨2, ![128, 128]⟩
abbrev S1x128 : Shape := ⟨2, ![1, 128]⟩
abbrev S1 : Shape := ⟨1, ![1]⟩
abbrev S128x256 : Shape := ⟨2, ![128, 256]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x3 : Shape := ⟨2, ![640000, 3]⟩
abbrev S640000x128 : Shape := ⟨2, ![640000, 128]⟩
abbrev S640000x257 : Shape := ⟨2, ![640000, 257]⟩
abbrev S257x128 : Shape := ⟨2, ![257, 128]⟩
abbrev S128x1 : Shape := ⟨2, ![128, 1]⟩
abbrev S1x1 : Shape := ⟨2, ![1, 1]⟩
abbrev S50000x256 : Shape := ⟨2, ![50000, 256]⟩
abbrev S256x128 : Shape := ⟨2, ![256, 128]⟩

abbrev nBuf : Space → Nat
  | .hbm => 164
  | .vmem => 0
  | .smem => 0
  | _ => 0

abbrev hbmTy0_0 (i : Nat) : BufTy := match i % 128 with
  | 0 => ⟨S50000x3, .f32⟩
  | 1 => ⟨S50000x128, .f32⟩
  | 2 => ⟨S2x640000, .i32⟩
  | 3 => ⟨S128x257, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S1x128, .f32⟩
  | 12 => ⟨S1, .f32⟩
  | 13 => ⟨S128x256, .f32⟩
  | 14 => ⟨S128, .f32⟩
  | 15 => ⟨S128x128, .f32⟩
  | 16 => ⟨S128, .f32⟩
  | 17 => ⟨S128x128, .f32⟩
  | 18 => ⟨S128, .f32⟩
  | 19 => ⟨S1x640000, .i32⟩
  | 20 => ⟨S640000, .i32⟩
  | 21 => ⟨S1x640000, .i32⟩
  | 22 => ⟨S640000, .i32⟩
  | 23 => ⟨S_, .i32⟩
  | 24 => ⟨S640000, .i32⟩
  | 25 => ⟨S640000, .i1⟩
  | 26 => ⟨S_, .i32⟩
  | 27 => ⟨S640000, .i32⟩
  | 28 => ⟨S640000, .i32⟩
  | 29 => ⟨S640000, .i32⟩
  | 30 => ⟨S640000x1, .i32⟩
  | 31 => ⟨S640000x3, .f32⟩
  | 32 => ⟨S_, .i32⟩
  | 33 => ⟨S640000, .i32⟩
  | 34 => ⟨S640000, .i1⟩
  | 35 => ⟨S_, .i32⟩
  | 36 => ⟨S640000, .i32⟩
  | 37 => ⟨S640000, .i32⟩
  | 38 => ⟨S640000, .i32⟩
  | 39 => ⟨S640000x1, .i32⟩
  | 40 => ⟨S640000x3, .f32⟩
  | 41 => ⟨S640000x3, .f32⟩
  | 42 => ⟨S640000x3, .f32⟩
  | 43 => ⟨S_, .f32⟩
  | 44 => ⟨S640000, .f32⟩
  | 45 => ⟨S640000x1, .f32⟩
  | 46 => ⟨S_, .i32⟩
  | 47 => ⟨S640000, .i32⟩
  | 48 => ⟨S640000, .i1⟩
  | 49 => ⟨S_, .i32⟩
  | 50 => ⟨S640000, .i32⟩
  | 51 => ⟨S640000, .i32⟩
  | 52 => ⟨S640000, .i32⟩
  | 53 => ⟨S640000x1, .i32⟩
  | 54 => ⟨S640000x128, .f32⟩
  | 55 => ⟨S_, .i32⟩
  | 56 => ⟨S640000, .i32⟩
  | 57 => ⟨S640000, .i1⟩
  | 58 => ⟨S_, .i32⟩
  | 59 => ⟨S640000, .i32⟩
  | 60 => ⟨S640000, .i32⟩
  | 61 => ⟨S640000, .i32⟩
  | 62 => ⟨S640000x1, .i32⟩
  | 63 => ⟨S640000x128, .f32⟩
  | 64 => ⟨S640000x257, .f32⟩
  | 65 => ⟨S257x128, .f32⟩
  | 66 => ⟨S640000x128, .f32⟩
  | 67 => ⟨S1x128, .f32⟩
  | 68 => ⟨S640000x128, .f32⟩
  | 69 => ⟨S640000x128, .f32⟩
  | 70 => ⟨S640000x128, .f32⟩
  | 71 => ⟨S640000x128, .f32⟩
  | 72 => ⟨S_, .f32⟩
  | 73 => ⟨S640000x128, .f32⟩
  | 74 => ⟨S640000x128, .f32⟩
  | 75 => ⟨S_, .f32⟩
  | 76 => ⟨S640000x128, .f32⟩
  | 77 => ⟨S640000x128, .f32⟩
  | 78 => ⟨S640000x128, .f32⟩
  | 79 => ⟨S128x128, .f32⟩
  | 80 => ⟨S640000x128, .f32⟩
  | 81 => ⟨S1x128, .f32⟩
  | 82 => ⟨S640000x128, .f32⟩
  | 83 => ⟨S640000x128, .f32⟩
  | 84 => ⟨S640000x128, .f32⟩
  | 85 => ⟨S640000x128, .f32⟩
  | 86 => ⟨S_, .f32⟩
  | 87 => ⟨S640000x128, .f32⟩
  | 88 => ⟨S640000x128, .f32⟩
  | 89 => ⟨S_, .f32⟩
  | 90 => ⟨S640000x128, .f32⟩
  | 91 => ⟨S640000x128, .f32⟩
  | 92 => ⟨S640000x128, .f32⟩
  | 93 => ⟨S128x128, .f32⟩
  | 94 => ⟨S640000x128, .f32⟩
  | 95 => ⟨S1x128, .f32⟩
  | 96 => ⟨S640000x128, .f32⟩
  | 97 => ⟨S640000x128, .f32⟩
  | 98 => ⟨S_, .f32⟩
  | 99 => ⟨S50000x128, .f32⟩
  | 100 => ⟨S640000x1, .i32⟩
  | 101 => ⟨S50000x128, .f32⟩
  | 102 => ⟨S128x128, .f32⟩
  | 103 => ⟨S640000x128, .f32⟩
  | 104 => ⟨S1x128, .f32⟩
  | 105 => ⟨S640000x128, .f32⟩
  | 106 => ⟨S640000x128, .f32⟩
  | 107 => ⟨S640000x128, .f32⟩
  | 108 => ⟨S640000x128, .f32⟩
  | 109 => ⟨S_, .f32⟩
  | 110 => ⟨S640000x128, .f32⟩
  | 111 => ⟨S640000x128, .f32⟩
  | 112 => ⟨S_, .f32⟩
  | 113 => ⟨S640000x128, .f32⟩
  | 114 => ⟨S640000x128, .f32⟩
  | 115 => ⟨S640000x128, .f32⟩
  | 116 => ⟨S128x1, .f32⟩
  | 117 => ⟨S640000x1, .f32⟩
  | 118 => ⟨S1x1, .f32⟩
  | 119 => ⟨S640000x1, .f32⟩
  | 120 => ⟨S640000x1, .f32⟩
  | 121 => ⟨S640000x1, .f32⟩
  | 122 => ⟨S640000x3, .f32⟩
  | 123 => ⟨S640000x3, .f32⟩
  | 124 => ⟨S_, .f32⟩
  | 125 => ⟨S50000x3, .f32⟩
  | 126 => ⟨S640000x1, .i32⟩
  | 127 => ⟨S50000x3, .f32⟩
  | _ => ⟨S50000x3, .f32⟩

abbrev hbmTy0_1 (i : Nat) : BufTy := match i % 128 with
  | 0 => ⟨S50000x3, .f32⟩
  | 1 => ⟨S50000x256, .f32⟩
  | 2 => ⟨S256x128, .f32⟩
  | 3 => ⟨S50000x128, .f32⟩
  | 4 => ⟨S1x128, .f32⟩
  | 5 => ⟨S50000x128, .f32⟩
  | 6 => ⟨S50000x128, .f32⟩
  | 7 => ⟨S50000x128, .f32⟩
  | 8 => ⟨S50000x128, .f32⟩
  | 9 => ⟨S_, .f32⟩
  | 10 => ⟨S50000x128, .f32⟩
  | 11 => ⟨S50000x128, .f32⟩
  | 12 => ⟨S_, .f32⟩
  | 13 => ⟨S50000x128, .f32⟩
  | 14 => ⟨S50000x128, .f32⟩
  | 15 => ⟨S50000x128, .f32⟩
  | 16 => ⟨S128x128, .f32⟩
  | 17 => ⟨S50000x128, .f32⟩
  | 18 => ⟨S1x128, .f32⟩
  | 19 => ⟨S50000x128, .f32⟩
  | 20 => ⟨S50000x128, .f32⟩
  | 21 => ⟨S50000x128, .f32⟩
  | 22 => ⟨S50000x128, .f32⟩
  | 23 => ⟨S_, .f32⟩
  | 24 => ⟨S50000x128, .f32⟩
  | 25 => ⟨S50000x128, .f32⟩
  | 26 => ⟨S_, .f32⟩
  | 27 => ⟨S50000x128, .f32⟩
  | 28 => ⟨S50000x128, .f32⟩
  | 29 => ⟨S50000x128, .f32⟩
  | 30 => ⟨S128x128, .f32⟩
  | 31 => ⟨S50000x128, .f32⟩
  | 32 => ⟨S1x128, .f32⟩
  | 33 => ⟨S50000x128, .f32⟩
  | 34 => ⟨S50000x128, .f32⟩
  | 35 => ⟨S50000x128, .f32⟩
  | _ => ⟨S50000x3, .f32⟩

abbrev hbmTy (i : Nat) : BufTy := match i / 128 with
  | 0 => hbmTy0_0 i
  | 1 => hbmTy0_1 i
  | _ => ⟨S50000x3, .f32⟩

abbrev bufTy : (tb : Table) → Fin (tcTables nBuf tb) → BufTy
  | .hbm, ⟨i, _⟩ => hbmTy i
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c_1 : Ref sig .tc := ⟨.hbm, 32, rfl⟩
abbrev main_v11 : Ref sig .tc := ⟨.hbm, 33, rfl⟩
abbrev main_v12 : Ref sig .tc := ⟨.hbm, 34, rfl⟩
abbrev main_c_2 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst : Ref sig .tc := ⟨.hbm, 43, rfl⟩
abbrev main_v20 : Ref sig .tc := ⟨.hbm, 44, rfl⟩
abbrev main_v21 : Ref sig .tc := ⟨.hbm, 45, rfl⟩
abbrev main_c_3 : Ref sig .tc := ⟨.hbm, 46, rfl⟩
abbrev main_v22 : Ref sig .tc := ⟨.hbm, 47, rfl⟩
abbrev main_v23 : Ref sig .tc := ⟨.hbm, 48, rfl⟩
abbrev main_c_4 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_c_5 : Ref sig .tc := ⟨.hbm, 55, rfl⟩
abbrev main_v29 : Ref sig .tc := ⟨.hbm, 56, rfl⟩
abbrev main_v30 : Ref sig .tc := ⟨.hbm, 57, rfl⟩
abbrev main_c_6 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_call0_v0 : Ref sig .tc := ⟨.hbm, 70, rfl⟩
abbrev main_call0_v1 : Ref sig .tc := ⟨.hbm, 71, rfl⟩
abbrev main_call0_cst : Ref sig .tc := ⟨.hbm, 72, rfl⟩
abbrev main_call0_v2 : Ref sig .tc := ⟨.hbm, 73, rfl⟩
abbrev main_call0_v3 : Ref sig .tc := ⟨.hbm, 74, rfl⟩
abbrev main_call0_cst_0 : Ref sig .tc := ⟨.hbm, 75, rfl⟩
abbrev main_call0_v4 : Ref sig .tc := ⟨.hbm, 76, rfl⟩
abbrev main_call0_v5 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_call1_v0 : Ref sig .tc := ⟨.hbm, 84, rfl⟩
abbrev main_call1_v1 : Ref sig .tc := ⟨.hbm, 85, rfl⟩
abbrev main_call1_cst : Ref sig .tc := ⟨.hbm, 86, rfl⟩
abbrev main_call1_v2 : Ref sig .tc := ⟨.hbm, 87, rfl⟩
abbrev main_call1_v3 : Ref sig .tc := ⟨.hbm, 88, rfl⟩
abbrev main_call1_cst_0 : Ref sig .tc := ⟨.hbm, 89, rfl⟩
abbrev main_call1_v4 : Ref sig .tc := ⟨.hbm, 90, rfl⟩
abbrev main_call1_v5 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_cst_7 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_call2_v0 : Ref sig .tc := ⟨.hbm, 107, rfl⟩
abbrev main_call2_v1 : Ref sig .tc := ⟨.hbm, 108, rfl⟩
abbrev main_call2_cst : Ref sig .tc := ⟨.hbm, 109, rfl⟩
abbrev main_call2_v2 : Ref sig .tc := ⟨.hbm, 110, rfl⟩
abbrev main_call2_v3 : Ref sig .tc := ⟨.hbm, 111, rfl⟩
abbrev main_call2_cst_0 : Ref sig .tc := ⟨.hbm, 112, rfl⟩
abbrev main_call2_v4 : Ref sig .tc := ⟨.hbm, 113, rfl⟩
abbrev main_call2_v5 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_cst_8 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_call3_v0 : Ref sig .tc := ⟨.hbm, 135, rfl⟩
abbrev main_call3_v1 : Ref sig .tc := ⟨.hbm, 136, rfl⟩
abbrev main_call3_cst : Ref sig .tc := ⟨.hbm, 137, rfl⟩
abbrev main_call3_v2 : Ref sig .tc := ⟨.hbm, 138, rfl⟩
abbrev main_call3_v3 : Ref sig .tc := ⟨.hbm, 139, rfl⟩
abbrev main_call3_cst_0 : Ref sig .tc := ⟨.hbm, 140, rfl⟩
abbrev main_call3_v4 : Ref sig .tc := ⟨.hbm, 141, rfl⟩
abbrev main_call3_v5 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_call4_v0 : Ref sig .tc := ⟨.hbm, 149, rfl⟩
abbrev main_call4_v1 : Ref sig .tc := ⟨.hbm, 150, rfl⟩
abbrev main_call4_cst : Ref sig .tc := ⟨.hbm, 151, rfl⟩
abbrev main_call4_v2 : Ref sig .tc := ⟨.hbm, 152, rfl⟩
abbrev main_call4_v3 : Ref sig .tc := ⟨.hbm, 153, rfl⟩
abbrev main_call4_cst_0 : Ref sig .tc := ⟨.hbm, 154, rfl⟩
abbrev main_call4_v4 : Ref sig .tc := ⟨.hbm, 155, rfl⟩
abbrev main_call4_v5 : Ref sig .tc := ⟨.hbm, 156, rfl⟩
abbrev main_v87 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  reducesTo_S640000x3_S640000_d1 : S640000x3.ReducesTo [1] S640000
  h_S_ : 0 < S_.numel
  concatenates_S640000x128_S640000x128_S640000x1_S640000x257_d1 : Shape.Concatenates [S640000x128, S640000x128, S640000x1] S640000x257 1
  transposes_S128x257_S257x128_1_0 : S128x257.Transposes [1, 0] S257x128
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  transposes_S128x128_S128x128_1_0 : S128x128.Transposes [1, 0] S128x128
  bcast_S_S50000x128 : S_.BroadcastsInDim S50000x128 (![] : Fin 0 → Fin S50000x128.rank)
  transposes_S1x128_S128x1_1_0 : S1x128.Transposes [1, 0] S128x1
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  bcast_S640000x1_S640000x3_0_1 : S640000x1.BroadcastsInDim S640000x3 (![0, 1] : Fin 2 → Fin S640000x3.rank)
  bcast_S_S50000x3 : S_.BroadcastsInDim S50000x3 (![] : Fin 0 → Fin S50000x3.rank)
  concatenates_S50000x128_S50000x128_S50000x256_d1 : Shape.Concatenates [S50000x128, S50000x128] S50000x256 1
  transposes_S128x256_S256x128_1_0 : S128x256.Transposes [1, 0] S256x128
  bcast_S1x128_S50000x128_0_1 : S1x128.BroadcastsInDim S50000x128 (![0, 1] : Fin 2 → Fin S50000x128.rank)
  gather_S50000x3_S640000x1_S640000x3_1_0_n_n_0_1_13_wf : GatherDims.WF S50000x3 S640000x1 S640000x3 [1] [0] [] [0] [] 1 ![1, 3]
  gather_S50000x128_S640000x1_S640000x128_1_0_n_n_0_1_1128_wf : GatherDims.WF S50000x128 S640000x1 S640000x128 [1] [0] [] [0] [] 1 ![1, 128]
  dot_S640000x257_S257x128_S640000x128_1_0_0_1_n_n_wf : DotDims.WF S640000x257 S257x128 S640000x128 [1] [0] [0] [1] [] []
  dot_S640000x128_S128x128_S640000x128_1_0_0_1_n_n_wf : DotDims.WF S640000x128 S128x128 S640000x128 [1] [0] [0] [1] [] []
  scatter_S50000x128_S640000x1_S640000x128_1_0_0_1_wf : ScatterDims.WF S50000x128 S640000x1 S640000x128 [1] [0] [0] 1
  dot_S640000x128_S128x1_S640000x1_1_0_0_1_n_n_wf : DotDims.WF S640000x128 S128x1 S640000x1 [1] [0] [0] [1] [] []
  scatter_S50000x3_S640000x1_S640000x3_1_0_0_1_wf : ScatterDims.WF S50000x3 S640000x1 S640000x3 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x3_S640000x1_S640000x3_1_0_n_n_0_1_13 : GatherDims S50000x3 S640000x1 S640000x3 where
  offsetDims := [1]
  collapsedSliceDims := [0]
  operandBatchingDims := []
  startIndicesBatchingDims := []
  startIndexMap := [0]
  indexVectorDim := 1
  sliceSizes := ![1, 3]
  wf := gather_S50000x3_S640000x1_S640000x3_1_0_n_n_0_1_13_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S640000x257_S257x128_S640000x128_1_0_0_1_n_n : DotDims S640000x257 S257x128 S640000x128 where
  lhsContracting := [1]
  rhsContracting := [0]
  lhsNonContracting := [0]
  rhsNonContracting := [1]
  lhsBatch := []
  rhsBatch := []
  wf := dot_S640000x257_S257x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S640000x128_S128x1_S640000x1_1_0_0_1_n_n : DotDims S640000x128 S128x1 S640000x1 where
  lhsContracting := [1]
  rhsContracting := [0]
  lhsNonContracting := [0]
  rhsNonContracting := [1]
  lhsBatch := []
  rhsBatch := []
  wf := dot_S640000x128_S128x1_S640000x1_1_0_0_1_n_n_wf
def scatter_S50000x3_S640000x1_S640000x3_1_0_0_1 : ScatterDims S50000x3 S640000x1 S640000x3 where
  updateWindowDims := [1]
  insertedWindowDims := [0]
  scatterDimsToOperandDims := [0]
  indexVectorDim := 1
  wf := scatter_S50000x3_S640000x1_S640000x3_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KRun.lean ====
/-
  The idealized kernel's run with its buffers named.

  The program is four segments in a row: the host operations before the first pallas_call, the edge pipeline, the
  host operations between the two calls, the node pipeline. The contents of the TensorCore's buffers at each of the
  five boundaries are a fold from the launch memory (the generated frame module's W0 … W4): a host stretch applies
  its operations, a pipeline leaves each of its output arrays at the blocks its grid points wrote back and every
  other buffer as it found it. The generated frame theorem runs the segments and then forgets everything but the
  argument arrays; here the same run is read at EVERY buffer that is not a staging buffer: after the run it holds
  what the last boundary's contents W4 say.
-/
import proofs.«113372_j781684048540_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and afterwards every buffer that is not a
    staging buffer holds the last boundary's contents. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W4 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c b hb => h c _ (mem_uc b hb))

end Cert.KernelIdeal.KRun

end
-- ==== Proof.Args.lean ====
/-
  The nineteen argument arrays of the kernel program at launch, named: x, h, the edge list, and the weights and
  biases of the edge, coordinate and node perceptrons.
-/
import proofs.«113372_j781684048540_2_alg».proof.Proof.Gen.KernelIdeal.Frame
import proofs.«113372_j781684048540_2_alg».proof.Proof.RefStages

set_option maxRecDepth 16384

noncomputable section

namespace Cert.Bridge

open Idealize.ShloMosaic Idealize.ShloMosaic.TcCoe Idealize.SL.Sem Idealize.ShloMosaic.StableHlo
open Cert.KernelIdeal Cert.KernelIdeal.Gen Cert.ReferenceIdeal.Stages

variable (m : (ℓ : Loc nD τ sig) → Buf (Elt Ideal) ℓ) (ρ : Dev nD → PrngReg) (c : Dev nD)

abbrev A0 : (⟨S50000x3, .f32⟩ : BufTy).Contents (Elt Ideal) := m ((c : Thread nD τ).loc main_arg0)
abbrev A1 : (⟨S50000x128, .f32⟩ : BufTy).Contents (Elt Ideal) := m ((c : Thread nD τ).loc main_arg1)
abbrev A2 : (⟨S2x640000, .i32⟩ : BufTy).Contents (Elt Ideal) := m ((c : Thread nD τ).loc main_arg2)
abbrev A3 : (⟨S128x257, .f32⟩ : BufTy).Contents (Elt Ideal) := m ((c : Thread nD τ).loc main_arg3)
abbrev A4 : (⟨S128, .f32⟩ : BufTy).Contents (Elt Ideal) := m ((c : Thread nD τ).loc main_arg4)
abbrev A5 : (⟨S128x128, .f32⟩ : BufTy).Contents (Elt Ideal) := m ((c : Thread nD τ).loc main_arg5)
abbrev A6 : (⟨S128, .f32⟩ : BufTy).Contents (Elt Ideal) := m ((c : Thread nD τ).loc main_arg6)
abbrev A7 : (⟨S128x128, .f32⟩ : BufTy).Contents (Elt Ideal) := m ((c : Thread nD τ).loc main_arg7)
abbrev A8 : (⟨S128, .f32⟩ : BufTy).Contents (Elt Ideal) := m ((c : Thread nD τ).loc main_arg8)
abbrev A9 : (⟨S128x128, .f32⟩ : BufTy).Contents (Elt Ideal) := m ((c : Thread nD τ).loc main_arg9)
abbrev A10 : (⟨S128, .f32⟩ : BufTy).Contents (Elt Ideal) := m ((c : Thread nD τ).loc main_arg10)
abbrev A11 : (⟨S1x128, .f32⟩ : BufTy).Contents (Elt Ideal) := m ((c : Thread nD τ).loc main_arg11)
abbrev A12 : (⟨S1, .f32⟩ : BufTy).Contents (Elt Ideal) := m ((c : Thread nD τ).loc main_arg12)
abbrev A13 : (⟨S128x256, .f32⟩ : BufTy).Contents (Elt Ideal) := m ((c : Thread nD τ).loc main_arg13)
abbrev A14 : (⟨S128, .f32⟩ : BufTy).Contents (Elt Ideal) := m ((c : Thread nD τ).loc main_arg14)
abbrev A15 : (⟨S128x128, .f32⟩ : BufTy).Contents (Elt Ideal) := m ((c : Thread nD τ).loc main_arg15)
abbrev A16 : (⟨S128, .f32⟩ : BufTy).Contents (Elt Ideal) := m ((c : Thread nD τ).loc main_arg16)
abbrev A17 : (⟨S128x128, .f32⟩ : BufTy).Contents (Elt Ideal) := m ((c : Thread nD τ).loc main_arg17)
abbrev A18 : (⟨S128, .f32⟩ : BufTy).Contents (Elt Ideal) := m ((c : Thread nD τ).loc main_arg18)

end Cert.Bridge

end
-- ==== Proof.HostArgs.lean ====
/-
  No host operation before the edge pipeline writes an argument array: each still holds its launch contents when the
  pipeline is entered.
-/
import proofs.«113372_j781684048540_2_alg».proof.Proof.Args

set_option maxRecDepth 16384

noncomputable section

namespace Cert.Bridge

open Idealize.ShloMosaic Idealize.ShloMosaic.TcCoe Idealize.SL.Sem Idealize.ShloMosaic.StableHlo
open Cert.KernelIdeal Cert.KernelIdeal.Gen Cert.ReferenceIdeal.Stages

variable (m : (ℓ : Loc nD τ sig) → Buf (Elt Ideal) ℓ) (ρ : Dev nD → PrngReg) (c : Dev nD)

theorem W1_arg0 : W1 m ρ c (Proc.devRef .tc main_arg0) = A0 m c := by
  show StableHlo.after hostOps0 (W0 m ρ c) (Proc.devRef .tc main_arg0) = _
  after_results_simp <;> rfl

theorem W1_arg1 : W1 m ρ c (Proc.devRef .tc main_arg1) = A1 m c := by
  show StableHlo.after hostOps0 (W0 m ρ c) (Proc.devRef .tc main_arg1) = _
  after_results_simp <;> rfl

theorem W1_arg4 : W1 m ρ c (Proc.devRef .tc main_arg4) = A4 m c := by
  show StableHlo.after hostOps0 (W0 m ρ c) (Proc.devRef .tc main_arg4) = _
  after_results_simp <;> rfl

theorem W1_arg6 : W1 m ρ c (Proc.devRef .tc main_arg6) = A6 m c := by
  show StableHlo.after hostOps0 (W0 m ρ c) (Proc.devRef .tc main_arg6) = _
  after_results_simp <;> rfl

theorem W1_arg8 : W1 m ρ c (Proc.devRef .tc main_arg8) = A8 m c := by
  show StableHlo.after hostOps0 (W0 m ρ c) (Proc.devRef .tc main_arg8) = _
  after_results_simp <;> rfl

theorem W1_arg10 : W1 m ρ c (Proc.devRef .tc main_arg10) = A10 m c := by
  show StableHlo.after hostOps0 (W0 m ρ c) (Proc.devRef .tc main_arg10) = _
  after_results_simp <;> rfl

theorem W1_arg11 : W1 m ρ c (Proc.devRef .tc main_arg11) = A11 m c := by
  show StableHlo.after hostOps0 (W0 m ρ c) (Proc.devRef .tc main_arg11) = _
  after_results_simp <;> rfl

theorem W1_arg12 : W1 m ρ c (Proc.devRef .tc main_arg12) = A12 m c := by
  show StableHlo.after hostOps0 (W0 m ρ c) (Proc.devRef .tc main_arg12) = _
  after_results_simp <;> rfl

theorem W1_arg14 : W1 m ρ c (Proc.devRef .tc main_arg14) = A14 m c := by
  show StableHlo.after hostOps0 (W0 m ρ c) (Proc.devRef .tc main_arg14) = _
  after_results_simp <;> rfl

theorem W1_arg16 : W1 m ρ c (Proc.devRef .tc main_arg16) = A16 m c := by
  show StableHlo.after hostOps0 (W0 m ρ c) (Proc.devRef .tc main_arg16) = _
  after_results_simp <;> rfl

theorem W1_arg18 : W1 m ρ c (Proc.devRef .tc main_arg18) = A18 m c := by
  show StableHlo.after hostOps0 (W0 m ρ c) (Proc.devRef .tc main_arg18) = _
  after_results_simp <;> rfl

end Cert.Bridge

end
-- ==== Proof.HostEdge.lean ====
/-
  What the edge pipeline's input buffers hold when it is entered, written with the reference's own stages.

  The host operations before the edge pipeline are, operation for operation, the ones the reference starts with: the
  two rows of the edge list, the wrapped indices, the gathered rows of h (through a narrowing of the format, which is
  the identity on the extended reals) and of x, the difference rel, its squared length d2, and the transposes of the
  weight matrices. So each buffer the pipeline reads is a stage of the reference (or a block of rows cut out of one,
  or two of them side by side), as an array, by unfolding both sides.
-/
import proofs.«113372_j781684048540_2_alg».proof.Proof.Args

set_option maxRecDepth 16384

noncomputable section

namespace Cert.Bridge

open Idealize.ShloMosaic Idealize.ShloMosaic.TcCoe Idealize.SL.Sem Idealize.ShloMosaic.StableHlo
open Cert.KernelIdeal Cert.KernelIdeal.Gen Cert.ReferenceIdeal.Stages

variable (m : (ℓ : Loc nD τ sig) → Buf (Elt Ideal) ℓ) (ρ : Dev nD → PrngReg) (c : Dev nD)

/-- The first row of the edge list: the sending node of each edge. -/
theorem W1_v1 : W1 m ρ c (Proc.devRef .tc main_v1) = val_main_v1 (F := Ideal) (A2 m c) := by
  show StableHlo.after hostOps0 (W0 m ρ c) (Proc.devRef .tc main_v1) = _
  after_results_simp <;> rfl

/-- The rows of h at the sending nodes. -/
theorem W1_v11 : W1 m ρ c (Proc.devRef .tc main_v11) = val_main_v28 (F := Ideal) (A1 m c) (A2 m c) := by
  show StableHlo.after hostOps0 (W0 m ρ c) (Proc.devRef .tc main_v11) = _
  after_results_simp <;> rfl

/-- The rows of h at the receiving nodes. -/
theorem W1_v18 : W1 m ρ c (Proc.devRef .tc main_v18) = val_main_v35 (F := Ideal) (A1 m c) (A2 m c) := by
  show StableHlo.after hostOps0 (W0 m ρ c) (Proc.devRef .tc main_v18) = _
  after_results_simp <;> rfl

/-- The difference of positions beside its squared length, four columns. -/
theorem W1_v37 : W1 m ρ c (Proc.devRef .tc main_v37) = concatenate S640000x4 1 [⟨S640000x3, val_main_v18 (F := Ideal) (A0 m c) (A2 m c)⟩, ⟨S640000x1, val_main_v21 (F := Ideal) (A0 m c) (A2 m c)⟩] concatenates_S640000x3_S640000x1_S640000x4_d1 := by
  show StableHlo.after hostOps0 (W0 m ρ c) (Proc.devRef .tc main_v37) = _
  after_results_simp
  refine congrArg₂ (fun (a : (⟨S640000x3, .f32⟩ : BufTy).Contents (Elt Ideal)) (b : (⟨S640000x1, .f32⟩ : BufTy).Contents (Elt Ideal)) =>
    concatenate S640000x4 1 [⟨S640000x3, a⟩, ⟨S640000x1, b⟩] concatenates_S640000x3_S640000x1_S640000x4_d1) ?_ ?_
  · after_results_simp <;> rfl
  · after_results_simp <;> rfl

end Cert.Bridge

end
-- ==== Proof.HostWeights.lean ====
/-
  The weight matrices as the two pipelines read them: each is the reference's transpose of the argument, or a block of
  128 rows (or the last row) cut out of that transpose, as an array, by unfolding both sides.
-/
import proofs.«113372_j781684048540_2_alg».proof.Proof.Args

set_option maxRecDepth 16384

noncomputable section

namespace Cert.Bridge

open Idealize.ShloMosaic Idealize.ShloMosaic.TcCoe Idealize.SL.Sem Idealize.ShloMosaic.StableHlo
open Cert.KernelIdeal Cert.KernelIdeal.Gen Cert.ReferenceIdeal.Stages

variable (m : (ℓ : Loc nD τ sig) → Buf (Elt Ideal) ℓ) (ρ : Dev nD → PrngReg) (c : Dev nD)

/-- Rows 0 … 127 of the first edge weight matrix transposed. -/
theorem W1_v39 : W1 m ρ c (Proc.devRef .tc main_v39) = extractStridedSlice S128x128 ![0, 0] (val_main_v37 (F := Ideal) (A3 m c)) slices_S257x128_S128x128_0_0 := by
  show StableHlo.after hostOps0 (W0 m ρ c) (Proc.devRef .tc main_v39) = _
  after_results_simp <;> rfl

/-- Rows 128 … 255. -/
theorem W1_v40 : W1 m ρ c (Proc.devRef .tc main_v40) = extractStridedSlice S128x128 ![128, 0] (val_main_v37 (F := Ideal) (A3 m c)) slices_S257x128_S128x128_128_0 := by
  show StableHlo.after hostOps0 (W0 m ρ c) (Proc.devRef .tc main_v40) = _
  after_results_simp <;> rfl

/-- Row 256. -/
theorem W1_v41 : W1 m ρ c (Proc.devRef .tc main_v41) = extractStridedSlice S1x128 ![256, 0] (val_main_v37 (F := Ideal) (A3 m c)) slices_S257x128_S1x128_256_0 := by
  show StableHlo.after hostOps0 (W0 m ρ c) (Proc.devRef .tc main_v41) = _
  after_results_simp <;> rfl

theorem W1_v42 : W1 m ρ c (Proc.devRef .tc main_v42) = val_main_v43 (F := Ideal) (A5 m c) := by
  show StableHlo.after hostOps0 (W0 m ρ c) (Proc.devRef .tc main_v42) = _
  after_results_simp <;> rfl

theorem W1_v43 : W1 m ρ c (Proc.devRef .tc main_v43) = val_main_v49 (F := Ideal) (A7 m c) := by
  show StableHlo.after hostOps0 (W0 m ρ c) (Proc.devRef .tc main_v43) = _
  after_results_simp <;> rfl

theorem W1_v44 : W1 m ρ c (Proc.devRef .tc main_v44) = val_main_v57 (F := Ideal) (A9 m c) := by
  show StableHlo.after hostOps0 (W0 m ρ c) (Proc.devRef .tc main_v44) = _
  after_results_simp <;> rfl

/-- Rows 0 … 127 of the first node weight matrix transposed. -/
theorem W1_v46 : W1 m ρ c (Proc.devRef .tc main_v46) = extractStridedSlice S128x128 ![0, 0] (val_main_v76 (F := Ideal) (A13 m c)) slices_S256x128_S128x128_0_0 := by
  show StableHlo.after hostOps0 (W0 m ρ c) (Proc.devRef .tc main_v46) = _
  after_results_simp <;> rfl

/-- Rows 128 … 255. -/
theorem W1_v47 : W1 m ρ c (Proc.devRef .tc main_v47) = extractStridedSlice S128x128 ![128, 0] (val_main_v76 (F := Ideal) (A13 m c)) slices_S256x128_S128x128_128_0 := by
  show StableHlo.after hostOps0 (W0 m ρ c) (Proc.devRef .tc main_v47) = _
  after_results_simp <;> rfl

theorem W1_v48 : W1 m ρ c (Proc.devRef .tc main_v48) = val_main_v82 (F := Ideal) (A15 m c) := by
  show StableHlo.after hostOps0 (W0 m ρ c) (Proc.devRef .tc main_v48) = _
  after_results_simp <;> rfl

theorem W1_v49 : W1 m ρ c (Proc.devRef .tc main_v49) = val_main_v88 (F := Ideal) (A17 m c) := by
  show StableHlo.after hostOps0 (W0 m ρ c) (Proc.devRef .tc main_v49) = _
  after_results_simp <;> rfl

end Cert.Bridge

end
-- ==== Proof.LibColumns.lean ====
/-
  Rows and columns: two facts about arrays whose columns are laid side by side.

  All arrays are rank 2. An update array of `E` rows is scattered into an array of `N` rows by a column `I` of
  row indices (one signed integer per update row, `I (e, 0)`): update element `(e, g)` is added at `(I e, g)`,
  and dropped when `I e` is not a row of the target. A gather reads the other way: result element `(e, g)` is
  the operand at `(J e, g)`, with `J e` brought into `[0, N − 1]`. Both act on each column on its own. Hence:

  * scattering (with addition, on the extended reals) two arrays laid side by side and then cutting the result
    back into its two column ranges gives the two scatters of the two arrays;
  * gathering rows of two arrays laid side by side and then cutting gives the two gathers.

  The dimension numbers are the records `rowScatter` and `rowGather` below, whose side conditions are a
  parameter: any record with the same lists is one of them by `rfl`.
-/
import Idealize.ShloMosaic.PureOps.Ideal
import Idealize.ShloMosaic.PureOps.ShapeOps
import Idealize.ShloMosaic.PureOps.Dims
import Idealize.ShloMosaic.PureOps.Contract
import Idealize.ShloMosaic.Lib.ValueIdx
import Idealize.ShloMosaic.Lib.Pipeline.Value

noncomputable section

open scoped BigOperators

namespace Cert.LibColumns

open Idealize.ShloMosaic Idealize.ShloMosaic.ValueIdx

/-! ## Scattering rows -/

/-- The dimension numbers of a row scatter: updates `[E, C]` go into an operand `[N, C]` at the rows named by
    scatter indices `[E, 1]` — the updates' axis 1 is the window axis, the operand's axis 0 is inserted and is the
    one the index names, the index vector lies along axis 1 of the indices. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Scatter
variable {N E C w : Nat} (wf : ScatterDims.WF ⟨2, ![N, C]⟩ ⟨2, ![E, 1]⟩ ⟨2, ![E, C]⟩ [1] [0] [0] 1)
  (I : IVec ⟨2, ![E, 1]⟩ w)

/-- On the row axis the window of update `(e, g)` starts at the signed value of the index `I (e, 0)`. -/
theorem rowScatter_start_row (e : Fin E) (g : Fin C) :
    (rowScatter N E C wf).start (ix2 e g) I 0 = (I (ix2 e (0 : Fin 1))).toInt := by
  unfold ScatterDims.start
  rw [dif_pos (show (0 : Fin 2) ∈ (rowScatter N E C wf).scatterDimsToOperandDims from List.mem_singleton.mpr rfl)]
  congr 2
  funext b
  refine Fin.ext ?_
  match b with
  | ⟨0, _⟩ => rfl
  | ⟨1, _⟩ => rfl

/-- On the column axis every window starts at 0. -/
theorem rowScatter_start_col (e : Fin E) (g : Fin C) :
    (rowScatter N E C wf).start (ix2 e g) I 1 = 0 := by
  unfold ScatterDims.start
  rw [dif_neg (show (1 : Fin 2) ∉ ([0] : List (Fin 2)) by simp)]

/-- The row axis is inserted: the window coordinate there is 0. -/
theorem rowScatter_window_row (e : Fin E) (g : Fin C) :
    (rowScatter N E C wf).window (ix2 e g) 0 = 0 := by
  unfold ScatterDims.window
  rw [dif_neg (show (0 : Fin 2) ∉ Shape.kept ⟨2, ![N, C]⟩ [0] by simp [Shape.kept])]

/-- On the column axis the window coordinate of update `(e, g)` is `g`. -/
theorem rowScatter_window_col (e : Fin E) (g : Fin C) :
    (rowScatter N E C wf).window (ix2 e g) 1 = g.val := by
  unfold ScatterDims.window
  rw [dif_pos (show (1 : Fin 2) ∈ Shape.kept ⟨2, ![N, C]⟩ [0] by simp [Shape.kept])]
  rfl

/-- Update `(e, g)` lands on `(n, f)` exactly when its index is `n` and `g = f`. -/
theorem rowScatter_resultIdx?_eq_some_iff (e : Fin E) (g : Fin C) (n : Fin N) (f : Fin C) :
    (rowScatter N E C wf).resultIdx? (ix2 e g) I = some (ix2 n f)
      ↔ (I (ix2 e (0 : Fin 1))).toInt = (n.val : Int) ∧ g = f := by
  have hs0 := rowScatter_start_row wf I e g
  have hs1 := rowScatter_start_col wf I e g
  have hw0 := rowScatter_window_row wf e g
  have hw1 := rowScatter_window_col wf e g
  unfold ScatterDims.resultIdx?
  by_cases h : ∀ a : Fin 2, 0 ≤ (rowScatter N E C wf).start (ix2 e g) I a + ((rowScatter N E C wf).window (ix2 e g) a : Int)
      ∧ (rowScatter N E C wf).start (ix2 e g) I a + ((rowScatter N E C wf).window (ix2 e g) a : Int)
        < ((⟨2, ![N, C]⟩ : Shape).size a : Int)
  · rw [dif_pos h]
    have h0 := h 0
    rw [hs0, hw0] at h0
    constructor
    · intro hh
      have hh' := Option.some.inj hh
      have e0 := congrArg (fun k => (k 0).val) hh'
      have e1 := congrArg (fun k => (k 1).val) hh'
      simp only [hs0, hw0, hs1, hw1] at e0 e1
      refine ⟨?_, Fin.ext ?_⟩
      · have : ((I (ix2 e (0 : Fin 1))).toInt + ((0 : Nat) : Int)).toNat = n.val := e0
        omega
      · have : ((0 : Int) + (g.val : Int)).toNat = f.val := e1
        omega
    · rintro ⟨ht, rfl⟩
      congr 1
      funext a
      refine Fin.ext ?_
      match a with
      | ⟨0, _⟩ =>
        show ((rowScatter N E C wf).start (ix2 e g) I 0 + ((rowScatter N E C wf).window (ix2 e g) 0 : Int)).toNat = n.val
        rw [hs0, hw0]; omega
      | ⟨1, _⟩ =>
        show ((rowScatter N E C wf).start (ix2 e g) I 1 + ((rowScatter N E C wf).window (ix2 e g) 1 : Int)).toNat = g.val
        rw [hs1, hw1]; omega
  · rw [dif_neg h]
    constructor
    · intro hh; exact absurd hh (by simp)
    · rintro ⟨ht, rfl⟩
      exfalso
      apply h
      intro a
      match a with
      | ⟨0, _⟩ =>
        show 0 ≤ (rowScatter N E C wf).start (ix2 e g) I 0 + ((rowScatter N E C wf).window (ix2 e g) 0 : Int)
          ∧ (rowScatter N E C wf).start (ix2 e g) I 0 + ((rowScatter N E C wf).window (ix2 e g) 0 : Int) < (N : Int)
        rw [hs0, hw0]; have := n.isLt; omega
      | ⟨1, _⟩ =>
        show 0 ≤ (rowScatter N E C wf).start (ix2 e g) I 1 + ((rowScatter N E C wf).window (ix2 e g) 1 : Int)
          ∧ (rowScatter N E C wf).start (ix2 e g) I 1 + ((rowScatter N E C wf).window (ix2 e g) 1 : Int) < (C : Int)
        rw [hs1, hw1]; have := g.isLt; omega

/-- THE ROW SCATTER-ADD AT `(n, f)`: the operand's element plus the sum, over the update rows `e` whose index is
    `n`, of the update's element `(e, f)`. -/
theorem hostScatterAdd_rows_apply (X : (⟨2, ![N, C]⟩ : Shape).Idx → EReal) (U : (⟨2, ![E, C]⟩ : Shape).Idx → EReal)
    (n : Fin N) (f : Fin C) :
    Ideal.hostScatterAdd (rowScatter N E C wf) X I U (ix2 n f)
      = X (ix2 n f) + ∑ e : Fin E, if (I (ix2 e (0 : Fin 1))).toInt = (n.val : Int) then U (ix2 e f) else 0 := by
  unfold Ideal.hostScatterAdd
  congr 1
  rw [Finset.sum_filter, sum_idx2]
  refine Finset.sum_congr rfl fun e _ => ?_
  simp only [rowScatter_resultIdx?_eq_some_iff]
  by_cases ht : (I (ix2 e (0 : Fin 1))).toInt = (n.val : Int)
  · simp [ht]
  · simp [ht]

/-- The same for the host operation at the ideal instance, at any float format. -/
theorem scatterAdd_rows_apply {φ : FTy} (X : FVec Ideal ⟨2, ![N, C]⟩ φ) (U : FVec Ideal ⟨2, ![E, C]⟩ φ)
    (n : Fin N) (f : Fin C) :
    Host.scatterAdd (rowScatter N E C wf) X I U (ix2 n f)
      = X (ix2 n f) + ∑ e : Fin E, if (I (ix2 e (0 : Fin 1))).toInt = (n.val : Int) then U (ix2 e f) else 0 :=
  hostScatterAdd_rows_apply wf I X U n f

end Scatter

/-! ## A scatter-add of two arrays side by side, cut back into its column ranges -/

section ScatterColumns
variable {N E C D T w : Nat} {φ : FTy}

/-- The first `C` columns of the scatter-add of `[A | B]` (columns `C` and `D` wide) into `X` are the scatter-add
    of `A` into the first `C` columns of `X`: the sum for `(n, f)`, `f < C`, runs over the update rows whose
    index is `n` and reads column `f` of `[A | B]`, which is column `f` of `A`. -/
theorem slice_scatterAdd_concat_left
    (wfT : ScatterDims.WF ⟨2, ![N, T]⟩ ⟨2, ![E, 1]⟩ ⟨2, ![E, T]⟩ [1] [0] [0] 1)
    (wfC : ScatterDims.WF ⟨2, ![N, C]⟩ ⟨2, ![E, 1]⟩ ⟨2, ![E, C]⟩ [1] [0] [0] 1)
    (hc : Shape.Concatenates [(⟨2, ![E, C]⟩ : Shape), ⟨2, ![E, D]⟩] ⟨2, ![E, T]⟩ 1)
    (hs : (⟨2, ![N, T]⟩ : Shape).Slices ![0, 0] ⟨2, ![N, C]⟩)
    (X : FVec Ideal ⟨2, ![N, T]⟩ φ) (I : IVec ⟨2, ![E, 1]⟩ w)
    (A : FVec Ideal ⟨2, ![E, C]⟩ φ) (B : FVec Ideal ⟨2, ![E, D]⟩ φ) :
    extractStridedSlice ⟨2, ![N, C]⟩ ![0, 0]
        (Host.scatterAdd (rowScatter N E T wfT) X I
          (concatenate ⟨2, ![E, T]⟩ 1 [⟨⟨2, ![E, C]⟩, A⟩, ⟨⟨2, ![E, D]⟩, B⟩] hc)) hs
      = Host.scatterAdd (rowScatter N E C wfC) (extractStridedSlice ⟨2, ![N, C]⟩ ![0, 0] X hs) I A := by
  funext i
  obtain ⟨n, f, rfl⟩ : ∃ (n : Fin N) (f : Fin C), i = ix2 n f := ⟨i 0, i 1, eq_ix2 i⟩
  have hCT : C ≤ T := by have := hs.2 1; simpa using this
  have hf : f.val < T := lt_of_lt_of_le f.isLt hCT
  have hk : ∀ a : Fin 2, ((ix2 n (⟨f.val, hf⟩ : Fin T) : (⟨2, ![N, T]⟩ : Shape).Idx) a).val
      = (![0, 0] : Fin 2 → Nat) a + ((ix2 n f : (⟨2, ![N, C]⟩ : Shape).Idx) (a.cast hs.1.symm)).val := fun a => by
    match a with
    | ⟨0, _⟩ => exact (Nat.zero_add _).symm
    | ⟨1, _⟩ => exact (Nat.zero_add _).symm
  rw [extractStridedSlice_apply ![0, 0] _ hs (ix2 n f) (ix2 n (⟨f.val, hf⟩ : Fin T)) hk,
    scatterAdd_rows_apply, scatterAdd_rows_apply,
    extractStridedSlice_apply ![0, 0] X hs (ix2 n f) (ix2 n (⟨f.val, hf⟩ : Fin T)) hk]
  congr 1
  refine Finset.sum_congr rfl fun e _ => ?_
  rw [concatenate_pair_apply_left (t := ⟨2, ![E, T]⟩) (s₁ := ⟨2, ![E, C]⟩) (s₂ := ⟨2, ![E, D]⟩) (1 : Fin 2) A B hc
    (ix2 e (⟨f.val, hf⟩ : Fin T)) rfl (ix2 e f) (fun b => by
      match b with
      | ⟨0, _⟩ => rfl
      | ⟨1, _⟩ => rfl)]

/-- The `D` columns from column `C` on of the scatter-add of `[A | B]` into `X` are the scatter-add of `B` into
    those columns of `X`: column `C + f` of `[A | B]` is column `f` of `B`. -/
theorem slice_scatterAdd_concat_right
    (wfT : ScatterDims.WF ⟨2, ![N, T]⟩ ⟨2, ![E, 1]⟩ ⟨2, ![E, T]⟩ [1] [0] [0] 1)
    (wfD : ScatterDims.WF ⟨2, ![N, D]⟩ ⟨2, ![E, 1]⟩ ⟨2, ![E, D]⟩ [1] [0] [0] 1)
    (hc : Shape.Concatenates [(⟨2, ![E, C]⟩ : Shape), ⟨2, ![E, D]⟩] ⟨2, ![E, T]⟩ 1)
    (hs : (⟨2, ![N, T]⟩ : Shape).Slices ![0, C] ⟨2, ![N, D]⟩)
    (X : FVec Ideal ⟨2, ![N, T]⟩ φ) (I : IVec ⟨2, ![E, 1]⟩ w)
    (A : FVec Ideal ⟨2, ![E, C]⟩ φ) (B : FVec Ideal ⟨2, ![E, D]⟩ φ) :
    extractStridedSlice ⟨2, ![N, D]⟩ ![0, C]
        (Host.scatterAdd (rowScatter N E T wfT) X I
          (concatenate ⟨2, ![E, T]⟩ 1 [⟨⟨2, ![E, C]⟩, A⟩, ⟨⟨2, ![E, D]⟩, B⟩] hc)) hs
      = Host.scatterAdd (rowScatter N E D wfD) (extractStridedSlice ⟨2, ![N, D]⟩ ![0, C] X hs) I B := by
  funext i
  obtain ⟨n, f, rfl⟩ : ∃ (n : Fin N) (f : Fin D), i = ix2 n f := ⟨i 0, i 1, eq_ix2 i⟩
  have hCT : C + D ≤ T := by have := hs.2 1; simpa using this
  have hf : C + f.val < T := by have := f.isLt; omega
  have hk : ∀ a : Fin 2, ((ix2 n (⟨C + f.val, hf⟩ : Fin T) : (⟨2, ![N, T]⟩ : Shape).Idx) a).val
      = (![0, C] : Fin 2 → Nat) a + ((ix2 n f : (⟨2, ![N, D]⟩ : Shape).Idx) (a.cast hs.1.symm)).val := fun a => by
    match a with
    | ⟨0, _⟩ => exact (Nat.zero_add _).symm
    | ⟨1, _⟩ => rfl
  rw [extractStridedSlice_apply ![0, C] _ hs (ix2 n f) (ix2 n (⟨C + f.val, hf⟩ : Fin T)) hk,
    scatterAdd_rows_apply, scatterAdd_rows_apply,
    extractStridedSlice_apply ![0, C] X hs (ix2 n f) (ix2 n (⟨C + f.val, hf⟩ : Fin T)) hk]
  congr 1
  refine Finset.sum_congr rfl fun e _ => ?_
  rw [concatenate_pair_apply_right (t := ⟨2, ![E, T]⟩) (s₁ := ⟨2, ![E, C]⟩) (s₂ := ⟨2, ![E, D]⟩) (1 : Fin 2) A B hc
    (ix2 e (⟨C + f.val, hf⟩ : Fin T)) rfl rfl (ix2 e f) (fun b hb => by
      match b with
      | ⟨0, _⟩ => rfl
      | ⟨1, _⟩ => exact absurd rfl hb) (Nat.add_comm _ _)]

/-- A block cut out of a scalar spread over a whole array is the scalar spread over the block (the all-zero
    array a scatter-add starts from is of this form). -/
theorem extractStridedSlice_broadcastInDim_scalar {α : Type} {s t : Shape} (off : Fin s.rank → Nat) (hs : s.Slices off t)
    (dims : Fin (⟨0, ![]⟩ : Shape).rank → Fin s.rank) (dims' : Fin (⟨0, ![]⟩ : Shape).rank → Fin t.rank)
    (hb : (⟨0, ![]⟩ : Shape).BroadcastsInDim s dims) (hb' : (⟨0, ![]⟩ : Shape).BroadcastsInDim t dims')
    (z : (⟨0, ![]⟩ : Shape).Idx → α) :
    extractStridedSlice t off (broadcastInDim s dims hb z) hs = broadcastInDim t dims' hb' z := by
  funext j
  unfold extractStridedSlice broadcastInDim
  exact congrArg z (funext fun a => a.elim0)

end ScatterColumns

/-! ## Gathering rows -/

/-- The dimension numbers of a row gather: result `[E, C]` reads an operand `[N, C]` at the rows named by start
    indices `[E, 1]` — the result's axis 1 is the offset axis, the operand's axis 0 is collapsed and is the one the
    index names, slices are one row of `C` columns, the index vector lies along axis 1 of the indices. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

section Gather
variable {α : Type} {N E C w : Nat}
  (wf : GatherDims.WF ⟨2, ![N, C]⟩ ⟨2, ![E, 1]⟩ ⟨2, ![E, C]⟩ [1] [0] [] [0] [] 1 ![1, C])
  (J : IVec ⟨2, ![E, 1]⟩ w)

/-- The row result row `e` reads: the start index `J (e, 0)` as a signed integer, brought into `[0, N − 1]`. -/
def gatherRow (hN : 0 < N) (e : Fin E) : Fin N :=
  ⟨min (J (ix2 e (0 : Fin 1))).toInt.toNat (N - 1), by omega⟩

/-- The operand index of result `(e, f)` is `(gatherRow e, f)`. -/
theorem rowGather_operandIdx (hN : 0 < N) (e : Fin E) (f : Fin C) :
    (rowGather N E C wf).operandIdx (ix2 e f) J = ix2 (gatherRow J hN e) f := by
  funext a
  refine Fin.ext ?_
  match a with
  | ⟨0, _⟩ =>
    show (rowGather N E C wf).start (ix2 e f) J 0 + (rowGather N E C wf).batchCoord (ix2 e f) 0
      + (rowGather N E C wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e f) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N E C wf).start (ix2 e f) J 1 + (rowGather N E C wf).batchCoord (ix2 e f) 1
      + (rowGather N E C wf).offCoord (ix2 e f) 1 = f.val
    rw [GatherDims.batchCoord_eq_zero _ _ _ List.not_mem_nil]
    have hst : (rowGather N E C wf).start (ix2 e f) J 1 = 0 := by
      unfold GatherDims.start
      rw [dif_neg (show (1 : Fin 2) ∉ ([0] : List (Fin 2)) by simp)]
    have hoff : (rowGather N E C wf).offCoord (ix2 e f) 1 = f.val := by
      unfold GatherDims.offCoord
      rw [dif_pos ((GatherDims.mem_sKept _ _).mpr ⟨by simp, List.not_mem_nil⟩)]
      rfl
    rw [hst, hoff]; omega

/-- THE ROW GATHER AT `(e, f)`: the operand at `(gatherRow e, f)`. -/
theorem gather_rows_apply (hN : 0 < N) (x : (⟨2, ![N, C]⟩ : Shape).Idx → α) (e : Fin E) (f : Fin C) :
    Host.gather (rowGather N E C wf) x J (ix2 e f) = x (ix2 (gatherRow J hN e) f) := by
  unfold Host.gather
  rw [rowGather_operandIdx wf J hN e f]

end Gather

/-! ## A row gather of two arrays side by side, cut back into its column ranges -/

section GatherColumns
variable {α : Type} {N E C D T w : Nat}

/-- The first `C` columns of the row gather of `[P | Q]` are the row gather of `P`: both read row `gatherRow e`
    (the operands have the same number of rows, so the start index is brought into the same range). -/
theorem slice_gather_concat_left (hN : 0 < N)
    (wfT : GatherDims.WF ⟨2, ![N, T]⟩ ⟨2, ![E, 1]⟩ ⟨2, ![E, T]⟩ [1] [0] [] [0] [] 1 ![1, T])
    (wfC : GatherDims.WF ⟨2, ![N, C]⟩ ⟨2, ![E, 1]⟩ ⟨2, ![E, C]⟩ [1] [0] [] [0] [] 1 ![1, C])
    (hc : Shape.Concatenates [(⟨2, ![N, C]⟩ : Shape), ⟨2, ![N, D]⟩] ⟨2, ![N, T]⟩ 1)
    (hs : (⟨2, ![E, T]⟩ : Shape).Slices ![0, 0] ⟨2, ![E, C]⟩)
    (P : (⟨2, ![N, C]⟩ : Shape).Idx → α) (Q : (⟨2, ![N, D]⟩ : Shape).Idx → α) (J : IVec ⟨2, ![E, 1]⟩ w) :
    extractStridedSlice ⟨2, ![E, C]⟩ ![0, 0]
        (Host.gather (rowGather N E T wfT)
          (concatenate ⟨2, ![N, T]⟩ 1 [⟨⟨2, ![N, C]⟩, P⟩, ⟨⟨2, ![N, D]⟩, Q⟩] hc) J) hs
      = Host.gather (rowGather N E C wfC) P J := by
  funext i
  obtain ⟨e, f, rfl⟩ : ∃ (e : Fin E) (f : Fin C), i = ix2 e f := ⟨i 0, i 1, eq_ix2 i⟩
  have hCT : C ≤ T := by have := hs.2 1; simpa using this
  have hf : f.val < T := lt_of_lt_of_le f.isLt hCT
  rw [extractStridedSlice_apply ![0, 0] _ hs (ix2 e f) (ix2 e (⟨f.val, hf⟩ : Fin T)) (fun a => by
      match a with
      | ⟨0, _⟩ => exact (Nat.zero_add _).symm
      | ⟨1, _⟩ => exact (Nat.zero_add _).symm),
    gather_rows_apply wfT J hN, gather_rows_apply wfC J hN]
  exact concatenate_pair_apply_left (t := ⟨2, ![N, T]⟩) (s₁ := ⟨2, ![N, C]⟩) (s₂ := ⟨2, ![N, D]⟩) (1 : Fin 2) P Q hc
    (ix2 (gatherRow J hN e) (⟨f.val, hf⟩ : Fin T)) rfl (ix2 (gatherRow J hN e) f) (fun b => by
      match b with
      | ⟨0, _⟩ => rfl
      | ⟨1, _⟩ => rfl)

/-- The `D` columns from column `C` on of the row gather of `[P | Q]` are the row gather of `Q`. -/
theorem slice_gather_concat_right (hN : 0 < N)
    (wfT : GatherDims.WF ⟨2, ![N, T]⟩ ⟨2, ![E, 1]⟩ ⟨2, ![E, T]⟩ [1] [0] [] [0] [] 1 ![1, T])
    (wfD : GatherDims.WF ⟨2, ![N, D]⟩ ⟨2, ![E, 1]⟩ ⟨2, ![E, D]⟩ [1] [0] [] [0] [] 1 ![1, D])
    (hc : Shape.Concatenates [(⟨2, ![N, C]⟩ : Shape), ⟨2, ![N, D]⟩] ⟨2, ![N, T]⟩ 1)
    (hs : (⟨2, ![E, T]⟩ : Shape).Slices ![0, C] ⟨2, ![E, D]⟩)
    (P : (⟨2, ![N, C]⟩ : Shape).Idx → α) (Q : (⟨2, ![N, D]⟩ : Shape).Idx → α) (J : IVec ⟨2, ![E, 1]⟩ w) :
    extractStridedSlice ⟨2, ![E, D]⟩ ![0, C]
        (Host.gather (rowGather N E T wfT)
          (concatenate ⟨2, ![N, T]⟩ 1 [⟨⟨2, ![N, C]⟩, P⟩, ⟨⟨2, ![N, D]⟩, Q⟩] hc) J) hs
      = Host.gather (rowGather N E D wfD) Q J := by
  funext i
  obtain ⟨e, f, rfl⟩ : ∃ (e : Fin E) (f : Fin D), i = ix2 e f := ⟨i 0, i 1, eq_ix2 i⟩
  have hCT : C + D ≤ T := by have := hs.2 1; simpa using this
  have hf : C + f.val < T := by have := f.isLt; omega
  rw [extractStridedSlice_apply ![0, C] _ hs (ix2 e f) (ix2 e (⟨C + f.val, hf⟩ : Fin T)) (fun a => by
      match a with
      | ⟨0, _⟩ => exact (Nat.zero_add _).symm
      | ⟨1, _⟩ => rfl),
    gather_rows_apply wfT J hN, gather_rows_apply wfD J hN]
  exact concatenate_pair_apply_right (t := ⟨2, ![N, T]⟩) (s₁ := ⟨2, ![N, C]⟩) (s₂ := ⟨2, ![N, D]⟩) (1 : Fin 2) P Q hc
    (ix2 (gatherRow J hN e) (⟨C + f.val, hf⟩ : Fin T)) rfl rfl (ix2 (gatherRow J hN e) f) (fun b hb => by
      match b with
      | ⟨0, _⟩ => rfl
      | ⟨1, _⟩ => exact absurd rfl hb) (Nat.add_comm _ _)

end GatherColumns

/-! ## Format changes around a gather, at the ideal instance -/

section Formats
variable {s si t : Shape} {w : Nat} {φ ψ : FTy}

/-- On the extended reals a narrowing and a widening of the format are the identity, so a gather of a narrowed
    array, widened again, is the gather of the array. -/
theorem extf_gather_truncf (d : GatherDims s si t) (X : FVec Ideal s φ) (J : IVec si w)
    (h : ψ.bits < φ.bits) (h' : ψ.bits < φ.bits) :
    extf φ (Host.gather d (truncf ψ X h) J) h' = Host.gather d X J := rfl

/-- A narrowing of the format is the identity on the extended reals. -/
theorem truncf_eq (X : FVec Ideal s φ) (h : ψ.bits < φ.bits) : (truncf ψ X h : FVec Ideal s ψ) = X := rfl

/-- A widening of the format is the identity on the extended reals. -/
theorem extf_eq (X : FVec Ideal s φ) (h : φ.bits < ψ.bits) : (extf ψ X h : FVec Ideal s ψ) = X := rfl

end Formats

end Cert.LibColumns

end
-- ==== Proof.Between.lean ====
/-
  The host operations between the two pallas_calls, read against the reference.

  The kernel program lays the edge messages m (128 columns) and the scaled differences rs (3 columns) side by side,
  scatter-adds the 131-column array into zeros by the sending node of each edge, and cuts the result back into its first
  128 and last 3 columns. A row scatter-add acts on each column by itself, so the two pieces are the reference's two
  separate scatter-adds of m and of rs (the widening of the float format in between is the identity on the extended
  reals, and a block cut out of an all-zero array is all zero). The new positions are then x plus the second piece, as
  in the reference. Every other buffer the node pipeline reads is untouched by these nine operations.
-/
import proofs.«113372_j781684048540_2_alg».proof.Proof.Gen.KernelIdeal.Launch
import proofs.«113372_j781684048540_2_alg».proof.Proof.RefStages
import proofs.«113372_j781684048540_2_alg».proof.Proof.LibColumns

set_option maxRecDepth 16384

noncomputable section

namespace Cert.Bridge

open Idealize.ShloMosaic Idealize.ShloMosaic.TcCoe Idealize.SL.Sem Idealize.ShloMosaic.StableHlo
open Cert.KernelIdeal Cert.KernelIdeal.Gen Cert.ReferenceIdeal.Stages

/-- The first 128 columns of the scatter-add of [m | rs] into zeros are the reference's scatter-add of m into zeros. -/
theorem scatter_m (I : IVec S640000x1 32) (M : S640000x128.Idx → EReal) (RS : S640000x3.Idx → EReal) :
    extractStridedSlice S50000x128 ![0, 0]
        (Host.scatterAdd (F := Ideal) scatter_S50000x131_S640000x1_S640000x131_1_0_0_1
          (broadcastInDim S50000x131 ![] bcast_S_S50000x131 (constant (F := Ideal) S_ .f32 0x00000000#32)) I
          (extf .f32 (concatenate S640000x131 1 [⟨S640000x128, (M : FVec Ideal S640000x128 .bf16)⟩, ⟨S640000x3, (RS : FVec Ideal S640000x3 .bf16)⟩]
            concatenates_S640000x128_S640000x3_S640000x131_d1) bitsLt_bf16_f32)) slices_S50000x131_S50000x128_0_0
      = Host.scatterAdd (F := Ideal) Cert.ReferenceIdeal.scatter_S50000x128_S640000x1_S640000x128_1_0_0_1 (val_main_v54 (F := Ideal)) I
          (M : FVec Ideal S640000x128 .f32) := by
  refine (Cert.LibColumns.slice_scatterAdd_concat_left (N := 50000) (E := 640000) (C := 128) (D := 3) (T := 131) (w := 32) (φ := .f32)
    scatter_S50000x131_S640000x1_S640000x131_1_0_0_1_wf Cert.ReferenceIdeal.scatter_S50000x128_S640000x1_S640000x128_1_0_0_1.wf
    concatenates_S640000x128_S640000x3_S640000x131_d1 slices_S50000x131_S50000x128_0_0
    (broadcastInDim S50000x131 ![] bcast_S_S50000x131 (constant (F := Ideal) S_ .f32 0x00000000#32)) I M RS).trans ?_
  refine congrArg (fun X => Host.scatterAdd (F := Ideal) Cert.ReferenceIdeal.scatter_S50000x128_S640000x1_S640000x128_1_0_0_1 X I (M : FVec Ideal S640000x128 .f32)) ?_
  exact Cert.LibColumns.extractStridedSlice_broadcastInDim_scalar _ _ _ _ _ _ _

/-- The last 3 columns are the reference's scatter-add of rs into zeros. -/
theorem scatter_rs (I : IVec S640000x1 32) (M : S640000x128.Idx → EReal) (RS : S640000x3.Idx → EReal) :
    extractStridedSlice S50000x3 ![0, 128]
        (Host.scatterAdd (F := Ideal) scatter_S50000x131_S640000x1_S640000x131_1_0_0_1
          (broadcastInDim S50000x131 ![] bcast_S_S50000x131 (constant (F := Ideal) S_ .f32 0x00000000#32)) I
          (extf .f32 (concatenate S640000x131 1 [⟨S640000x128, (M : FVec Ideal S640000x128 .bf16)⟩, ⟨S640000x3, (RS : FVec Ideal S640000x3 .bf16)⟩]
            concatenates_S640000x128_S640000x3_S640000x131_d1) bitsLt_bf16_f32)) slices_S50000x131_S50000x3_0_128
      = Host.scatterAdd (F := Ideal) Cert.ReferenceIdeal.scatter_S50000x3_S640000x1_S640000x3_1_0_0_1 (val_main_v71 (F := Ideal)) I
          (RS : FVec Ideal S640000x3 .f32) := by
  refine (Cert.LibColumns.slice_scatterAdd_concat_right (N := 50000) (E := 640000) (C := 128) (D := 3) (T := 131) (w := 32) (φ := .f32)
    scatter_S50000x131_S640000x1_S640000x131_1_0_0_1_wf Cert.ReferenceIdeal.scatter_S50000x3_S640000x1_S640000x3_1_0_0_1.wf
    concatenates_S640000x128_S640000x3_S640000x131_d1 slices_S50000x131_S50000x3_0_128
    (broadcastInDim S50000x131 ![] bcast_S_S50000x131 (constant (F := Ideal) S_ .f32 0x00000000#32)) I M RS).trans ?_
  refine congrArg (fun X => Host.scatterAdd (F := Ideal) Cert.ReferenceIdeal.scatter_S50000x3_S640000x1_S640000x3_1_0_0_1 X I (RS : FVec Ideal S640000x3 .f32)) ?_
  exact Cert.LibColumns.extractStridedSlice_broadcastInDim_scalar _ _ _ _ _ _ _

variable (W : Valuation τ sig (Elt Ideal))

/-- The aggregated messages the node pipeline reads are the reference's, when the edge pipeline's two output arrays are
    the reference's m and rs and the edge list's first row is the reference's. -/
theorem host1_v56 (x0 : (⟨Cert.ReferenceIdeal.S50000x3, .f32⟩ : BufTy).Contents (Elt Ideal)) (x1 : (⟨Cert.ReferenceIdeal.S50000x128, .f32⟩ : BufTy).Contents (Elt Ideal)) (x2 : (⟨Cert.ReferenceIdeal.S2x640000, .i32⟩ : BufTy).Contents (Elt Ideal)) (x3 : (⟨Cert.ReferenceIdeal.S128x257, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)) (x8 : (⟨Cert.ReferenceIdeal.S128, .f32⟩ : BufTy).Contents (Elt Ideal)) (x9 : (⟨Cert.ReferenceIdeal.S128x128, .f32⟩ : BufTy).Contents (Elt Ideal)) (x10 : (⟨Cert.ReferenceIdeal.S128, .f32⟩ : BufTy).Contents (Elt Ideal)) (x11 : (⟨Cert.ReferenceIdeal.S1x128, .f32⟩ : BufTy).Contents (Elt Ideal)) (x12 : (⟨Cert.ReferenceIdeal.S1, .f32⟩ : BufTy).Contents (Elt Ideal))
    (e1 : W (Proc.devRef .tc main_v1) = val_main_v1 (F := Ideal) x2)
    (eM : W (Proc.devRef .tc main_v50_0) = val_main_v53 (F := Ideal) x0 x1 x2 x3 x4 x5 x6 x7 x8)
    (eR : W (Proc.devRef .tc main_v50_1) = val_main_v70 (F := Ideal) x0 x1 x2 x3 x4 x5 x6 x7 x8 x9 x10 x11 x12) :
    StableHlo.after hostOps1 W (Proc.devRef .tc main_v56) = val_main_v56 (F := Ideal) x0 x1 x2 x3 x4 x5 x6 x7 x8 := by
  after_results
  rw [e1, eM, eR]
  exact scatter_m _ _ _

/-- The new positions are the reference's. -/
theorem host1_v58 (x0 : (⟨Cert.ReferenceIdeal.S50000x3, .f32⟩ : BufTy).Contents (Elt Ideal)) (x1 : (⟨Cert.ReferenceIdeal.S50000x128, .f32⟩ : BufTy).Contents (Elt Ideal)) (x2 : (⟨Cert.ReferenceIdeal.S2x640000, .i32⟩ : BufTy).Contents (Elt Ideal)) (x3 : (⟨Cert.ReferenceIdeal.S128x257, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)) (x8 : (⟨Cert.ReferenceIdeal.S128, .f32⟩ : BufTy).Contents (Elt Ideal)) (x9 : (⟨Cert.ReferenceIdeal.S128x128, .f32⟩ : BufTy).Contents (Elt Ideal)) (x10 : (⟨Cert.ReferenceIdeal.S128, .f32⟩ : BufTy).Contents (Elt Ideal)) (x11 : (⟨Cert.ReferenceIdeal.S1x128, .f32⟩ : BufTy).Contents (Elt Ideal)) (x12 : (⟨Cert.ReferenceIdeal.S1, .f32⟩ : BufTy).Contents (Elt Ideal))
    (e0 : W (Proc.devRef .tc main_arg0) = x0)
    (e1 : W (Proc.devRef .tc main_v1) = val_main_v1 (F := Ideal) x2)
    (eM : W (Proc.devRef .tc main_v50_0) = val_main_v53 (F := Ideal) x0 x1 x2 x3 x4 x5 x6 x7 x8)
    (eR : W (Proc.devRef .tc main_v50_1) = val_main_v70 (F := Ideal) x0 x1 x2 x3 x4 x5 x6 x7 x8 x9 x10 x11 x12) :
    StableHlo.after hostOps1 W (Proc.devRef .tc main_v58) = val_main_v74 (F := Ideal) x0 x1 x2 x3 x4 x5 x6 x7 x8 x9 x10 x11 x12 := by
  after_results
  rw [e0, e1, eM, eR]
  exact congrArg (addf x0) (scatter_rs _ _ _)

/-! ## What the nine operations leave alone -/

theorem host1_arg1 : StableHlo.after hostOps1 W (Proc.devRef .tc main_arg1) = W (Proc.devRef .tc main_arg1) := by
  after_results <;> rfl

theorem host1_v46 : StableHlo.after hostOps1 W (Proc.devRef .tc main_v46) = W (Proc.devRef .tc main_v46) := by
  after_results <;> rfl

theorem host1_v47 : StableHlo.after hostOps1 W (Proc.devRef .tc main_v47) = W (Proc.devRef .tc main_v47) := by
  after_results <;> rfl

theorem host1_arg14 : StableHlo.after hostOps1 W (Proc.devRef .tc main_arg14) = W (Proc.devRef .tc main_arg14) := by
  after_results <;> rfl

theorem host1_v48 : StableHlo.after hostOps1 W (Proc.devRef .tc main_v48) = W (Proc.devRef .tc main_v48) := by
  after_results <;> rfl

theorem host1_arg16 : StableHlo.after hostOps1 W (Proc.devRef .tc main_arg16) = W (Proc.devRef .tc main_arg16) := by
  after_results <;> rfl

theorem host1_v49 : StableHlo.after hostOps1 W (Proc.devRef .tc main_v49) = W (Proc.devRef .tc main_v49) := by
  after_results <;> rfl

theorem host1_arg18 : StableHlo.after hostOps1 W (Proc.devRef .tc main_arg18) = W (Proc.devRef .tc main_arg18) := by
  after_results <;> rfl

end Cert.Bridge

end
-- ==== Proof.LibMatmulAt.lean ====
/-
  A plain matrix product read at an element.

  A contraction whose dimension numbers are those of an [R, K] × [K, C] matrix product (the left operand contracted on
  its axis 1, the right on its axis 0, no batch axis), accumulated into the zero splat, read at the element (p, q) is
  ∑ k, l(p, k) * r(k, q) over the extended reals. The statement is over ANY record of dimension numbers with those six
  lists, so that it applies to every record of that kind a program names, whatever its extents.
-/
import Idealize.ShloMosaic.PureOps.Ideal.Laws
import Idealize.ShloMosaic.Lib.ValueIdx

noncomputable section

namespace Cert.LibMatmulAt

open Idealize.ShloMosaic Idealize.ShloMosaic.ValueIdx

/-- The dimension numbers of an [R, K] × [K, C] matrix product, with its well-formedness proof a variable: every record
    with those six lists is this one. -/
abbrev plainOf {R K C : ℕ}
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ :=
  ⟨[1], [0], [0], [1], [], [], wf⟩

/-- The sum over the one-axis contraction index, re-indexed by that axis's coordinate, reads the left operand at (p, k)
    and the right operand at (k, q). -/
theorem plainOf_sum {R K C : ℕ} (wf : DotDims.WF ⟨2, ![R, K]⟩ ⟨2, ![K, C]⟩ ⟨2, ![R, C]⟩ [1] [0] [0] [1] [] [])
    (l : (⟨2, ![R, K]⟩ : Shape).Idx → EReal) (r : (⟨2, ![K, C]⟩ : Shape).Idx → EReal) (p : Fin R) (q : Fin C) :
    (∑ k : (plainOf wf).contr.Idx, l ((plainOf wf).lhsIdx (ix2 p q) k) * r ((plainOf wf).rhsIdx (ix2 p q) k))
      = ∑ k : Fin K, l (ix2 p k) * r (ix2 k q) := by
  have l0 : ∀ kk : (plainOf wf).contr.Idx, ((plainOf wf).lhsIdx (ix2 p q) kk 0).val = p.val := fun kk => by
    unfold DotDims.lhsIdx
    rw [dif_neg (show ¬(0 : Fin (⟨2, ![R, K]⟩ : Shape).rank) ∈ (plainOf wf).lhsBatch from List.not_mem_nil),
      dif_pos (show (0 : Fin (⟨2, ![R, K]⟩ : Shape).rank) ∈ (plainOf wf).lhsNonContracting from List.mem_singleton.mpr rfl)]
    rfl
  have r1 : ∀ kk : (plainOf wf).contr.Idx, ((plainOf wf).rhsIdx (ix2 p q) kk 1).val = q.val := fun kk => by
    unfold DotDims.rhsIdx
    rw [dif_neg (show ¬(1 : Fin (⟨2, ![K, C]⟩ : Shape).rank) ∈ (plainOf wf).rhsBatch from List.not_mem_nil),
      dif_pos (show (1 : Fin (⟨2, ![K, C]⟩ : Shape).rank) ∈ (plainOf wf).rhsNonContracting from List.mem_singleton.mpr rfl)]
    rfl
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 p q) ((contrEquiv1 (plainOf wf) K rfl rfl).symm k) = ix2 p k :=
    funext fun a => Fin.ext (by
      match a with
      | ⟨0, _⟩ => exact l0 _
      | ⟨1, _⟩ => exact ((plainOf wf).lhsIdx_val_of_single rfl _ _).trans hk)
  have er : (plainOf wf).rhsIdx (ix2 p q) ((contrEquiv1 (plainOf wf) K rfl rfl).symm k) = ix2 k q :=
    funext fun a => Fin.ext (by
      match a with
      | ⟨0, _⟩ => exact ((plainOf wf).rhsIdx_val_of_single rfl _ _).trans hk
      | ⟨1, _⟩ => exact r1 _)
  rw [el, er]

/-- A matrix product into the zero accumulator, for any record of dimension numbers with the six lists of an
    [R, K] × [K, C] product, read at (p, q): the sum over k of the left operand at (p, k) times the right at (k, q). -/
theorem matmul_zero_apply {R K C : ℕ} {φ₁ φ₂ : FTy} (D : DotDims ⟨2, ![R, K]⟩ ⟨2, ![K, C]⟩ ⟨2, ![R, C]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![R, K]⟩ φ₁) (r : FVec Ideal ⟨2, ![K, C]⟩ φ₂)
    (p : Fin R) (q : Fin C) :
    matmul D prec l r (constant (F := Ideal) ⟨2, ![R, C]⟩ .f32 0x00000000#32) (ix2 p q)
      = ∑ k : Fin K, l (ix2 p k) * r (ix2 k q) := by
  obtain ⟨lc, rc, ln, rn, lb, rb, wf⟩ := D
  dsimp only at hlc hrc hln hrn hlb hrb
  subst hlc hrc hln hrn hlb hrb
  exact (Ideal.matmul_constant_zero_apply (plainOf wf) prec l r (ix2 p q)).trans (plainOf_sum wf l r p q)

end Cert.LibMatmulAt

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.LibRowReduce.lean ====
/- Row reductions of a two-axis array kept as a column and repeated along the rows, read at an index over the extended reals:
   the lane sum of row p is the plain sum over the row, the lane maximum the fold of max over the row from the initial word; a
   length-a vector cast to an a × 1 column and broadcast to a × b reads, at (p, q), the vector's entry p; a 1 × 1 array broadcast
   to a × b reads its one entry everywhere. Names no program. -/
import proofs.«113372_j781684048540_2_alg».proof.Proof.LibColumn
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.LibRowReduce

open Idealize.ShloMosaic Idealize.ShloMosaic.ValueIdx

variable {a b : ℕ}

/-- Result index p of a reduction along the second axis, with the dropped coordinate k put back, is (p, k). -/
theorem lift_row (h : (⟨2, ![a, b]⟩ : Shape).Reduces [(1 : Fin 2)] ⟨1, ![a]⟩) (p : Fin a) (k : Fin b) :
    h.lift (ix1 p) k = ix2 p k := by
  funext c
  apply Fin.ext
  match c with
  | ⟨0, _⟩ => rfl
  | ⟨1, _⟩ => rfl

/-- The lane sum of row p. -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (p : Fin a) :
    multiReduction .add [(1 : Fin 2)] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The lane maximum of row p: max folded over the row from the initial word. -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (p : Fin a) :
    multiReduction .maximumf [(1 : Fin 2)] ⟨1, ![a]⟩ src acc h hφ hacc (ix1 p)
      = (Finset.univ : Finset (Fin b)).fold max (FloatOps.ofBits (F := Ideal) φ acc) (fun k => src (ix2 p k)) :=
  (Ideal.multiReduction_maximumf_single src acc h hφ hacc (ix1 p)).trans
    (congrArg (fun f => (Finset.univ : Finset (Fin b)).fold max (FloatOps.ofBits (F := Ideal) φ acc) f)
      (funext fun k => congrArg src (lift_row h p k)))

variable {α : Type}

/-- A vector kept as a column and repeated along the rows reads, at (p, q), its entry p. -/
theorem column_repeat_apply {b' : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b']⟩) (p : Fin a) (q : Fin b') :
    broadcastTo ⟨2, ![a, b']⟩ (shapeCast ⟨2, ![a, 1]⟩ v hc) hb (ix2 p q) = v (ix1 p) :=
  (Cert.LibColumn.broadcastTo_a1_ab_apply _ hb p q).trans (Cert.LibColumn.shapeCast_a_a1_apply v hc p 0)

/-- A 1 × 1 array repeated over a × b reads its one entry everywhere. -/
theorem broadcastTo_11_ab_apply (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

end Cert.LibRowReduce

end
-- ==== Proof.LibFoldBias.lean ====
/-
  A two-layer perceptron row with part of its input constant.

  One row of a two-layer perceptron with a rectifier between the layers: from inputs `X k`, `k < K`, the hidden
  unit `l` is `max (∑ k, X k * W1 k l + b1 l) 0` and the output `q` is `∑ l, hidden l * W2 l q + b2 q`.

  If the `N = A + B` inputs fall into a first part of length `A` and a last part `g` of length `B`, the last part's
  contribution `∑ k, g k * W1 (A + k) l` to hidden unit `l` can be added to the bias `b1 l` once, and the
  perceptron run on the first part alone against the first `A` rows of `W1`: the two pre-activations differ only
  in the order and grouping of one finite sum, and addition on the extended reals is commutative and associative
  (no finiteness is needed: nothing is distributed or cancelled).
-/
import Mathlib.Algebra.BigOperators.Fin
import Mathlib.Data.EReal.Operations

open scoped BigOperators

namespace Cert.LibFoldBias

/-- A sum over `N = A + B` indices is the sum over the first `A` plus the sum over the last `B`. -/
theorem sum_split {M : Type*} [AddCommMonoid M] {A B N : Nat} (hN : N = A + B) (f : Fin N → M) :
    ∑ k : Fin N, f k = (∑ k : Fin A, f ⟨k.val, by omega⟩) + ∑ k : Fin B, f ⟨A + k.val, by omega⟩ := by
  subst hN
  rw [Fin.sum_univ_add]
  rfl

/-- Output `q` of one row of a two-layer perceptron with a rectifier between the layers. -/
noncomputable def rowMLP {K L C : Nat} (X : Fin K → EReal) (W1 : Fin K → Fin L → EReal) (b1 : Fin L → EReal)
    (W2 : Fin L → Fin C → EReal) (b2 : Fin C → EReal) (q : Fin C) : EReal :=
  (∑ l : Fin L, max ((∑ k : Fin K, X k * W1 k l) + b1 l) 0 * W2 l q) + b2 q

/-- THE FOLD: the perceptron on the first `A` inputs, against the first `A` rows of the first layer and the bias
    enlarged by the last `B` inputs' contribution, is the perceptron on all `N = A + B` inputs. -/
theorem rowMLP_fold {A B N L C : Nat} (hN : N = A + B)
    (XR : Fin N → EReal) (XK : Fin A → EReal) (g : Fin B → EReal)
    (W1 : Fin N → Fin L → EReal) (W1s : Fin A → Fin L → EReal) (b1 b1' : Fin L → EReal)
    (W2 : Fin L → Fin C → EReal) (b2 : Fin C → EReal) (q : Fin C)
    (hX : ∀ k : Fin A, XR ⟨k.val, by omega⟩ = XK k) (hg : ∀ k : Fin B, XR ⟨A + k.val, by omega⟩ = g k)
    (hW : ∀ (k : Fin A) (l : Fin L), W1 ⟨k.val, by omega⟩ l = W1s k l)
    (hb : ∀ l : Fin L, b1' l = b1 l + ∑ k : Fin B, g k * W1 ⟨A + k.val, by omega⟩ l) :
    rowMLP XK W1s b1' W2 b2 q = rowMLP XR W1 b1 W2 b2 q := by
  unfold rowMLP
  refine congrArg (· + b2 q) (Finset.sum_congr rfl fun l _ => ?_)
  refine congrArg (fun y => max y 0 * W2 l q) ?_
  rw [sum_split hN (fun k => XR k * W1 k l), hb l,
    Finset.sum_congr rfl (fun k _ => by rw [hX k, hW k l] : ∀ k ∈ (Finset.univ : Finset (Fin A)),
      XR ⟨k.val, by omega⟩ * W1 ⟨k.val, by omega⟩ l = XK k * W1s k l),
    Finset.sum_congr rfl (fun k _ => by rw [hg k] : ∀ k ∈ (Finset.univ : Finset (Fin B)),
      XR ⟨A + k.val, by omega⟩ * W1 ⟨A + k.val, by omega⟩ l = g k * W1 ⟨A + k.val, by omega⟩ l),
    add_assoc, add_comm (b1 l)]

end Cert.LibFoldBias
-- ==== Proof.EdgeBlock.lean ====
/-
  One block of 5120 edges of a message-passing layer, read row by row against the whole-array computation.

  For an edge, with hs and hd the features of its end points and d2 the squared length of its relative position rel:
    z1 = silu (hs·W1a + hd·W1b + d2·w1c + b1),  z2 = silu (z1·W2 + b2),  m = z2·W3 + b3,
    c = silu (m·CW1 + cb1),  coef = tanh (∑ k, c k · cw2 k + cb2),  rs = rel · coef,     silu x = x · σ(x).
  The block computes layer 1 as two 128-wide products plus an outer product; the whole-array computation computes it as
  one product over the 257-wide concatenation [hs | hd | d2], spells σ(x) as 1 / (1 + e^(-x)), and takes the coordinate
  head's last product against a 128 × 1 matrix. On the extended reals a change of float format is the identity and every
  product is the plain sum over k, so row p of the block and row P of the whole arrays agree entry by entry as soon as
  the block's inputs are the whole arrays' rows: the only laws used are the commutativity and associativity of +, in
  splitting the sum over 257 = 128 + 128 + 1 indices.
-/
import proofs.«113372_j781684048540_2_alg».proof.Proof.Gen.KernelIdeal.Skeleton
import proofs.«113372_j781684048540_2_alg».proof.Proof.RefStages
import proofs.«113372_j781684048540_2_alg».proof.Proof.LibMatmulAt
import proofs.«113372_j781684048540_2_alg».proof.Proof.LibColumn
import proofs.«113372_j781684048540_2_alg».proof.Proof.LibRowReduce
import proofs.«113372_j781684048540_2_alg».proof.Proof.LibFoldBias
import Idealize.ShloMosaic.Lib.ValueIdx
import Idealize.ShloMosaic.Lib.ValueLayout
import Idealize.ShloMosaic.Lib.Pipeline.Value
import Idealize.ShloMosaic.PureOps.Ideal.Laws

noncomputable section

namespace Cert.Bridge.Edge

open Idealize.ShloMosaic Idealize.ShloMosaic.ValueIdx Cert.KernelIdeal Cert.ReferenceIdeal.Stages
open scoped BigOperators

/-- The sigmoid-weighted unit x · σ(x) on the extended reals. -/
def silu (x : EReal) : EReal := x * Ideal.logistic x

/-- The single-precision pattern 0x3F800000 denotes one. -/
theorem one_bits : FloatOps.ofBits (F := Ideal) .f32 0x3F800000#32 = 1 := by
  show Ideal.ofBits .f32 0x3F800000#32 = 1
  simp [Ideal.ofBits, Ideal.ieee, -EReal.coe_mul]; norm_num

/-- x · (1 / (1 + e^(-x))), spelled with the host's negate, exponential, add and divide, is x · σ(x). -/
theorem silu_host (X : Ideal .f32) :
    FloatOps.mulf X (FloatOps.hostDivf (FloatOps.ofBits .f32 0x3F800000#32)
      (FloatOps.addf (FloatOps.ofBits .f32 0x3F800000#32) (FloatOps.hostUnary .exp (FloatOps.hostNegf X)))) = silu X := by
  rw [one_bits]; rfl

section KernelReads
variable {φ φ₁ φ₂ : FTy} {α : Type}

/-- A block's product with a 128 × 128 matrix into the zero accumulator at (p, q): the sum over k. -/
theorem mm_apply (l : FVec Ideal S5120x128 φ₁) (r : FVec Ideal S128x128 φ₂) (p : Fin 5120) (q : Fin 128) :
    matmul dot_S5120x128_S128x128_S5120x128_1_0_0_1_n_n none l r (constant (F := Ideal) S5120x128 .f32 0x00000000#32) (ix2 p q)
      = ∑ k : Fin 128, l (ix2 p k) * r (ix2 k q) :=
  Cert.LibMatmulAt.matmul_zero_apply _ rfl rfl rfl rfl rfl rfl none l r p q

/-- The logistic function at an index. -/
theorem logistic_apply {s : Shape} (a : FVec Ideal s φ) (i : s.Idx) : logistic a i = Ideal.logistic (a i) := rfl

/-- The hyperbolic tangent at an index. -/
theorem tanh_apply {s : Shape} (a : FVec Ideal s φ) (i : s.Idx) : tanh a i = Ideal.tanh (a i) := rfl

/-- A length-128 vector set up as a row and repeated over the 5120 rows reads, at (p, q), its entry q. -/
theorem bias_apply (v : (⟨1, ![128]⟩ : Shape).Idx → α) (h : S128.ShapeCasts S1x128) (h' : S1x128.Broadcasts S5120x128)
    (p : Fin 5120) (q : Fin 128) :
    broadcastTo S5120x128 (shapeCast S1x128 v h) h' (ix2 p q) = v (ix1 q) :=
  (broadcastTo_1b_ab_apply _ h' p q).trans (shapeCast_a_1a_apply v h 0 q)

/-- A 1 × 128 row repeated over the 5120 rows reads, at (p, q), its entry (0, q). -/
theorem row_apply (v : (⟨2, ![1, 128]⟩ : Shape).Idx → α) (h' : S1x128.Broadcasts S5120x128) (p : Fin 5120) (q : Fin 128) :
    broadcastTo S5120x128 v h' (ix2 p q) = v (ix2 (0 : Fin 1) q) :=
  broadcastTo_1b_ab_apply v h' p q

/-- Column 3 of a 5120 × 4 array, repeated along 128 lanes, reads at (p, q) the array's entry (p, 3). -/
theorem col3_apply (v : (⟨2, ![5120, 4]⟩ : Shape).Idx → α) (h : S5120x4.Slices ![0, 3] S5120x1) (h' : S5120x1.Broadcasts S5120x128)
    (p : Fin 5120) (q : Fin 128) :
    broadcastTo S5120x128 (extractStridedSlice S5120x1 ![0, 3] v h) h' (ix2 p q) = v (ix2 p (3 : Fin 4)) :=
  (Cert.LibColumn.broadcastTo_a1_ab_apply _ h' p q).trans (slice2_axis1_apply 3 v h p (0 : Fin 1) (3 : Fin 4) rfl)

/-- Columns 0..2 of a 5120 × 4 array read, at (p, a), the array's entry (p, a). -/
theorem col012_apply (v : (⟨2, ![5120, 4]⟩ : Shape).Idx → α) (h : S5120x4.Slices ![0, 0] S5120x3) (p : Fin 5120) (a : Fin 3) :
    extractStridedSlice S5120x3 ![0, 0] v h (ix2 p a) = v (ix2 p (⟨a.val, by omega⟩ : Fin 4)) :=
  slice2_axis1_apply 0 v h p a ⟨a.val, by omega⟩ (Nat.zero_add _).symm

/-- The lane sum of row p of a 5120 × 128 array from the zero word: the plain sum over the row. -/
theorem lane_sum_apply (src : FVec Ideal S5120x128 .f32) (h : S5120x128.Reduces [1] S5120) (hφ : FKind.Formats .f32)
    (hacc : (0x00000000#32 : BitVec 32) = 0x00000000#32) (p : Fin 5120) :
    multiReduction .add [1] S5120 src 0x00000000#32 h hφ hacc (ix1 p) = ∑ k : Fin 128, src (ix2 p k) :=
  Cert.LibRowReduce.rowSum_apply src _ h hφ hacc p

end KernelReads

/-! ## The reference's stages read at the edge (P, ·) -/

section Reference

/-- A sum over 257 = 128 + 128 + 1 indices, split into its three parts. -/
theorem sum257 {M : Type*} [AddCommMonoid M] (f : Fin 257 → M) :
    ∑ k, f k = ((∑ k : Fin 128, f ⟨k.val, by omega⟩) + ∑ k : Fin 128, f ⟨128 + k.val, by omega⟩) + f ⟨256, by omega⟩ := by
  rw [Cert.LibFoldBias.sum_split (show 257 = 256 + 1 from rfl) f,
    Cert.LibFoldBias.sum_split (show 256 = 128 + 128 from rfl) (fun k : Fin 256 => f ⟨k.val, by omega⟩), Fin.sum_univ_one]
  rfl

theorem lidx38 (P : Fin 640000) (q : Fin 128) (k : Fin 257) : lidx_main_v38 (ix2 P q) k = ix2 P k := by
  funext d; match d with | ⟨0, _⟩ => rfl | ⟨1, _⟩ => rfl
theorem ridx38 (P : Fin 640000) (q : Fin 128) (k : Fin 257) : ridx_main_v38 (ix2 P q) k = ix2 k q := by
  funext d; match d with | ⟨0, _⟩ => rfl | ⟨1, _⟩ => rfl
theorem lidx44 (P : Fin 640000) (q : Fin 128) (k : Fin 128) : lidx_main_v44 (ix2 P q) k = ix2 P k := by
  funext d; match d with | ⟨0, _⟩ => rfl | ⟨1, _⟩ => rfl
theorem ridx44 (P : Fin 640000) (q : Fin 128) (k : Fin 128) : ridx_main_v44 (ix2 P q) k = ix2 k q := by
  funext d; match d with | ⟨0, _⟩ => rfl | ⟨1, _⟩ => rfl
theorem lidx50 (P : Fin 640000) (q : Fin 128) (k : Fin 128) : lidx_main_v50 (ix2 P q) k = ix2 P k := by
  funext d; match d with | ⟨0, _⟩ => rfl | ⟨1, _⟩ => rfl
theorem ridx50 (P : Fin 640000) (q : Fin 128) (k : Fin 128) : ridx_main_v50 (ix2 P q) k = ix2 k q := by
  funext d; match d with | ⟨0, _⟩ => rfl | ⟨1, _⟩ => rfl
theorem lidx58 (P : Fin 640000) (q : Fin 128) (k : Fin 128) : lidx_main_v58 (ix2 P q) k = ix2 P k := by
  funext d; match d with | ⟨0, _⟩ => rfl | ⟨1, _⟩ => rfl
theorem ridx58 (P : Fin 640000) (q : Fin 128) (k : Fin 128) : ridx_main_v58 (ix2 P q) k = ix2 k q := by
  funext d; match d with | ⟨0, _⟩ => rfl | ⟨1, _⟩ => rfl
theorem lidx64 (P : Fin 640000) (u : Fin 1) (k : Fin 128) : lidx_main_v64 (ix2 P u) k = ix2 P k := by
  funext d; match d with | ⟨0, _⟩ => rfl | ⟨1, _⟩ => rfl
theorem ridx64 (P : Fin 640000) (u : Fin 1) (k : Fin 128) : ridx_main_v64 (ix2 P u) k = ix2 k u := by
  funext d; match d with | ⟨0, _⟩ => rfl | ⟨1, _⟩ => rfl
theorem idx3940 (P : Fin 640000) (q : Fin 128) : idx_main_v39 (idx_main_v40 (ix2 P q)) = ix1 q := by
  funext d; match d with | ⟨0, _⟩ => rfl
theorem idx4546 (P : Fin 640000) (q : Fin 128) : idx_main_v45 (idx_main_v46 (ix2 P q)) = ix1 q := by
  funext d; match d with | ⟨0, _⟩ => rfl
theorem idx5152 (P : Fin 640000) (q : Fin 128) : idx_main_v51 (idx_main_v52 (ix2 P q)) = ix1 q := by
  funext d; match d with | ⟨0, _⟩ => rfl
theorem idx5960 (P : Fin 640000) (q : Fin 128) : idx_main_v59 (idx_main_v60 (ix2 P q)) = ix1 q := by
  funext d; match d with | ⟨0, _⟩ => rfl
theorem idx6566 (P : Fin 640000) (u : Fin 1) : idx_main_v65 (idx_main_v66 (ix2 P u)) = ix1 (0 : Fin 1) := by
  funext d; match d with | ⟨0, _⟩ => rfl
theorem idx69 (P : Fin 640000) (a : Fin 3) : idx_main_v69 (ix2 P a) = ix2 P (0 : Fin 1) := by
  funext d; match d with | ⟨0, _⟩ => rfl | ⟨1, _⟩ => rfl

variable (x0 : (⟨Cert.ReferenceIdeal.S50000x3, .f32⟩ : BufTy).Contents (Elt Ideal)) (x1 : (⟨Cert.ReferenceIdeal.S50000x128, .f32⟩ : BufTy).Contents (Elt Ideal)) (x2 : (⟨Cert.ReferenceIdeal.S2x640000, .i32⟩ : BufTy).Contents (Elt Ideal)) (x3 : (⟨Cert.ReferenceIdeal.S128x257, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)) (x8 : (⟨Cert.ReferenceIdeal.S128, .f32⟩ : BufTy).Contents (Elt Ideal)) (x9 : (⟨Cert.ReferenceIdeal.S128x128, .f32⟩ : BufTy).Contents (Elt Ideal)) (x10 : (⟨Cert.ReferenceIdeal.S128, .f32⟩ : BufTy).Contents (Elt Ideal)) (x11 : (⟨Cert.ReferenceIdeal.S1x128, .f32⟩ : BufTy).Contents (Elt Ideal)) (x12 : (⟨Cert.ReferenceIdeal.S1, .f32⟩ : BufTy).Contents (Elt Ideal))
variable (P : Fin 640000)

/-- The 257-wide concatenation [h[src] | h[dst] | d2] read in its first 128 columns. -/
theorem cat_left (k : Fin 128) (h : k.val < 257) :
    val_main_v36 (F := Ideal) x0 x1 x2 (ix2 P (⟨k.val, h⟩ : Fin 257)) = val_main_v28 (F := Ideal) x1 x2 (ix2 P k) := by
  unfold val_main_v36
  generalize val_main_v28 (F := Ideal) x1 x2 = y0
  generalize val_main_v35 (F := Ideal) x1 x2 = y1
  generalize val_main_v21 (F := Ideal) x0 x2 = y2
  refine concatenate_apply_piece (1 : Fin 2) _ _ (ix2 P ⟨k.val, h⟩) 0 ?_ Cert.ReferenceIdeal.S640000x128 y0 ?_ rfl 0 ?_ (ix2 P k) ?_ ?_
  · exact (show 0 < 3 by decide)
  · rfl
  · rfl
  · intro b hb
    match b, hb with
    | ⟨0, _⟩, _ => rfl
    | ⟨1, _⟩, hb => exact absurd (Fin.ext rfl) hb
  · exact Nat.zero_add _

/-- … in its next 128 columns … -/
theorem cat_mid (k : Fin 128) (h : 128 + k.val < 257) :
    val_main_v36 (F := Ideal) x0 x1 x2 (ix2 P (⟨128 + k.val, h⟩ : Fin 257)) = val_main_v35 (F := Ideal) x1 x2 (ix2 P k) := by
  unfold val_main_v36
  generalize val_main_v28 (F := Ideal) x1 x2 = y0
  generalize val_main_v35 (F := Ideal) x1 x2 = y1
  generalize val_main_v21 (F := Ideal) x0 x2 = y2
  refine concatenate_apply_piece (1 : Fin 2) _ _ (ix2 P ⟨128 + k.val, h⟩) 1 ?_ Cert.ReferenceIdeal.S640000x128 y1 ?_ rfl 128 ?_ (ix2 P k) ?_ ?_
  · exact (show 1 < 3 by decide)
  · rfl
  · rfl
  · intro b hb
    match b, hb with
    | ⟨0, _⟩, _ => rfl
    | ⟨1, _⟩, hb => exact absurd (Fin.ext rfl) hb
  · exact rfl

/-- … and in its last column. -/
theorem cat_last (h : 256 < 257) :
    val_main_v36 (F := Ideal) x0 x1 x2 (ix2 P (⟨256, h⟩ : Fin 257)) = val_main_v21 (F := Ideal) x0 x2 (ix2 P (0 : Fin 1)) := by
  unfold val_main_v36
  generalize val_main_v28 (F := Ideal) x1 x2 = y0
  generalize val_main_v35 (F := Ideal) x1 x2 = y1
  generalize val_main_v21 (F := Ideal) x0 x2 = y2
  refine concatenate_apply_piece (1 : Fin 2) _ _ (ix2 P ⟨256, h⟩) 2 ?_ Cert.ReferenceIdeal.S640000x1 y2 ?_ rfl 256 ?_ (ix2 P (0 : Fin 1)) ?_ ?_
  · exact (show 2 < 3 by decide)
  · rfl
  · rfl
  · intro b hb
    match b, hb with
    | ⟨0, _⟩, _ => rfl
    | ⟨1, _⟩, hb => exact absurd (Fin.ext rfl) hb
  · exact rfl

/-- Layer 1 before its activation: the one product over the 257-wide concatenation, as three partial sums. -/
theorem ref_pre1 (q : Fin 128) :
    val_main_v41 (F := Ideal) x0 x1 x2 x3 x4 (ix2 P q)
      = ((∑ k : Fin 128, val_main_v28 (F := Ideal) x1 x2 (ix2 P k) * val_main_v37 (F := Ideal) x3 (ix2 (⟨k.val, by omega⟩ : Fin 257) q))
          + (∑ k : Fin 128, val_main_v35 (F := Ideal) x1 x2 (ix2 P k) * val_main_v37 (F := Ideal) x3 (ix2 (⟨128 + k.val, by omega⟩ : Fin 257) q))
          + val_main_v21 (F := Ideal) x0 x2 (ix2 P (0 : Fin 1)) * val_main_v37 (F := Ideal) x3 (ix2 (⟨256, by omega⟩ : Fin 257) q))
        + x4 (ix1 q) := by
  rw [val_main_v41_apply, val_main_v38_apply, val_main_v40_apply, val_main_v39_apply, Ideal.addf_def, sum257]
  simp only [lidx38, ridx38, idx3940, cat_left, cat_mid, cat_last]

/-- The activation of layer 1. -/
theorem ref_silu1 (q : Fin 128) :
    val_main_v42 (F := Ideal) x0 x1 x2 x3 x4 (ix2 P q) = silu (val_main_v41 (F := Ideal) x0 x1 x2 x3 x4 (ix2 P q)) := by
  rw [val_main_v42_apply, val_main_call0_v5_apply, val_main_call0_v4_apply, val_main_call0_cst_0_apply, val_main_call0_v3_apply,
    val_main_call0_v2_apply, val_main_call0_cst_apply, val_main_call0_v1_apply, val_main_call0_v0_apply]
  exact silu_host _

/-- Layer 2 before its activation. -/
theorem ref_pre2 (q : Fin 128) :
    val_main_v47 (F := Ideal) x0 x1 x2 x3 x4 x5 x6 (ix2 P q)
      = (∑ k : Fin 128, val_main_v42 (F := Ideal) x0 x1 x2 x3 x4 (ix2 P k) * val_main_v43 (F := Ideal) x5 (ix2 k q)) + x6 (ix1 q) := by
  rw [val_main_v47_apply, val_main_v44_apply, val_main_v46_apply, val_main_v45_apply, Ideal.addf_def]
  simp only [lidx44, ridx44, idx4546]

/-- The activation of layer 2. -/
theorem ref_silu2 (q : Fin 128) :
    val_main_v48 (F := Ideal) x0 x1 x2 x3 x4 x5 x6 (ix2 P q) = silu (val_main_v47 (F := Ideal) x0 x1 x2 x3 x4 x5 x6 (ix2 P q)) := by
  rw [val_main_v48_apply, val_main_call1_v5_apply, val_main_call1_v4_apply, val_main_call1_cst_0_apply, val_main_call1_v3_apply,
    val_main_call1_v2_apply, val_main_call1_cst_apply, val_main_call1_v1_apply, val_main_call1_v0_apply]
  exact silu_host _

/-- Layer 3: the message. -/
theorem ref_pre3 (q : Fin 128) :
    val_main_v53 (F := Ideal) x0 x1 x2 x3 x4 x5 x6 x7 x8 (ix2 P q)
      = (∑ k : Fin 128, val_main_v48 (F := Ideal) x0 x1 x2 x3 x4 x5 x6 (ix2 P k) * val_main_v49 (F := Ideal) x7 (ix2 k q)) + x8 (ix1 q) := by
  rw [val_main_v53_apply, val_main_v50_apply, val_main_v52_apply, val_main_v51_apply, Ideal.addf_def]
  simp only [lidx50, ridx50, idx5152]

/-- The coordinate head's hidden layer before its activation. -/
theorem ref_pre4 (q : Fin 128) :
    val_main_v61 (F := Ideal) x0 x1 x2 x3 x4 x5 x6 x7 x8 x9 x10 (ix2 P q)
      = (∑ k : Fin 128, val_main_v53 (F := Ideal) x0 x1 x2 x3 x4 x5 x6 x7 x8 (ix2 P k) * val_main_v57 (F := Ideal) x9 (ix2 k q)) + x10 (ix1 q) := by
  rw [val_main_v61_apply, val_main_v58_apply, val_main_v60_apply, val_main_v59_apply, Ideal.addf_def]
  simp only [lidx58, ridx58, idx5960]

/-- The activation of the coordinate head's hidden layer. -/
theorem ref_silu3 (q : Fin 128) :
    val_main_v62 (F := Ideal) x0 x1 x2 x3 x4 x5 x6 x7 x8 x9 x10 (ix2 P q) = silu (val_main_v61 (F := Ideal) x0 x1 x2 x3 x4 x5 x6 x7 x8 x9 x10 (ix2 P q)) := by
  rw [val_main_v62_apply, val_main_call2_v5_apply, val_main_call2_v4_apply, val_main_call2_cst_0_apply, val_main_call2_v3_apply,
    val_main_call2_v2_apply, val_main_call2_cst_apply, val_main_call2_v1_apply, val_main_call2_v0_apply]
  exact silu_host _

/-- The coordinate head's scalar before the hyperbolic tangent: the product with the 128 × 1 transpose, plus the bias. -/
theorem ref_head :
    val_main_v67 (F := Ideal) x0 x1 x2 x3 x4 x5 x6 x7 x8 x9 x10 x11 x12 (ix2 P (0 : Fin 1))
      = (∑ k : Fin 128, val_main_v62 (F := Ideal) x0 x1 x2 x3 x4 x5 x6 x7 x8 x9 x10 (ix2 P k) * val_main_v63 (F := Ideal) x11 (ix2 k (0 : Fin 1))) + x12 (ix1 (0 : Fin 1)) := by
  rw [val_main_v67_apply, val_main_v64_apply, val_main_v66_apply, val_main_v65_apply, Ideal.addf_def]
  simp only [lidx64, ridx64, idx6566]

/-- The coordinate update: the relative position times the coefficient, repeated over the three coordinates. -/
theorem ref_rs (a : Fin 3) :
    val_main_v70 (F := Ideal) x0 x1 x2 x3 x4 x5 x6 x7 x8 x9 x10 x11 x12 (ix2 P a)
      = val_main_v18 (F := Ideal) x0 x2 (ix2 P a) * Ideal.tanh (val_main_v67 (F := Ideal) x0 x1 x2 x3 x4 x5 x6 x7 x8 x9 x10 x11 x12 (ix2 P (0 : Fin 1))) := by
  rw [val_main_v70_apply, val_main_v69_apply, val_main_v68_apply, Ideal.mulf_def, Ideal.hostUnary_tanh_def, idx69]

end Reference

/-! ## The kernel's payloads read at the row p of the block -/

section Kernel
variable (b0 b1 : Vec Ideal S5120x128 .bf16) (b2 : Vec Ideal S5120x4 .f32) (b3 b4 : Vec Ideal S128x128 .f32) (b5 : Vec Ideal S1x128 .f32)
    (b6 : Vec Ideal S128 .f32) (b7 : Vec Ideal S128x128 .f32) (b8 : Vec Ideal S128 .f32) (b9 : Vec Ideal S128x128 .f32) (b10 : Vec Ideal S128 .f32)
    (b11 : Vec Ideal S128x128 .f32) (b12 : Vec Ideal S128 .f32) (b13 : Vec Ideal S1x128 .f32) (b14 : Vec Ideal S1 .f32)
    (p : Fin 5120)

/-- Layer 1 of the block before its activation: two 128-wide products, the outer product with d2, the bias. -/
def kpre1 (q : Fin 128) : EReal :=
  (∑ k : Fin 128, b0 (ix2 p k) * b3 (ix2 k q)) + (∑ k : Fin 128, b1 (ix2 p k) * b4 (ix2 k q))
      + b2 (ix2 p (3 : Fin 4)) * b5 (ix2 (0 : Fin 1) q) + b6 (ix1 q)

/-- The block's second hidden layer at (p, q). -/
theorem pay6_apply (q : Fin 128) :
    Gen.k0_pay6 (F := Ideal) b0 b1 b2 b5 b3 b4 b6 b7 b8 (ix2 p q)
      = silu ((∑ k : Fin 128, silu (kpre1 b0 b1 b2 b3 b4 b5 b6 p k) * b7 (ix2 k q)) + b8 (ix1 q)) := by
  unfold Gen.k0_pay6 Gen.k0_pay4
  simp only [mulf_apply, addf_apply, logistic_apply, truncf_apply, mm_apply, shapeCast_self, row_apply, col3_apply,
    shapeCast_a_1a_apply]
  rfl

/-- The block's message at (p, q), from any second hidden layer. -/
theorem pay1_apply (v39 : FVec Ideal S5120x128 .f32) (q : Fin 128) :
    Gen.k0_pay1 (F := Ideal) v39 b9 b10 (ix2 p q) = (∑ k : Fin 128, v39 (ix2 p k) * b9 (ix2 k q)) + b10 (ix1 q) := by
  unfold Gen.k0_pay1
  simp only [addf_apply, truncf_apply, mm_apply, shapeCast_self, row_apply, shapeCast_a_1a_apply]

/-- The stored message is the message. -/
theorem pay2_apply (v39 : FVec Ideal S5120x128 .f32) (q : Fin 128) :
    Gen.k0_pay2 (F := Ideal) v39 b9 b10 (ix2 p q) = Gen.k0_pay1 (F := Ideal) v39 b9 b10 (ix2 p q) := rfl

/-- The block's coordinate update at (p, a), from any relative positions and second hidden layer. -/
theorem pay3_apply (v6 : FVec Ideal S5120x3 .f32) (v39 : FVec Ideal S5120x128 .f32) (a : Fin 3) :
    Gen.k0_pay3 (F := Ideal) v6 v39 b9 b10 b11 b12 b13 b14 (ix2 p a)
      = v6 (ix2 p a) * Ideal.tanh ((∑ k : Fin 128,
          silu ((∑ j : Fin 128, Gen.k0_pay1 (F := Ideal) v39 b9 b10 (ix2 p j) * b11 (ix2 j k)) + b12 (ix1 k)) * b13 (ix2 (0 : Fin 1) k))
            + b14 (ix1 (0 : Fin 1))) := by
  unfold Gen.k0_pay3
  simp only [mulf_apply, addf_apply, logistic_apply, tanh_apply, truncf_apply, mm_apply, shapeCast_self, row_apply,
    shapeCast_a_1a_apply, Cert.LibColumn.broadcastTo_a1_ab_apply, Cert.LibColumn.shapeCast_a_a1_apply,
    Cert.LibRowReduce.broadcastTo_11_ab_apply]
  rw [lane_sum_apply]
  simp only [mulf_apply, addf_apply, logistic_apply, truncf_apply, mm_apply, row_apply, shapeCast_a_1a_apply]
  rfl

/-- The block's relative positions at (p, a): columns 0..2 of the geometry. -/
theorem pay5_apply (a : Fin 3) :
    Gen.k0_pay5 (F := Ideal) b2 (ix2 p a) = b2 (ix2 p (⟨a.val, by omega⟩ : Fin 4)) := by
  unfold Gen.k0_pay5 Gen.k0_pay4
  simp only [shapeCast_self, col012_apply]

end Kernel

/-! ## The block against the reference, stage by stage -/

section Bridge

/-- The first hidden layer of the block's row p is the reference's at the edge P. -/
theorem z1_eq (x0 : (⟨Cert.ReferenceIdeal.S50000x3, .f32⟩ : BufTy).Contents (Elt Ideal)) (x1 : (⟨Cert.ReferenceIdeal.S50000x128, .f32⟩ : BufTy).Contents (Elt Ideal)) (x2 : (⟨Cert.ReferenceIdeal.S2x640000, .i32⟩ : BufTy).Contents (Elt Ideal)) (x3 : (⟨Cert.ReferenceIdeal.S128x257, .f32⟩ : BufTy).Contents (Elt Ideal)) (x4 : (⟨Cert.ReferenceIdeal.S128, .f32⟩ : BufTy).Contents (Elt Ideal))
    (b0 b1 : Vec Ideal S5120x128 .bf16) (b2 : Vec Ideal S5120x4 .f32) (b3 b4 : Vec Ideal S128x128 .f32) (b5 : Vec Ideal S1x128 .f32)
    (b6 : Vec Ideal S128 .f32)
    (p : Fin 5120) (P : Fin 640000)
    (h0 : ∀ k : Fin 128, b0 (ix2 p k) = val_main_v28 (F := Ideal) x1 x2 (ix2 P k))
    (h1 : ∀ k : Fin 128, b1 (ix2 p k) = val_main_v35 (F := Ideal) x1 x2 (ix2 P k))
    (h2d : b2 (ix2 p (3 : Fin 4)) = val_main_v21 (F := Ideal) x0 x2 (ix2 P (0 : Fin 1)))
    (h3 : ∀ k q : Fin 128, b3 (ix2 k q) = val_main_v37 (F := Ideal) x3 (ix2 (⟨k.val, by omega⟩ : Fin 257) q))
    (h4 : ∀ k q : Fin 128, b4 (ix2 k q) = val_main_v37 (F := Ideal) x3 (ix2 (⟨128 + k.val, by omega⟩ : Fin 257) q))
    (h5 : ∀ q : Fin 128, b5 (ix2 (0 : Fin 1) q) = val_main_v37 (F := Ideal) x3 (ix2 (⟨256, by omega⟩ : Fin 257) q))
    (h6 : b6 = x4) (q : Fin 128) :
    silu (kpre1 b0 b1 b2 b3 b4 b5 b6 p q) = val_main_v42 (F := Ideal) x0 x1 x2 x3 x4 (ix2 P q) := by
  rw [ref_silu1, ref_pre1]
  subst h6
  unfold kpre1
  simp only [h0, h1, h2d, h3, h4, h5]

/-- The second hidden layer of the block's row p is the reference's at the edge P. -/
theorem z2_eq (x0 : (⟨Cert.ReferenceIdeal.S50000x3, .f32⟩ : BufTy).Contents (Elt Ideal)) (x1 : (⟨Cert.ReferenceIdeal.S50000x128, .f32⟩ : BufTy).Contents (Elt Ideal)) (x2 : (⟨Cert.ReferenceIdeal.S2x640000, .i32⟩ : BufTy).Contents (Elt Ideal)) (x3 : (⟨Cert.ReferenceIdeal.S128x257, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal))
    (b0 b1 : Vec Ideal S5120x128 .bf16) (b2 : Vec Ideal S5120x4 .f32) (b3 b4 : Vec Ideal S128x128 .f32) (b5 : Vec Ideal S1x128 .f32)
    (b6 : Vec Ideal S128 .f32) (b7 : Vec Ideal S128x128 .f32) (b8 : Vec Ideal S128 .f32)
    (p : Fin 5120) (P : Fin 640000)
    (h0 : ∀ k : Fin 128, b0 (ix2 p k) = val_main_v28 (F := Ideal) x1 x2 (ix2 P k))
    (h1 : ∀ k : Fin 128, b1 (ix2 p k) = val_main_v35 (F := Ideal) x1 x2 (ix2 P k))
    (h2d : b2 (ix2 p (3 : Fin 4)) = val_main_v21 (F := Ideal) x0 x2 (ix2 P (0 : Fin 1)))
    (h3 : ∀ k q : Fin 128, b3 (ix2 k q) = val_main_v37 (F := Ideal) x3 (ix2 (⟨k.val, by omega⟩ : Fin 257) q))
    (h4 : ∀ k q : Fin 128, b4 (ix2 k q) = val_main_v37 (F := Ideal) x3 (ix2 (⟨128 + k.val, by omega⟩ : Fin 257) q))
    (h5 : ∀ q : Fin 128, b5 (ix2 (0 : Fin 1) q) = val_main_v37 (F := Ideal) x3 (ix2 (⟨256, by omega⟩ : Fin 257) q))
    (h6 : b6 = x4) (h7 : b7 = val_main_v43 (F := Ideal) x5) (h8 : b8 = x6) (q : Fin 128) :
    Gen.k0_pay6 (F := Ideal) b0 b1 b2 b5 b3 b4 b6 b7 b8 (ix2 p q) = val_main_v48 (F := Ideal) x0 x1 x2 x3 x4 x5 x6 (ix2 P q) := by
  have hz : ∀ k : Fin 128, silu (kpre1 b0 b1 b2 b3 b4 b5 b6 p k) = val_main_v42 (F := Ideal) x0 x1 x2 x3 x4 (ix2 P k) :=
    fun k => z1_eq x0 x1 x2 x3 x4 b0 b1 b2 b3 b4 b5 b6 p P h0 h1 h2d h3 h4 h5 h6 k
  rw [pay6_apply, ref_silu2, ref_pre2]
  subst h7 h8
  simp only [hz]

/-- THE MESSAGE: the block's stored message at (p, q) is the reference's at (P, q). -/
theorem edge_m_apply (x0 : (⟨Cert.ReferenceIdeal.S50000x3, .f32⟩ : BufTy).Contents (Elt Ideal)) (x1 : (⟨Cert.ReferenceIdeal.S50000x128, .f32⟩ : BufTy).Contents (Elt Ideal)) (x2 : (⟨Cert.ReferenceIdeal.S2x640000, .i32⟩ : BufTy).Contents (Elt Ideal)) (x3 : (⟨Cert.ReferenceIdeal.S128x257, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)) (x8 : (⟨Cert.ReferenceIdeal.S128, .f32⟩ : BufTy).Contents (Elt Ideal))
    (b0 b1 : Vec Ideal S5120x128 .bf16) (b2 : Vec Ideal S5120x4 .f32) (b3 b4 : Vec Ideal S128x128 .f32) (b5 : Vec Ideal S1x128 .f32)
    (b6 : Vec Ideal S128 .f32) (b7 : Vec Ideal S128x128 .f32) (b8 : Vec Ideal S128 .f32) (b9 : Vec Ideal S128x128 .f32) (b10 : Vec Ideal S128 .f32)
    (p : Fin 5120) (P : Fin 640000)
    (h0 : ∀ k : Fin 128, b0 (ix2 p k) = val_main_v28 (F := Ideal) x1 x2 (ix2 P k))
    (h1 : ∀ k : Fin 128, b1 (ix2 p k) = val_main_v35 (F := Ideal) x1 x2 (ix2 P k))
    (h2d : b2 (ix2 p (3 : Fin 4)) = val_main_v21 (F := Ideal) x0 x2 (ix2 P (0 : Fin 1)))
    (h3 : ∀ k q : Fin 128, b3 (ix2 k q) = val_main_v37 (F := Ideal) x3 (ix2 (⟨k.val, by omega⟩ : Fin 257) q))
    (h4 : ∀ k q : Fin 128, b4 (ix2 k q) = val_main_v37 (F := Ideal) x3 (ix2 (⟨128 + k.val, by omega⟩ : Fin 257) q))
    (h5 : ∀ q : Fin 128, b5 (ix2 (0 : Fin 1) q) = val_main_v37 (F := Ideal) x3 (ix2 (⟨256, by omega⟩ : Fin 257) q))
    (h6 : b6 = x4) (h7 : b7 = val_main_v43 (F := Ideal) x5) (h8 : b8 = x6) (h9 : b9 = val_main_v49 (F := Ideal) x7) (h10 : b10 = x8)
    (q : Fin 128) :
    Gen.k0_pay2 (Gen.k0_pay6 b0 b1 b2 b5 b3 b4 b6 b7 b8) b9 b10 (ix2 p q)
      = val_main_v53 (F := Ideal) x0 x1 x2 x3 x4 x5 x6 x7 x8 (ix2 P q) := by
  have hz : ∀ k : Fin 128, Gen.k0_pay6 (F := Ideal) b0 b1 b2 b5 b3 b4 b6 b7 b8 (ix2 p k) = val_main_v48 (F := Ideal) x0 x1 x2 x3 x4 x5 x6 (ix2 P k) :=
    fun k => z2_eq x0 x1 x2 x3 x4 x5 x6 b0 b1 b2 b3 b4 b5 b6 b7 b8 p P h0 h1 h2d h3 h4 h5 h6 h7 h8 k
  rw [pay2_apply, pay1_apply, ref_pre3]
  subst h9 h10
  simp only [hz]

/-- THE COORDINATE UPDATE: the block's stored relative-position update at (p, a) is the reference's at (P, a). -/
theorem edge_rs_apply (x0 : (⟨Cert.ReferenceIdeal.S50000x3, .f32⟩ : BufTy).Contents (Elt Ideal)) (x1 : (⟨Cert.ReferenceIdeal.S50000x128, .f32⟩ : BufTy).Contents (Elt Ideal)) (x2 : (⟨Cert.ReferenceIdeal.S2x640000, .i32⟩ : BufTy).Contents (Elt Ideal)) (x3 : (⟨Cert.ReferenceIdeal.S128x257, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)) (x8 : (⟨Cert.ReferenceIdeal.S128, .f32⟩ : BufTy).Contents (Elt Ideal)) (x9 : (⟨Cert.ReferenceIdeal.S128x128, .f32⟩ : BufTy).Contents (Elt Ideal)) (x10 : (⟨Cert.ReferenceIdeal.S128, .f32⟩ : BufTy).Contents (Elt Ideal)) (x11 : (⟨Cert.ReferenceIdeal.S1x128, .f32⟩ : BufTy).Contents (Elt Ideal)) (x12 : (⟨Cert.ReferenceIdeal.S1, .f32⟩ : BufTy).Contents (Elt Ideal))
    (b0 b1 : Vec Ideal S5120x128 .bf16) (b2 : Vec Ideal S5120x4 .f32) (b3 b4 : Vec Ideal S128x128 .f32) (b5 : Vec Ideal S1x128 .f32)
    (b6 : Vec Ideal S128 .f32) (b7 : Vec Ideal S128x128 .f32) (b8 : Vec Ideal S128 .f32) (b9 : Vec Ideal S128x128 .f32) (b10 : Vec Ideal S128 .f32)
    (b11 : Vec Ideal S128x128 .f32) (b12 : Vec Ideal S128 .f32) (b13 : Vec Ideal S1x128 .f32) (b14 : Vec Ideal S1 .f32)
    (p : Fin 5120) (P : Fin 640000)
    (h0 : ∀ k : Fin 128, b0 (ix2 p k) = val_main_v28 (F := Ideal) x1 x2 (ix2 P k))
    (h1 : ∀ k : Fin 128, b1 (ix2 p k) = val_main_v35 (F := Ideal) x1 x2 (ix2 P k))
    (h2r : ∀ a : Fin 3, b2 (ix2 p (⟨a.val, by omega⟩ : Fin 4)) = val_main_v18 (F := Ideal) x0 x2 (ix2 P a))
    (h2d : b2 (ix2 p (3 : Fin 4)) = val_main_v21 (F := Ideal) x0 x2 (ix2 P (0 : Fin 1)))
    (h3 : ∀ k q : Fin 128, b3 (ix2 k q) = val_main_v37 (F := Ideal) x3 (ix2 (⟨k.val, by omega⟩ : Fin 257) q))
    (h4 : ∀ k q : Fin 128, b4 (ix2 k q) = val_main_v37 (F := Ideal) x3 (ix2 (⟨128 + k.val, by omega⟩ : Fin 257) q))
    (h5 : ∀ q : Fin 128, b5 (ix2 (0 : Fin 1) q) = val_main_v37 (F := Ideal) x3 (ix2 (⟨256, by omega⟩ : Fin 257) q))
    (h6 : b6 = x4) (h7 : b7 = val_main_v43 (F := Ideal) x5) (h8 : b8 = x6) (h9 : b9 = val_main_v49 (F := Ideal) x7) (h10 : b10 = x8)
    (h11 : b11 = val_main_v57 (F := Ideal) x9) (h12 : b12 = x10)
    (h13 : ∀ k : Fin 128, b13 (ix2 (0 : Fin 1) k) = val_main_v63 (F := Ideal) x11 (ix2 k (0 : Fin 1)))
    (h14 : b14 = x12) (a : Fin 3) :
    Gen.k0_pay3 (Gen.k0_pay5 b2) (Gen.k0_pay6 b0 b1 b2 b5 b3 b4 b6 b7 b8) b9 b10 b11 b12 b13 b14 (ix2 p a)
      = val_main_v70 (F := Ideal) x0 x1 x2 x3 x4 x5 x6 x7 x8 x9 x10 x11 x12 (ix2 P a) := by
  have hm : ∀ j : Fin 128, Gen.k0_pay1 (F := Ideal) (Gen.k0_pay6 b0 b1 b2 b5 b3 b4 b6 b7 b8) b9 b10 (ix2 p j)
      = val_main_v53 (F := Ideal) x0 x1 x2 x3 x4 x5 x6 x7 x8 (ix2 P j) :=
    fun j => edge_m_apply x0 x1 x2 x3 x4 x5 x6 x7 x8 b0 b1 b2 b3 b4 b5 b6 b7 b8 b9 b10 p P h0 h1 h2d h3 h4 h5 h6 h7 h8 h9 h10 j
  rw [pay3_apply, ref_rs, ref_head, pay5_apply, h2r]
  subst h11 h12 h14
  simp only [hm, h13, ref_silu3, ref_pre4]

end Bridge

end Cert.Bridge.Edge

end
-- ==== Proof.Region0.lean ====
/-
  The edge region's two output arrays, whole.

  The region runs 125 grid points; point t reads rows 5120 t … 5120 t + 5119 of the three per-edge input arrays (the
  features of the edges' two end points and the geometry [rel | d2]) and every weight array whole, and writes back rows
  5120 t … 5120 t + 5119 of the message array and of the coordinate-update array. Row p of point t's block is row
  5120 t + p of the whole arrays, so, the per-row agreement of a block with the whole-array computation being known,
  each point writes back block t of the whole-array result; the 125 blocks tile the 640000 rows (row r lies in the
  block of point r / 5120), hence each output array ends holding the whole-array result.
-/
import proofs.«113372_j781684048540_2_alg».proof.Proof.Gen.KernelIdeal.Frame
import proofs.«113372_j781684048540_2_alg».proof.Proof.RefStages
import proofs.«113372_j781684048540_2_alg».proof.Proof.EdgeBlock
import Idealize.ShloMosaic.Lib.Pipeline.Value
import Idealize.ShloMosaic.Lib.ValueIdx
import Idealize.ShloMosaic.Lib.ValueLayout

set_option maxRecDepth 16384

noncomputable section

namespace Cert.Bridge

open Idealize.ShloMosaic Idealize.ShloMosaic.TcCoe Idealize.ShloMosaic.ValueIdx Idealize.SL.Sem
open Idealize.ShloMosaic.Pipeline (Dat)
open Cert.KernelIdeal Cert.KernelIdeal.Gen Cert.ReferenceIdeal.Stages

theorem hz2 : (![0, 0] : Fin 2 → Nat) = fun _ => 0 := funext fun a => by fin_cases a <;> rfl
theorem hz1 : (![0] : Fin 1 → Nat) = fun _ => 0 := funext fun a => by fin_cases a; rfl

/-- The windows' block indices at grid point t: the three edge inputs and the two outputs move with t along the rows,
    every weight window stays at its whole array. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_15.index t (0 : Fin 2) = t.val ∧ win0_15.index t (1 : Fin 2) = 0
    ∧ win0_16.index t (0 : Fin 2) = t.val ∧ win0_16.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_7.index t (0 : Fin 2) = 0 ∧ win0_7.index t (1 : Fin 2) = 0
    ∧ win0_9.index t (0 : Fin 2) = 0 ∧ win0_9.index t (1 : Fin 2) = 0
    ∧ win0_11.index t (0 : Fin 2) = 0 ∧ win0_11.index t (1 : Fin 2) = 0
    ∧ win0_13.index t (0 : Fin 2) = 0 ∧ win0_13.index t (1 : Fin 2) = 0
    ∧ win0_6.index t (0 : Fin 1) = 0 ∧ win0_8.index t (0 : Fin 1) = 0 ∧ win0_10.index t (0 : Fin 1) = 0
    ∧ win0_12.index t (0 : Fin 1) = 0 ∧ win0_14.index t (0 : Fin 1) = 0 :=
  (by decide +kernel : ∀ t : Fin grid0.N, _)

/-- Every row of the message array lies in the block of the grid point its row number divided by 5120 names. -/
theorem cover15 (i : S640000x128.Idx) :
    ∃ t : Fin cfg0.N, (cfg0.win 15).flush t = true ∧ i ∈ ((cfg0.win 15).blk t).view.set := by
  have h0 : (i 0).val < 640000 := (i 0).isLt
  have h1 : (i 1).val < 128 := (i 1).isLt
  have hN : cfg0.N = 125 := N_0
  obtain ⟨t, ht⟩ : ∃ t : Fin cfg0.N, t.val = (i 0).val / 5120 := ⟨⟨(i 0).val / 5120, by rw [hN]; omega⟩, rfl⟩
  obtain ⟨-, -, -, -, -, -, f0, f1, -⟩ := idx_facts t
  refine ⟨t, flush0_15 t, ?_⟩
  show i ∈ ((View.whole main_v50_0).slice (win0_15.rect t)).set
  rw [View.set_slice_whole, Rect.mem_set_unit]
  intro a
  match a with
  | ⟨0, _⟩ =>
    show win0_15.index t (0 : Fin 2) * 5120 ≤ (i 0).val ∧ (i 0).val < win0_15.index t (0 : Fin 2) * 5120 + 5120
    rw [f0, ht]; omega
  | ⟨1, _⟩ =>
    show win0_15.index t (1 : Fin 2) * 128 ≤ (i 1).val ∧ (i 1).val < win0_15.index t (1 : Fin 2) * 128 + 128
    rw [f1]; omega

/-- The same for the coordinate-update array. -/
theorem cover16 (i : S640000x3.Idx) :
    ∃ t : Fin cfg0.N, (cfg0.win 16).flush t = true ∧ i ∈ ((cfg0.win 16).blk t).view.set := by
  have h0 : (i 0).val < 640000 := (i 0).isLt
  have h1 : (i 1).val < 3 := (i 1).isLt
  have hN : cfg0.N = 125 := N_0
  obtain ⟨t, ht⟩ : ∃ t : Fin cfg0.N, t.val = (i 0).val / 5120 := ⟨⟨(i 0).val / 5120, by rw [hN]; omega⟩, rfl⟩
  obtain ⟨-, -, -, -, -, -, -, -, f0, f1, -⟩ := idx_facts t
  refine ⟨t, flush0_16 t, ?_⟩
  show i ∈ ((View.whole main_v50_1).slice (win0_16.rect t)).set
  rw [View.set_slice_whole, Rect.mem_set_unit]
  intro a
  match a with
  | ⟨0, _⟩ =>
    show win0_16.index t (0 : Fin 2) * 5120 ≤ (i 0).val ∧ (i 0).val < win0_16.index t (0 : Fin 2) * 5120 + 5120
    rw [f0, ht]; omega
  | ⟨1, _⟩ =>
    show win0_16.index t (1 : Fin 2) * 3 ≤ (i 1).val ∧ (i 1).val < win0_16.index t (1 : Fin 2) * 3 + 3
    rw [f1]; omega

/-! ## The windows' blocks as rows of their arrays -/

/-- Row p of grid point t's block of an edge-row window is row 5120 t + p of the window's array. -/
theorem blk0_apply (V : (c : Dev nD) → (b : Ref sig .tc) → Buf (Elt Ideal) ((c : Thread nD τ).loc b)) (c : Dev nD) (t : Fin cfg0.N) (p : Fin 5120) (hP : 5120 * t.val + p.val < 640000) (k : Fin 128) :
    iblk0 V c 0 t (ix2 p k) = V c main_v11 (ix2 (⟨5120 * t.val + p.val, hP⟩ : Fin 640000) k) := by
  obtain ⟨a00, a01, a10, a11, a20, a21, a150, a151, a160, a161, a30, a31, a40, a41, a50, a51, a70, a71, a90, a91, a110, a111, a130, a131, a6, a8, a10', a12, a14⟩ := idx_facts t
  show V c main_v11 (((cfg0.win 0).blk t).view.emb (ix2 p k)) = _
  refine congrArg _ (funext fun a => Fin.ext ?_)
  match a with
  | ⟨0, _⟩ => show win0_0.index t (0 : Fin 2) * 5120 + 1 * p.val = 5120 * t.val + p.val; omega
  | ⟨1, _⟩ => show win0_0.index t (1 : Fin 2) * 128 + 1 * k.val = k.val; omega

/-- The same for the second edge-row window. -/
theorem blk1_apply (V : (c : Dev nD) → (b : Ref sig .tc) → Buf (Elt Ideal) ((c : Thread nD τ).loc b)) (c : Dev nD) (t : Fin cfg0.N) (p : Fin 5120) (hP : 5120 * t.val + p.val < 640000) (k : Fin 128) :
    iblk0 V c 1 t (ix2 p k) = V c main_v18 (ix2 (⟨5120 * t.val + p.val, hP⟩ : Fin 640000) k) := by
  obtain ⟨a00, a01, a10, a11, a20, a21, a150, a151, a160, a161, a30, a31, a40, a41, a50, a51, a70, a71, a90, a91, a110, a111, a130, a131, a6, a8, a10', a12, a14⟩ := idx_facts t
  show V c main_v18 (((cfg0.win 1).blk t).view.emb (ix2 p k)) = _
  refine congrArg _ (funext fun a => Fin.ext ?_)
  match a with
  | ⟨0, _⟩ => show win0_1.index t (0 : Fin 2) * 5120 + 1 * p.val = 5120 * t.val + p.val; omega
  | ⟨1, _⟩ => show win0_1.index t (1 : Fin 2) * 128 + 1 * k.val = k.val; omega

/-- The same for the geometry window. -/
theorem blk2_apply (V : (c : Dev nD) → (b : Ref sig .tc) → Buf (Elt Ideal) ((c : Thread nD τ).loc b)) (c : Dev nD) (t : Fin cfg0.N) (p : Fin 5120) (hP : 5120 * t.val + p.val < 640000) (k : Fin 4) :
    iblk0 V c 2 t (ix2 p k) = V c main_v37 (ix2 (⟨5120 * t.val + p.val, hP⟩ : Fin 640000) k) := by
  obtain ⟨a00, a01, a10, a11, a20, a21, a150, a151, a160, a161, a30, a31, a40, a41, a50, a51, a70, a71, a90, a91, a110, a111, a130, a131, a6, a8, a10', a12, a14⟩ := idx_facts t
  show V c main_v37 (((cfg0.win 2).blk t).view.emb (ix2 p k)) = _
  refine congrArg _ (funext fun a => Fin.ext ?_)
  match a with
  | ⟨0, _⟩ => show win0_2.index t (0 : Fin 2) * 5120 + 1 * p.val = 5120 * t.val + p.val; omega
  | ⟨1, _⟩ => show win0_2.index t (1 : Fin 2) * 4 + 1 * k.val = k.val; omega

/-- Every weight window's block is its whole array, at every grid point. -/
theorem blk3_eq (V : (c : Dev nD) → (b : Ref sig .tc) → Buf (Elt Ideal) ((c : Thread nD τ).loc b)) (c : Dev nD) (t : Fin cfg0.N) : iblk0 V c 3 t = V c main_v39 := by
  obtain ⟨a00, a01, a10, a11, a20, a21, a150, a151, a160, a161, a30, a31, a40, a41, a50, a51, a70, a71, a90, a91, a110, a111, a130, a131, a6, a8, a10', a12, a14⟩ := idx_facts t
  funext j
  show V c main_v39 (((cfg0.win 3).blk t).view.emb j) = V c main_v39 j
  refine congrArg _ (funext fun a => Fin.ext ?_)
  match a with
  | ⟨0, _⟩ => show win0_3.index t (0 : Fin 2) * 128 + 1 * (j 0).val = (j 0).val; omega
  | ⟨1, _⟩ => show win0_3.index t (1 : Fin 2) * 128 + 1 * (j 1).val = (j 1).val; omega

theorem blk4_eq (V : (c : Dev nD) → (b : Ref sig .tc) → Buf (Elt Ideal) ((c : Thread nD τ).loc b)) (c : Dev nD) (t : Fin cfg0.N) : iblk0 V c 4 t = V c main_v40 := by
  obtain ⟨a00, a01, a10, a11, a20, a21, a150, a151, a160, a161, a30, a31, a40, a41, a50, a51, a70, a71, a90, a91, a110, a111, a130, a131, a6, a8, a10', a12, a14⟩ := idx_facts t
  funext j
  show V c main_v40 (((cfg0.win 4).blk t).view.emb j) = V c main_v40 j
  refine congrArg _ (funext fun a => Fin.ext ?_)
  match a with
  | ⟨0, _⟩ => show win0_4.index t (0 : Fin 2) * 128 + 1 * (j 0).val = (j 0).val; omega
  | ⟨1, _⟩ => show win0_4.index t (1 : Fin 2) * 128 + 1 * (j 1).val = (j 1).val; omega

theorem blk5_eq (V : (c : Dev nD) → (b : Ref sig .tc) → Buf (Elt Ideal) ((c : Thread nD τ).loc b)) (c : Dev nD) (t : Fin cfg0.N) : iblk0 V c 5 t = V c main_v41 := by
  obtain ⟨a00, a01, a10, a11, a20, a21, a150, a151, a160, a161, a30, a31, a40, a41, a50, a51, a70, a71, a90, a91, a110, a111, a130, a131, a6, a8, a10', a12, a14⟩ := idx_facts t
  funext j
  show V c main_v41 (((cfg0.win 5).blk t).view.emb j) = V c main_v41 j
  refine congrArg _ (funext fun a => Fin.ext ?_)
  match a with
  | ⟨0, _⟩ => show win0_5.index t (0 : Fin 2) * 1 + 1 * (j 0).val = (j 0).val; omega
  | ⟨1, _⟩ => show win0_5.index t (1 : Fin 2) * 128 + 1 * (j 1).val = (j 1).val; omega

theorem blk6_eq (V : (c : Dev nD) → (b : Ref sig .tc) → Buf (Elt Ideal) ((c : Thread nD τ).loc b)) (c : Dev nD) (t : Fin cfg0.N) : iblk0 V c 6 t = V c main_arg4 := by
  obtain ⟨a00, a01, a10, a11, a20, a21, a150, a151, a160, a161, a30, a31, a40, a41, a50, a51, a70, a71, a90, a91, a110, a111, a130, a131, a6, a8, a10', a12, a14⟩ := idx_facts t
  funext j
  show V c main_arg4 (((cfg0.win 6).blk t).view.emb j) = V c main_arg4 j
  refine congrArg _ (funext fun a => Fin.ext ?_)
  match a with
  | ⟨0, _⟩ => show win0_6.index t (0 : Fin 1) * 128 + 1 * (j 0).val = (j 0).val; omega

theorem blk7_eq (V : (c : Dev nD) → (b : Ref sig .tc) → Buf (Elt Ideal) ((c : Thread nD τ).loc b)) (c : Dev nD) (t : Fin cfg0.N) : iblk0 V c 7 t = V c main_v42 := by
  obtain ⟨a00, a01, a10, a11, a20, a21, a150, a151, a160, a161, a30, a31, a40, a41, a50, a51, a70, a71, a90, a91, a110, a111, a130, a131, a6, a8, a10', a12, a14⟩ := idx_facts t
  funext j
  show V c main_v42 (((cfg0.win 7).blk t).view.emb j) = V c main_v42 j
  refine congrArg _ (funext fun a => Fin.ext ?_)
  match a with
  | ⟨0, _⟩ => show win0_7.index t (0 : Fin 2) * 128 + 1 * (j 0).val = (j 0).val; omega
  | ⟨1, _⟩ => show win0_7.index t (1 : Fin 2) * 128 + 1 * (j 1).val = (j 1).val; omega

theorem blk8_eq (V : (c : Dev nD) → (b : Ref sig .tc) → Buf (Elt Ideal) ((c : Thread nD τ).loc b)) (c : Dev nD) (t : Fin cfg0.N) : iblk0 V c 8 t = V c main_arg6 := by
  obtain ⟨a00, a01, a10, a11, a20, a21, a150, a151, a160, a161, a30, a31, a40, a41, a50, a51, a70, a71, a90, a91, a110, a111, a130, a131, a6, a8, a10', a12, a14⟩ := idx_facts t
  funext j
  show V c main_arg6 (((cfg0.win 8).blk t).view.emb j) = V c main_arg6 j
  refine congrArg _ (funext fun a => Fin.ext ?_)
  match a with
  | ⟨0, _⟩ => show win0_8.index t (0 : Fin 1) * 128 + 1 * (j 0).val = (j 0).val; omega

theorem blk9_eq (V : (c : Dev nD) → (b : Ref sig .tc) → Buf (Elt Ideal) ((c : Thread nD τ).loc b)) (c : Dev nD) (t : Fin cfg0.N) : iblk0 V c 9 t = V c main_v43 := by
  obtain ⟨a00, a01, a10, a11, a20, a21, a150, a151, a160, a161, a30, a31, a40, a41, a50, a51, a70, a71, a90, a91, a110, a111, a130, a131, a6, a8, a10', a12, a14⟩ := idx_facts t
  funext j
  show V c main_v43 (((cfg0.win 9).blk t).view.emb j) = V c main_v43 j
  refine congrArg _ (funext fun a => Fin.ext ?_)
  match a with
  | ⟨0, _⟩ => show win0_9.index t (0 : Fin 2) * 128 + 1 * (j 0).val = (j 0).val; omega
  | ⟨1, _⟩ => show win0_9.index t (1 : Fin 2) * 128 + 1 * (j 1).val = (j 1).val; omega

theorem blk10_eq (V : (c : Dev nD) → (b : Ref sig .tc) → Buf (Elt Ideal) ((c : Thread nD τ).loc b)) (c : Dev nD) (t : Fin cfg0.N) : iblk0 V c 10 t = V c main_arg8 := by
  obtain ⟨a00, a01, a10, a11, a20, a21, a150, a151, a160, a161, a30, a31, a40, a41, a50, a51, a70, a71, a90, a91, a110, a111, a130, a131, a6, a8, a10', a12, a14⟩ := idx_facts t
  funext j
  show V c main_arg8 (((cfg0.win 10).blk t).view.emb j) = V c main_arg8 j
  refine congrArg _ (funext fun a => Fin.ext ?_)
  match a with
  | ⟨0, _⟩ => show win0_10.index t (0 : Fin 1) * 128 + 1 * (j 0).val = (j 0).val; omega

theorem blk11_eq (V : (c : Dev nD) → (b : Ref sig .tc) → Buf (Elt Ideal) ((c : Thread nD τ).loc b)) (c : Dev nD) (t : Fin cfg0.N) : iblk0 V c 11 t = V c main_v44 := by
  obtain ⟨a00, a01, a10, a11, a20, a21, a150, a151, a160, a161, a30, a31, a40, a41, a50, a51, a70, a71, a90, a91, a110, a111, a130, a131, a6, a8, a10', a12, a14⟩ := idx_facts t
  funext j
  show V c main_v44 (((cfg0.win 11).blk t).view.emb j) = V c main_v44 j
  refine congrArg _ (funext fun a => Fin.ext ?_)
  match a with
  | ⟨0, _⟩ => show win0_11.index t (0 : Fin 2) * 128 + 1 * (j 0).val = (j 0).val; omega
  | ⟨1, _⟩ => show win0_11.index t (1 : Fin 2) * 128 + 1 * (j 1).val = (j 1).val; omega

theorem blk12_eq (V : (c : Dev nD) → (b : Ref sig .tc) → Buf (Elt Ideal) ((c : Thread nD τ).loc b)) (c : Dev nD) (t : Fin cfg0.N) : iblk0 V c 12 t = V c main_arg10 := by
  obtain ⟨a00, a01, a10, a11, a20, a21, a150, a151, a160, a161, a30, a31, a40, a41, a50, a51, a70, a71, a90, a91, a110, a111, a130, a131, a6, a8, a10', a12, a14⟩ := idx_facts t
  funext j
  show V c main_arg10 (((cfg0.win 12).blk t).view.emb j) = V c main_arg10 j
  refine congrArg _ (funext fun a => Fin.ext ?_)
  match a with
  | ⟨0, _⟩ => show win0_12.index t (0 : Fin 1) * 128 + 1 * (j 0).val = (j 0).val; omega

theorem blk13_eq (V : (c : Dev nD) → (b : Ref sig .tc) → Buf (Elt Ideal) ((c : Thread nD τ).loc b)) (c : Dev nD) (t : Fin cfg0.N) : iblk0 V c 13 t = V c main_arg11 := by
  obtain ⟨a00, a01, a10, a11, a20, a21, a150, a151, a160, a161, a30, a31, a40, a41, a50, a51, a70, a71, a90, a91, a110, a111, a130, a131, a6, a8, a10', a12, a14⟩ := idx_facts t
  funext j
  show V c main_arg11 (((cfg0.win 13).blk t).view.emb j) = V c main_arg11 j
  refine congrArg _ (funext fun a => Fin.ext ?_)
  match a with
  | ⟨0, _⟩ => show win0_13.index t (0 : Fin 2) * 1 + 1 * (j 0).val = (j 0).val; omega
  | ⟨1, _⟩ => show win0_13.index t (1 : Fin 2) * 128 + 1 * (j 1).val = (j 1).val; omega

theorem blk14_eq (V : (c : Dev nD) → (b : Ref sig .tc) → Buf (Elt Ideal) ((c : Thread nD τ).loc b)) (c : Dev nD) (t : Fin cfg0.N) : iblk0 V c 14 t = V c main_arg12 := by
  obtain ⟨a00, a01, a10, a11, a20, a21, a150, a151, a160, a161, a30, a31, a40, a41, a50, a51, a70, a71, a90, a91, a110, a111, a130, a131, a6, a8, a10', a12, a14⟩ := idx_facts t
  funext j
  show V c main_arg12 (((cfg0.win 14).blk t).view.emb j) = V c main_arg12 j
  refine congrArg _ (funext fun a => Fin.ext ?_)
  match a with
  | ⟨0, _⟩ => show win0_14.index t (0 : Fin 1) * 1 + 1 * (j 0).val = (j 0).val; omega

/-- Block t of a whole array of messages, read at row p, is the array's row 5120 t + p. -/
theorem read15 (G : (⟨Cert.ReferenceIdeal.S640000x128, .f32⟩ : BufTy).Contents (Elt Ideal)) (t : Fin cfg0.N) (p : Fin 5120) (hP : 5120 * t.val + p.val < 640000) (q : Fin 128) :
    ((cfg0.win 15).blk t).view.read (Elt Ideal) G (ix2 p q) = G (ix2 (⟨5120 * t.val + p.val, hP⟩ : Fin 640000) q) := by
  obtain ⟨a00, a01, a10, a11, a20, a21, a150, a151, a160, a161, a30, a31, a40, a41, a50, a51, a70, a71, a90, a91, a110, a111, a130, a131, a6, a8, a10', a12, a14⟩ := idx_facts t
  rw [View.read_apply]
  refine (cast_eq _ _).trans (congrArg G (funext fun a => Fin.ext ?_))
  match a with
  | ⟨0, _⟩ => show win0_15.index t (0 : Fin 2) * 5120 + 1 * p.val = 5120 * t.val + p.val; omega
  | ⟨1, _⟩ => show win0_15.index t (1 : Fin 2) * 128 + 1 * q.val = q.val; omega

/-- The same for a whole array of coordinate updates. -/
theorem read16 (G : (⟨Cert.ReferenceIdeal.S640000x3, .f32⟩ : BufTy).Contents (Elt Ideal)) (t : Fin cfg0.N) (p : Fin 5120) (hP : 5120 * t.val + p.val < 640000) (q : Fin 3) :
    ((cfg0.win 16).blk t).view.read (Elt Ideal) G (ix2 p q) = G (ix2 (⟨5120 * t.val + p.val, hP⟩ : Fin 640000) q) := by
  obtain ⟨a00, a01, a10, a11, a20, a21, a150, a151, a160, a161, a30, a31, a40, a41, a50, a51, a70, a71, a90, a91, a110, a111, a130, a131, a6, a8, a10', a12, a14⟩ := idx_facts t
  rw [View.read_apply]
  refine (cast_eq _ _).trans (congrArg G (funext fun a => Fin.ext ?_))
  match a with
  | ⟨0, _⟩ => show win0_16.index t (0 : Fin 2) * 5120 + 1 * p.val = 5120 * t.val + p.val; omega
  | ⟨1, _⟩ => show win0_16.index t (1 : Fin 2) * 3 + 1 * q.val = q.val; omega

/-! ## The region's input arrays at an edge, from the whole-array stages -/

/-- Column 3 of the geometry [rel | d2] is d2. -/
theorem geom_d (x0 : (⟨Cert.ReferenceIdeal.S50000x3, .f32⟩ : BufTy).Contents (Elt Ideal)) (x2 : (⟨Cert.ReferenceIdeal.S2x640000, .i32⟩ : BufTy).Contents (Elt Ideal)) (P : Fin 640000) :
    concatenate S640000x4 1 [⟨S640000x3, val_main_v18 (F := Ideal) x0 x2⟩, ⟨S640000x1, val_main_v21 (F := Ideal) x0 x2⟩] concatenates_S640000x3_S640000x1_S640000x4_d1 (ix2 P (3 : Fin 4)) = val_main_v21 (F := Ideal) x0 x2 (ix2 P (0 : Fin 1)) := by
  generalize val_main_v18 (F := Ideal) x0 x2 = y18
  generalize val_main_v21 (F := Ideal) x0 x2 = y21
  refine concatenate_pair_apply_right (t := S640000x4) (s₁ := S640000x3) (s₂ := S640000x1) (1 : Fin 2) y18 y21
    concatenates_S640000x3_S640000x1_S640000x4_d1 (ix2 P (3 : Fin 4)) rfl rfl (ix2 P (0 : Fin 1)) (fun b hb => ?_) rfl
  match b, hb with
  | ⟨0, _⟩, _ => rfl
  | ⟨1, _⟩, hb => exact absurd (Fin.ext rfl) hb

/-- Columns 0..2 of the geometry [rel | d2] are rel. -/
theorem geom_rel (x0 : (⟨Cert.ReferenceIdeal.S50000x3, .f32⟩ : BufTy).Contents (Elt Ideal)) (x2 : (⟨Cert.ReferenceIdeal.S2x640000, .i32⟩ : BufTy).Contents (Elt Ideal)) (P : Fin 640000) (a : Fin 3) (h : a.val < 4) :
    concatenate S640000x4 1 [⟨S640000x3, val_main_v18 (F := Ideal) x0 x2⟩, ⟨S640000x1, val_main_v21 (F := Ideal) x0 x2⟩] concatenates_S640000x3_S640000x1_S640000x4_d1 (ix2 P (⟨a.val, h⟩ : Fin 4)) = val_main_v18 (F := Ideal) x0 x2 (ix2 P a) := by
  generalize val_main_v18 (F := Ideal) x0 x2 = y18
  generalize val_main_v21 (F := Ideal) x0 x2 = y21
  refine concatenate_pair_apply_left (t := S640000x4) (s₁ := S640000x3) (s₂ := S640000x1) (1 : Fin 2) y18 y21
    concatenates_S640000x3_S640000x1_S640000x4_d1 (ix2 P (⟨a.val, h⟩ : Fin 4)) rfl (ix2 P a) (fun b => ?_)
  match b with
  | ⟨0, _⟩ => rfl
  | ⟨1, _⟩ => rfl

/-- Rows 0..127, 128..255 and 256 of the transposed 257-row weight, cut out as the three first-layer weights. -/
theorem w1a_apply (x3 : (⟨Cert.ReferenceIdeal.S128x257, .f32⟩ : BufTy).Contents (Elt Ideal)) (k q : Fin 128) (h : k.val < 257) :
    extractStridedSlice S128x128 ![0, 0] (val_main_v37 (F := Ideal) x3) slices_S257x128_S128x128_0_0 (ix2 k q)
      = val_main_v37 (F := Ideal) x3 (ix2 (⟨k.val, h⟩ : Fin 257) q) :=
  slice2_axis0_apply 0 _ slices_S257x128_S128x128_0_0 k q ⟨k.val, h⟩ (Nat.zero_add _).symm

theorem w1b_apply (x3 : (⟨Cert.ReferenceIdeal.S128x257, .f32⟩ : BufTy).Contents (Elt Ideal)) (k q : Fin 128) (h : 128 + k.val < 257) :
    extractStridedSlice S128x128 ![128, 0] (val_main_v37 (F := Ideal) x3) slices_S257x128_S128x128_128_0 (ix2 k q)
      = val_main_v37 (F := Ideal) x3 (ix2 (⟨128 + k.val, h⟩ : Fin 257) q) :=
  slice2_axis0_apply 128 _ slices_S257x128_S128x128_128_0 k q ⟨128 + k.val, h⟩ rfl

theorem w1c_apply (x3 : (⟨Cert.ReferenceIdeal.S128x257, .f32⟩ : BufTy).Contents (Elt Ideal)) (q : Fin 128) (h : 256 < 257) :
    extractStridedSlice S1x128 ![256, 0] (val_main_v37 (F := Ideal) x3) slices_S257x128_S1x128_256_0 (ix2 (0 : Fin 1) q)
      = val_main_v37 (F := Ideal) x3 (ix2 (⟨256, h⟩ : Fin 257) q) :=
  slice2_axis0_apply 256 _ slices_S257x128_S1x128_256_0 (0 : Fin 1) q ⟨256, h⟩ rfl

/-- The coordinate head's 1 × 128 weight is its 128 × 1 transpose read across. -/
theorem cw2_apply (x11 : (⟨Cert.ReferenceIdeal.S1x128, .f32⟩ : BufTy).Contents (Elt Ideal)) (k : Fin 128) :
    x11 (ix2 (0 : Fin 1) k) = val_main_v63 (F := Ideal) x11 (ix2 k (0 : Fin 1)) := by
  rw [val_main_v63_apply]
  refine congrArg _ (funext fun a => Fin.ext ?_)
  match a with
  | ⟨0, _⟩ => rfl
  | ⟨1, _⟩ => rfl

/-! ## What each grid point writes back, and the whole output arrays -/

/-- WHAT GRID POINT t WRITES BACK into the message array is block t of the whole-array message. -/
theorem flushed15_eq (V : (c : Dev nD) → (b : Ref sig .tc) → Buf (Elt Ideal) ((c : Thread nD τ).loc b)) (c : Dev nD)
    (x0 : (⟨Cert.ReferenceIdeal.S50000x3, .f32⟩ : BufTy).Contents (Elt Ideal)) (x1 : (⟨Cert.ReferenceIdeal.S50000x128, .f32⟩ : BufTy).Contents (Elt Ideal)) (x2 : (⟨Cert.ReferenceIdeal.S2x640000, .i32⟩ : BufTy).Contents (Elt Ideal)) (x3 : (⟨Cert.ReferenceIdeal.S128x257, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)) (x8 : (⟨Cert.ReferenceIdeal.S128, .f32⟩ : BufTy).Contents (Elt Ideal))
    (e0 : V c main_v11 = val_main_v28 (F := Ideal) x1 x2) (e1 : V c main_v18 = val_main_v35 (F := Ideal) x1 x2)
    (e2 : V c main_v37 = concatenate S640000x4 1 [⟨S640000x3, val_main_v18 (F := Ideal) x0 x2⟩, ⟨S640000x1, val_main_v21 (F := Ideal) x0 x2⟩] concatenates_S640000x3_S640000x1_S640000x4_d1)
    (e3 : V c main_v39 = extractStridedSlice S128x128 ![0, 0] (val_main_v37 (F := Ideal) x3) slices_S257x128_S128x128_0_0)
    (e4 : V c main_v40 = extractStridedSlice S128x128 ![128, 0] (val_main_v37 (F := Ideal) x3) slices_S257x128_S128x128_128_0)
    (e5 : V c main_v41 = extractStridedSlice S1x128 ![256, 0] (val_main_v37 (F := Ideal) x3) slices_S257x128_S1x128_256_0)
    (e6 : V c main_arg4 = x4) (e7 : V c main_v42 = val_main_v43 (F := Ideal) x5) (e8 : V c main_arg6 = x6)
    (e9 : V c main_v43 = val_main_v49 (F := Ideal) x7) (e10 : V c main_arg8 = x8) (t : Fin cfg0.N) :
    (dat0 V c).flushed 15 t = ((cfg0.win 15).blk t).view.read (Elt Ideal) (val_main_v53 (F := Ideal) x0 x1 x2 x3 x4 x5 x6 x7 x8) := by
  show (cfg0.win 15).cut (grid0.coords t) ((dat0 V c).after 15 t) = _
  rw [after0_15]
  unfold out0_15
  rw [View.canon_unit_zero hz2]
  simp only [View.ld_unit_zero (S := S5120x128) hz2, View.ld_unit_zero (S := S5120x4) hz2, View.ld_unit_zero (S := S128x128) hz2,
    View.ld_unit_zero (S := S1x128) hz2, View.ld_unit_zero (S := S128) hz1]
  funext j
  obtain ⟨p, q, rfl⟩ : ∃ (p : Fin 5120) (q : Fin 128), j = ix2 p q := ⟨j 0, j 1, eq_ix2 j⟩
  have hN : cfg0.N = 125 := N_0
  have htN : t.val < 125 := hN ▸ t.isLt
  have hP : 5120 * t.val + p.val < 640000 := by have := p.isLt; omega
  exact (Cert.Bridge.Edge.edge_m_apply x0 x1 x2 x3 x4 x5 x6 x7 x8 (iblk0 V c 0 t) (iblk0 V c 1 t) (iblk0 V c 2 t) (iblk0 V c 3 t) (iblk0 V c 4 t) (iblk0 V c 5 t)
    (iblk0 V c 6 t) (iblk0 V c 7 t) (iblk0 V c 8 t) (iblk0 V c 9 t) (iblk0 V c 10 t) p ⟨5120 * t.val + p.val, hP⟩
    (fun k => (blk0_apply V c t p hP k).trans (congrFun e0 _))
    (fun k => (blk1_apply V c t p hP k).trans (congrFun e1 _))
    ((blk2_apply V c t p hP (3 : Fin 4)).trans ((congrFun e2 _).trans (geom_d x0 x2 _)))
    (fun k q' => (congrFun (blk3_eq V c t) _).trans ((congrFun e3 _).trans (w1a_apply x3 k q' _)))
    (fun k q' => (congrFun (blk4_eq V c t) _).trans ((congrFun e4 _).trans (w1b_apply x3 k q' _)))
    (fun q' => (congrFun (blk5_eq V c t) _).trans ((congrFun e5 _).trans (w1c_apply x3 q' _)))
    ((blk6_eq V c t).trans e6) ((blk7_eq V c t).trans e7) ((blk8_eq V c t).trans e8) ((blk9_eq V c t).trans e9) ((blk10_eq V c t).trans e10)
    q).trans (read15 _ t p hP q).symm

/-- WHAT GRID POINT t WRITES BACK into the coordinate-update array is block t of the whole-array update. -/
theorem flushed16_eq (V : (c : Dev nD) → (b : Ref sig .tc) → Buf (Elt Ideal) ((c : Thread nD τ).loc b)) (c : Dev nD)
    (x0 : (⟨Cert.ReferenceIdeal.S50000x3, .f32⟩ : BufTy).Contents (Elt Ideal)) (x1 : (⟨Cert.ReferenceIdeal.S50000x128, .f32⟩ : BufTy).Contents (Elt Ideal)) (x2 : (⟨Cert.ReferenceIdeal.S2x640000, .i32⟩ : BufTy).Contents (Elt Ideal)) (x3 : (⟨Cert.ReferenceIdeal.S128x257, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)) (x8 : (⟨Cert.ReferenceIdeal.S128, .f32⟩ : BufTy).Contents (Elt Ideal)) (x9 : (⟨Cert.ReferenceIdeal.S128x128, .f32⟩ : BufTy).Contents (Elt Ideal)) (x10 : (⟨Cert.ReferenceIdeal.S128, .f32⟩ : BufTy).Contents (Elt Ideal)) (x11 : (⟨Cert.ReferenceIdeal.S1x128, .f32⟩ : BufTy).Contents (Elt Ideal)) (x12 : (⟨Cert.ReferenceIdeal.S1, .f32⟩ : BufTy).Contents (Elt Ideal))
    (e0 : V c main_v11 = val_main_v28 (F := Ideal) x1 x2) (e1 : V c main_v18 = val_main_v35 (F := Ideal) x1 x2)
    (e2 : V c main_v37 = concatenate S640000x4 1 [⟨S640000x3, val_main_v18 (F := Ideal) x0 x2⟩, ⟨S640000x1, val_main_v21 (F := Ideal) x0 x2⟩] concatenates_S640000x3_S640000x1_S640000x4_d1)
    (e3 : V c main_v39 = extractStridedSlice S128x128 ![0, 0] (val_main_v37 (F := Ideal) x3) slices_S257x128_S128x128_0_0)
    (e4 : V c main_v40 = extractStridedSlice S128x128 ![128, 0] (val_main_v37 (F := Ideal) x3) slices_S257x128_S128x128_128_0)
    (e5 : V c main_v41 = extractStridedSlice S1x128 ![256, 0] (val_main_v37 (F := Ideal) x3) slices_S257x128_S1x128_256_0)
    (e6 : V c main_arg4 = x4) (e7 : V c main_v42 = val_main_v43 (F := Ideal) x5) (e8 : V c main_arg6 = x6)
    (e9 : V c main_v43 = val_main_v49 (F := Ideal) x7) (e10 : V c main_arg8 = x8)
    (e11 : V c main_v44 = val_main_v57 (F := Ideal) x9) (e12 : V c main_arg10 = x10) (e13 : V c main_arg11 = x11) (e14 : V c main_arg12 = x12) (t : Fin cfg0.N) :
    (dat0 V c).flushed 16 t = ((cfg0.win 16).blk t).view.read (Elt Ideal) (val_main_v70 (F := Ideal) x0 x1 x2 x3 x4 x5 x6 x7 x8 x9 x10 x11 x12) := by
  show (cfg0.win 16).cut (grid0.coords t) ((dat0 V c).after 16 t) = _
  rw [after0_16]
  unfold out0_16
  rw [View.canon_unit_zero hz2]
  simp only [View.ld_unit_zero (S := S5120x128) hz2, View.ld_unit_zero (S := S5120x4) hz2, View.ld_unit_zero (S := S128x128) hz2,
    View.ld_unit_zero (S := S1x128) hz2, View.ld_unit_zero (S := S128) hz1, View.ld_unit_zero (S := S1) hz1]
  funext j
  obtain ⟨p, a, rfl⟩ : ∃ (p : Fin 5120) (a : Fin 3), j = ix2 p a := ⟨j 0, j 1, eq_ix2 j⟩
  have hN : cfg0.N = 125 := N_0
  have htN : t.val < 125 := hN ▸ t.isLt
  have hP : 5120 * t.val + p.val < 640000 := by have := p.isLt; omega
  exact (Cert.Bridge.Edge.edge_rs_apply x0 x1 x2 x3 x4 x5 x6 x7 x8 x9 x10 x11 x12 (iblk0 V c 0 t) (iblk0 V c 1 t) (iblk0 V c 2 t) (iblk0 V c 3 t) (iblk0 V c 4 t) (iblk0 V c 5 t)
    (iblk0 V c 6 t) (iblk0 V c 7 t) (iblk0 V c 8 t) (iblk0 V c 9 t) (iblk0 V c 10 t) (iblk0 V c 11 t) (iblk0 V c 12 t) (iblk0 V c 13 t) (iblk0 V c 14 t)
    p ⟨5120 * t.val + p.val, hP⟩
    (fun k => (blk0_apply V c t p hP k).trans (congrFun e0 _))
    (fun k => (blk1_apply V c t p hP k).trans (congrFun e1 _))
    (fun a' => (blk2_apply V c t p hP (⟨a'.val, by omega⟩ : Fin 4)).trans ((congrFun e2 _).trans (geom_rel x0 x2 _ a' _)))
    ((blk2_apply V c t p hP (3 : Fin 4)).trans ((congrFun e2 _).trans (geom_d x0 x2 _)))
    (fun k q' => (congrFun (blk3_eq V c t) _).trans ((congrFun e3 _).trans (w1a_apply x3 k q' _)))
    (fun k q' => (congrFun (blk4_eq V c t) _).trans ((congrFun e4 _).trans (w1b_apply x3 k q' _)))
    (fun q' => (congrFun (blk5_eq V c t) _).trans ((congrFun e5 _).trans (w1c_apply x3 q' _)))
    ((blk6_eq V c t).trans e6) ((blk7_eq V c t).trans e7) ((blk8_eq V c t).trans e8) ((blk9_eq V c t).trans e9) ((blk10_eq V c t).trans e10)
    ((blk11_eq V c t).trans e11) ((blk12_eq V c t).trans e12)
    (fun k => (congrFun (blk13_eq V c t) _).trans ((congrFun e13 _).trans (cw2_apply x11 k)))
    ((blk14_eq V c t).trans e14)
    a).trans (read16 _ t p hP a).symm

/-- THE MESSAGE ARRAY after the region is the whole-array message. -/
theorem region0_m (V : (c : Dev nD) → (b : Ref sig .tc) → Buf (Elt Ideal) ((c : Thread nD τ).loc b)) (c : Dev nD)
    (x0 : (⟨Cert.ReferenceIdeal.S50000x3, .f32⟩ : BufTy).Contents (Elt Ideal)) (x1 : (⟨Cert.ReferenceIdeal.S50000x128, .f32⟩ : BufTy).Contents (Elt Ideal)) (x2 : (⟨Cert.ReferenceIdeal.S2x640000, .i32⟩ : BufTy).Contents (Elt Ideal)) (x3 : (⟨Cert.ReferenceIdeal.S128x257, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)) (x8 : (⟨Cert.ReferenceIdeal.S128, .f32⟩ : BufTy).Contents (Elt Ideal))
    (e0 : V c main_v11 = val_main_v28 (F := Ideal) x1 x2) (e1 : V c main_v18 = val_main_v35 (F := Ideal) x1 x2)
    (e2 : V c main_v37 = concatenate S640000x4 1 [⟨S640000x3, val_main_v18 (F := Ideal) x0 x2⟩, ⟨S640000x1, val_main_v21 (F := Ideal) x0 x2⟩] concatenates_S640000x3_S640000x1_S640000x4_d1)
    (e3 : V c main_v39 = extractStridedSlice S128x128 ![0, 0] (val_main_v37 (F := Ideal) x3) slices_S257x128_S128x128_0_0)
    (e4 : V c main_v40 = extractStridedSlice S128x128 ![128, 0] (val_main_v37 (F := Ideal) x3) slices_S257x128_S128x128_128_0)
    (e5 : V c main_v41 = extractStridedSlice S1x128 ![256, 0] (val_main_v37 (F := Ideal) x3) slices_S257x128_S1x128_256_0)
    (e6 : V c main_arg4 = x4) (e7 : V c main_v42 = val_main_v43 (F := Ideal) x5) (e8 : V c main_arg6 = x6)
    (e9 : V c main_v43 = val_main_v49 (F := Ideal) x7) (e10 : V c main_arg8 = x8) :
    (dat0 V c).arrAt 15 cfg0.N = val_main_v53 (F := Ideal) x0 x1 x2 x3 x4 x5 x6 x7 x8 :=
  (dat0 V c).arrAt_eq_of_cover 15 (val_main_v53 (F := Ideal) x0 x1 x2 x3 x4 x5 x6 x7 x8)
    (fun t _ => flushed15_eq V c x0 x1 x2 x3 x4 x5 x6 x7 x8 e0 e1 e2 e3 e4 e5 e6 e7 e8 e9 e10 t) cover15

/-- THE COORDINATE-UPDATE ARRAY after the region is the whole-array update. -/
theorem region0_rs (V : (c : Dev nD) → (b : Ref sig .tc) → Buf (Elt Ideal) ((c : Thread nD τ).loc b)) (c : Dev nD)
    (x0 : (⟨Cert.ReferenceIdeal.S50000x3, .f32⟩ : BufTy).Contents (Elt Ideal)) (x1 : (⟨Cert.ReferenceIdeal.S50000x128, .f32⟩ : BufTy).Contents (Elt Ideal)) (x2 : (⟨Cert.ReferenceIdeal.S2x640000, .i32⟩ : BufTy).Contents (Elt Ideal)) (x3 : (⟨Cert.ReferenceIdeal.S128x257, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)) (x8 : (⟨Cert.ReferenceIdeal.S128, .f32⟩ : BufTy).Contents (Elt Ideal)) (x9 : (⟨Cert.ReferenceIdeal.S128x128, .f32⟩ : BufTy).Contents (Elt Ideal)) (x10 : (⟨Cert.ReferenceIdeal.S128, .f32⟩ : BufTy).Contents (Elt Ideal)) (x11 : (⟨Cert.ReferenceIdeal.S1x128, .f32⟩ : BufTy).Contents (Elt Ideal)) (x12 : (⟨Cert.ReferenceIdeal.S1, .f32⟩ : BufTy).Contents (Elt Ideal))
    (e0 : V c main_v11 = val_main_v28 (F := Ideal) x1 x2) (e1 : V c main_v18 = val_main_v35 (F := Ideal) x1 x2)
    (e2 : V c main_v37 = concatenate S640000x4 1 [⟨S640000x3, val_main_v18 (F := Ideal) x0 x2⟩, ⟨S640000x1, val_main_v21 (F := Ideal) x0 x2⟩] concatenates_S640000x3_S640000x1_S640000x4_d1)
    (e3 : V c main_v39 = extractStridedSlice S128x128 ![0, 0] (val_main_v37 (F := Ideal) x3) slices_S257x128_S128x128_0_0)
    (e4 : V c main_v40 = extractStridedSlice S128x128 ![128, 0] (val_main_v37 (F := Ideal) x3) slices_S257x128_S128x128_128_0)
    (e5 : V c main_v41 = extractStridedSlice S1x128 ![256, 0] (val_main_v37 (F := Ideal) x3) slices_S257x128_S1x128_256_0)
    (e6 : V c main_arg4 = x4) (e7 : V c main_v42 = val_main_v43 (F := Ideal) x5) (e8 : V c main_arg6 = x6)
    (e9 : V c main_v43 = val_main_v49 (F := Ideal) x7) (e10 : V c main_arg8 = x8)
    (e11 : V c main_v44 = val_main_v57 (F := Ideal) x9) (e12 : V c main_arg10 = x10) (e13 : V c main_arg11 = x11) (e14 : V c main_arg12 = x12) :
    (dat0 V c).arrAt 16 cfg0.N = val_main_v70 (F := Ideal) x0 x1 x2 x3 x4 x5 x6 x7 x8 x9 x10 x11 x12 :=
  (dat0 V c).arrAt_eq_of_cover 16 (val_main_v70 (F := Ideal) x0 x1 x2 x3 x4 x5 x6 x7 x8 x9 x10 x11 x12)
    (fun t _ => flushed16_eq V c x0 x1 x2 x3 x4 x5 x6 x7 x8 x9 x10 x11 x12 e0 e1 e2 e3 e4 e5 e6 e7 e8 e9 e10 e11 e12 e13 e14 t) cover16

end Cert.Bridge

end
-- ==== Proof.NodeBlock.lean ====
/-
  One block of rows of the node update is the same rows of the reference's node update.

  The node update of the layer is a three-layer perceptron with a residual: from a node's feature row h and its
  aggregated message row m,
      z1 = silu (h · A + m · B + c1),   z2 = silu (z1 · W2 + c2),   z3 = z2 · W3 + c3,   out = h + z3,
  with silu x = x · logistic x. The block computes it for 5000 rows at a time with the first layer's weight in its two
  halves A and B; the reference computes it for all 50000 rows with ONE product of the 256-wide row [h | m] against the
  256-row weight whose first 128 rows are A and last 128 rows are B, and spells logistic x as 1 / (1 + exp (-x)).

  On the extended reals every product here is the plain sum over the contracted coordinate and a change of float format
  is the identity, so row p of the block and row P of the array agree stage by stage once their inputs do:
    * first layer: a sum over 256 = 128 + 128 coordinates is the sum over the first 128 plus the sum over the last 128
      (commutativity and associativity of + only), the first half of [h | m] is h and the second is m;
    * silu: logistic x is by definition 1 / (1 + exp (-x)), and the bit pattern 0x3F800000 is the number 1;
    * second and third layers: the same sum over 128 coordinates, term by term, by the previous stage;
    * the residual: one more sum of two equal pairs.
-/
import proofs.«113372_j781684048540_2_alg».proof.Proof.Gen.KernelIdeal.Skeleton
import proofs.«113372_j781684048540_2_alg».proof.Proof.RefStages
import proofs.«113372_j781684048540_2_alg».proof.Proof.LibMatmulAt
import proofs.«113372_j781684048540_2_alg».proof.Proof.LibFoldBias
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.Bridge.Node

open Idealize.ShloMosaic Idealize.ShloMosaic.ValueIdx Idealize.SL.Sem
open Cert.ReferenceIdeal.Stages

/-! ## The block's side -/

section Block
open Cert.KernelIdeal

/-- The block's product with a [128, 128] weight into the zero accumulator. -/
def mm (x : FVec Ideal S5000x128 .f32) (w : Vec Ideal S128x128 .f32) : FVec Ideal S5000x128 .f32 :=
  matmul dot_S5000x128_S128x128_S5000x128_1_0_0_1_n_n none
    (truncf .bf16 x Gen.bitsLt_bf16_f32 : FVec Ideal S5000x128 .bf16)
    (truncf .bf16 (shapeCast S128x128 w Gen.shapeCasts_S128x128_S128x128 : FVec Ideal S128x128 .f32) Gen.bitsLt_bf16_f32 : FVec Ideal S128x128 .bf16)
    (constant S5000x128 .f32 0x00000000#32)

/-- A bias vector as a one-row matrix, copied down the block's rows. -/
def bias (b : Vec Ideal S128 .f32) : FVec Ideal S5000x128 .f32 :=
  broadcastTo S5000x128 (shapeCast S1x128 b Gen.shapeCasts_S128_S1x128 : FVec Ideal S1x128 .f32) Gen.broadcasts_S1x128_S5000x128

/-- One dense layer of the block: product plus bias. -/
def dense (x : FVec Ideal S5000x128 .f32) (w : Vec Ideal S128x128 .f32) (b : Vec Ideal S128 .f32) : FVec Ideal S5000x128 .f32 :=
  addf (mm x w) (bias b)

/-- silu x = x · logistic x, entry by entry. -/
def silu (x : FVec Ideal S5000x128 .f32) : FVec Ideal S5000x128 .f32 := mulf x (logistic x)

/-- The first layer before its activation: h · A + m · B + c1. -/
def pre1 (b0 b1 : Vec Ideal S5000x128 .f32) (b2 b3 : Vec Ideal S128x128 .f32) (b4 : Vec Ideal S128 .f32) : FVec Ideal S5000x128 .f32 :=
  addf (addf (mm b0 b2) (mm (shapeCast S5000x128 b1 Gen.shapeCasts_S5000x128_S5000x128 : FVec Ideal S5000x128 .f32) b3)) (bias b4)

/-- The block's output is the residual plus the three layers, in the vocabulary above. -/
theorem pay_eq (b0 b1 : Vec Ideal S5000x128 .f32) (b2 b3 : Vec Ideal S128x128 .f32) (b4 : Vec Ideal S128 .f32)
    (b5 : Vec Ideal S128x128 .f32) (b6 : Vec Ideal S128 .f32) (b7 : Vec Ideal S128x128 .f32) (b8 : Vec Ideal S128 .f32) :
    Gen.k1_pay1 b0 (Gen.k1_pay2 b0 b1 b2 b3 b4 b5 b6 b7 b8)
      = addf b0 (dense (silu (dense (silu (pre1 b0 b1 b2 b3 b4)) b5 b6)) b7 b8) := rfl

/-- The product at (p, q): the sum over k of x (p, k) · w (k, q). -/
theorem mm_apply (x : FVec Ideal S5000x128 .f32) (w : Vec Ideal S128x128 .f32) (p : Fin 5000) (q : Fin 128) :
    mm x w (ix2 p q) = ∑ k : Fin 128, x (ix2 p k) * w (ix2 k q) := by
  unfold mm
  rw [shapeCast_self]
  exact Cert.LibMatmulAt.matmul_zero_apply dot_S5000x128_S128x128_S5000x128_1_0_0_1_n_n rfl rfl rfl rfl rfl rfl none _ _ p q

/-- The bias at (p, q) is its entry q. -/
theorem bias_apply (b : Vec Ideal S128 .f32) (p : Fin 5000) (q : Fin 128) : bias b (ix2 p q) = b (ix1 q) := by
  unfold bias
  exact (broadcastTo_1b_ab_apply _ _ p q).trans (shapeCast_a_1a_apply _ _ _ q)

/-- A dense layer at (p, q). -/
theorem dense_apply (x : FVec Ideal S5000x128 .f32) (w : Vec Ideal S128x128 .f32) (b : Vec Ideal S128 .f32)
    (p : Fin 5000) (q : Fin 128) :
    dense x w b (ix2 p q) = (∑ k : Fin 128, x (ix2 p k) * w (ix2 k q)) + b (ix1 q) := by
  unfold dense
  rw [addf_apply, mm_apply, bias_apply]

/-- silu at an index. -/
theorem silu_apply (x : FVec Ideal S5000x128 .f32) (i : S5000x128.Idx) : silu x i = x i * Ideal.logistic (x i) := rfl

/-- The first layer before its activation at (p, q). -/
theorem pre1_apply (b0 b1 : Vec Ideal S5000x128 .f32) (b2 b3 : Vec Ideal S128x128 .f32) (b4 : Vec Ideal S128 .f32)
    (p : Fin 5000) (q : Fin 128) :
    pre1 b0 b1 b2 b3 b4 (ix2 p q)
      = ((∑ k : Fin 128, b0 (ix2 p k) * b2 (ix2 k q)) + ∑ k : Fin 128, b1 (ix2 p k) * b3 (ix2 k q)) + b4 (ix1 q) := by
  unfold pre1
  rw [addf_apply, addf_apply, mm_apply, mm_apply, bias_apply, shapeCast_self]

end Block

/-! ## The reference's side -/

section Reference
open Cert.ReferenceIdeal

variable (x0 : (⟨S50000x3, .f32⟩ : BufTy).Contents (Elt Ideal)) (x1 : (⟨S50000x128, .f32⟩ : BufTy).Contents (Elt Ideal)) (x2 : (⟨S2x640000, .i32⟩ : BufTy).Contents (Elt Ideal)) (x3 : (⟨S128x257, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal))
  (x13 : (⟨S128x256, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal))

/-- The first half of the joined row [h | m] is h. -/
theorem cat_left (P : Fin 50000) (k : Fin 128) :
    val_main_v75 (F := Ideal) x0 x1 x2 x3 x4 x5 x6 x7 x8 (ix2 P (⟨k.val, by omega⟩ : Fin 256)) = x1 (ix2 P k) := by
  unfold val_main_v75
  exact concatenate_pair_apply_left (t := S50000x256) (s₁ := S50000x128) (s₂ := S50000x128) 1 x1 _ _ _ rfl (ix2 P k)
    (fun b => match b with
      | ⟨0, _⟩ => rfl
      | ⟨1, _⟩ => rfl)

/-- The second half of the joined row [h | m] is m. -/
theorem cat_right (P : Fin 50000) (k : Fin 128) :
    val_main_v75 (F := Ideal) x0 x1 x2 x3 x4 x5 x6 x7 x8 (ix2 P (⟨128 + k.val, by omega⟩ : Fin 256))
      = val_main_v56 (F := Ideal) x0 x1 x2 x3 x4 x5 x6 x7 x8 (ix2 P k) := by
  unfold val_main_v75
  exact concatenate_pair_apply_right (t := S50000x256) (s₁ := S50000x128) (s₂ := S50000x128) 1 x1 _ _ _ rfl rfl (ix2 P k)
    (fun b => match b with
      | ⟨0, _⟩ => fun _ => rfl
      | ⟨1, _⟩ => fun hb => absurd rfl hb)
    (by show k.val + 128 = 128 + k.val; omega)

/-- The reference's first layer before its activation at (P, q): the sum over 256 coordinates in its two halves. -/
theorem ref_pre1 (P : Fin 50000) (q : Fin 128) :
    val_main_v80 (F := Ideal) x0 x1 x2 x3 x4 x5 x6 x7 x8 x13 x14 (ix2 P q)
      = ((∑ k : Fin 128, x1 (ix2 P k) * val_main_v76 (F := Ideal) x13 (ix2 (⟨k.val, by omega⟩ : Fin 256) q))
          + ∑ k : Fin 128, val_main_v56 (F := Ideal) x0 x1 x2 x3 x4 x5 x6 x7 x8 (ix2 P k)
              * val_main_v76 (F := Ideal) x13 (ix2 (⟨128 + k.val, by omega⟩ : Fin 256) q))
        + x14 (ix1 q) := by
  have hl : ∀ k : Fin 256, lidx_main_v77 (ix2 P q) k = ix2 P k := fun k => funext fun a => match a with
    | ⟨0, _⟩ => rfl
    | ⟨1, _⟩ => rfl
  have hr : ∀ k : Fin 256, ridx_main_v77 (ix2 P q) k = ix2 k q := fun k => funext fun a => match a with
    | ⟨0, _⟩ => rfl
    | ⟨1, _⟩ => rfl
  have hb : idx_main_v78 (idx_main_v79 (ix2 P q)) = ix1 q := funext fun a => match a with
    | ⟨0, _⟩ => rfl
  rw [val_main_v80_apply, val_main_v77_apply, val_main_v79_apply, val_main_v78_apply, hb,
    Cert.LibFoldBias.sum_split (show 256 = 128 + 128 from rfl)]
  refine congrArg₂ (· + ·) (congrArg₂ (· + ·) (Finset.sum_congr rfl fun k _ => ?_) (Finset.sum_congr rfl fun k _ => ?_)) rfl
  · rw [hl, hr, cat_left]
  · rw [hl, hr, cat_right]

/-- The reference's first activation: 1 / (1 + exp (-x)) is logistic x. -/
theorem ref_silu1 (i : S50000x128.Idx) :
    val_main_v81 (F := Ideal) x0 x1 x2 x3 x4 x5 x6 x7 x8 x13 x14 i
      = val_main_v80 (F := Ideal) x0 x1 x2 x3 x4 x5 x6 x7 x8 x13 x14 i * Ideal.logistic (val_main_v80 (F := Ideal) x0 x1 x2 x3 x4 x5 x6 x7 x8 x13 x14 i) := by
  rw [val_main_v81_apply, val_main_call3_v5_apply, val_main_call3_v4_apply, val_main_call3_cst_0_apply,
    val_main_call3_v3_apply, val_main_call3_v2_apply, val_main_call3_cst_apply, val_main_call3_v1_apply,
    val_main_call3_v0_apply, Ideal.ofBits_def, Ideal.ofBits_one_f32]
  rfl

/-- The reference's second layer before its activation at (P, q). -/
theorem ref_pre2 (P : Fin 50000) (q : Fin 128) :
    val_main_v86 (F := Ideal) x0 x1 x2 x3 x4 x5 x6 x7 x8 x13 x14 x15 x16 (ix2 P q)
      = (∑ k : Fin 128, val_main_v81 (F := Ideal) x0 x1 x2 x3 x4 x5 x6 x7 x8 x13 x14 (ix2 P k) * val_main_v82 (F := Ideal) x15 (ix2 k q))
        + x16 (ix1 q) := by
  have hl : ∀ k : Fin 128, lidx_main_v83 (ix2 P q) k = ix2 P k := fun k => funext fun a => match a with
    | ⟨0, _⟩ => rfl
    | ⟨1, _⟩ => rfl
  have hr : ∀ k : Fin 128, ridx_main_v83 (ix2 P q) k = ix2 k q := fun k => funext fun a => match a with
    | ⟨0, _⟩ => rfl
    | ⟨1, _⟩ => rfl
  have hb : idx_main_v84 (idx_main_v85 (ix2 P q)) = ix1 q := funext fun a => match a with
    | ⟨0, _⟩ => rfl
  rw [val_main_v86_apply, val_main_v83_apply, val_main_v85_apply, val_main_v84_apply, hb]
  exact congrArg (· + x16 (ix1 q)) (Finset.sum_congr rfl fun k _ => by rw [hl, hr])

/-- The reference's second activation. -/
theorem ref_silu2 (i : S50000x128.Idx) :
    val_main_v87 (F := Ideal) x0 x1 x2 x3 x4 x5 x6 x7 x8 x13 x14 x15 x16 i
      = val_main_v86 (F := Ideal) x0 x1 x2 x3 x4 x5 x6 x7 x8 x13 x14 x15 x16 i
        * Ideal.logistic (val_main_v86 (F := Ideal) x0 x1 x2 x3 x4 x5 x6 x7 x8 x13 x14 x15 x16 i) := by
  rw [val_main_v87_apply, val_main_call4_v5_apply, val_main_call4_v4_apply, val_main_call4_cst_0_apply,
    val_main_call4_v3_apply, val_main_call4_v2_apply, val_main_call4_cst_apply, val_main_call4_v1_apply,
    val_main_call4_v0_apply, Ideal.ofBits_def, Ideal.ofBits_one_f32]
  rfl

/-- The reference's third layer at (P, q). -/
theorem ref_pre3 (P : Fin 50000) (q : Fin 128) :
    val_main_v92 (F := Ideal) x0 x1 x2 x3 x4 x5 x6 x7 x8 x13 x14 x15 x16 x17 x18 (ix2 P q)
      = (∑ k : Fin 128, val_main_v87 (F := Ideal) x0 x1 x2 x3 x4 x5 x6 x7 x8 x13 x14 x15 x16 (ix2 P k) * val_main_v88 (F := Ideal) x17 (ix2 k q))
        + x18 (ix1 q) := by
  have hl : ∀ k : Fin 128, lidx_main_v89 (ix2 P q) k = ix2 P k := fun k => funext fun a => match a with
    | ⟨0, _⟩ => rfl
    | ⟨1, _⟩ => rfl
  have hr : ∀ k : Fin 128, ridx_main_v89 (ix2 P q) k = ix2 k q := fun k => funext fun a => match a with
    | ⟨0, _⟩ => rfl
    | ⟨1, _⟩ => rfl
  have hb : idx_main_v90 (idx_main_v91 (ix2 P q)) = ix1 q := funext fun a => match a with
    | ⟨0, _⟩ => rfl
  rw [val_main_v92_apply, val_main_v89_apply, val_main_v91_apply, val_main_v90_apply, hb]
  exact congrArg (· + x18 (ix1 q)) (Finset.sum_congr rfl fun k _ => by rw [hl, hr])

end Reference

/-! ## Row p of the block against row P of the array -/

section Rows
open Cert.KernelIdeal

variable (x0 : (⟨Cert.ReferenceIdeal.S50000x3, .f32⟩ : BufTy).Contents (Elt Ideal)) (x1 : (⟨Cert.ReferenceIdeal.S50000x128, .f32⟩ : BufTy).Contents (Elt Ideal)) (x2 : (⟨Cert.ReferenceIdeal.S2x640000, .i32⟩ : BufTy).Contents (Elt Ideal)) (x3 : (⟨Cert.ReferenceIdeal.S128x257, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)) (x8 : (⟨Cert.ReferenceIdeal.S128, .f32⟩ : BufTy).Contents (Elt Ideal))
  (x13 : (⟨Cert.ReferenceIdeal.S128x256, .f32⟩ : BufTy).Contents (Elt Ideal)) (x14 : (⟨Cert.ReferenceIdeal.S128, .f32⟩ : BufTy).Contents (Elt Ideal)) (x15 : (⟨Cert.ReferenceIdeal.S128x128, .f32⟩ : BufTy).Contents (Elt Ideal)) (x16 : (⟨Cert.ReferenceIdeal.S128, .f32⟩ : BufTy).Contents (Elt Ideal)) (x17 : (⟨Cert.ReferenceIdeal.S128x128, .f32⟩ : BufTy).Contents (Elt Ideal)) (x18 : (⟨Cert.ReferenceIdeal.S128, .f32⟩ : BufTy).Contents (Elt Ideal))

/-- First layer before its activation: the block's two products are the two halves of the reference's one. -/
theorem pre1_row (b0 b1 : Vec Ideal S5000x128 .f32) (b2 b3 : Vec Ideal S128x128 .f32) (p : Fin 5000) (P : Fin 50000)
    (h0 : ∀ k : Fin 128, b0 (ix2 p k) = x1 (ix2 P k))
    (h1 : ∀ k : Fin 128, b1 (ix2 p k) = val_main_v56 (F := Ideal) x0 x1 x2 x3 x4 x5 x6 x7 x8 (ix2 P k))
    (h2 : ∀ k q : Fin 128, b2 (ix2 k q) = val_main_v76 (F := Ideal) x13 (ix2 (⟨k.val, by omega⟩ : Fin 256) q))
    (h3 : ∀ k q : Fin 128, b3 (ix2 k q) = val_main_v76 (F := Ideal) x13 (ix2 (⟨128 + k.val, by omega⟩ : Fin 256) q))
    (q : Fin 128) :
    pre1 b0 b1 b2 b3 x14 (ix2 p q) = val_main_v80 (F := Ideal) x0 x1 x2 x3 x4 x5 x6 x7 x8 x13 x14 (ix2 P q) := by
  rw [pre1_apply, ref_pre1]
  refine congrArg₂ (· + ·) (congrArg₂ (· + ·) (Finset.sum_congr rfl fun k _ => ?_) (Finset.sum_congr rfl fun k _ => ?_)) rfl
  · rw [h0 k, h2 k q]
  · rw [h1 k, h3 k q]

/-- First activation. -/
theorem silu1_row (y : FVec Ideal S5000x128 .f32) (p : Fin 5000) (P : Fin 50000) (q : Fin 128)
    (h : y (ix2 p q) = val_main_v80 (F := Ideal) x0 x1 x2 x3 x4 x5 x6 x7 x8 x13 x14 (ix2 P q)) :
    silu y (ix2 p q) = val_main_v81 (F := Ideal) x0 x1 x2 x3 x4 x5 x6 x7 x8 x13 x14 (ix2 P q) := by
  rw [silu_apply, ref_silu1, h]

/-- Second layer before its activation. -/
theorem pre2_row (y : FVec Ideal S5000x128 .f32) (p : Fin 5000) (P : Fin 50000)
    (h : ∀ k : Fin 128, y (ix2 p k) = val_main_v81 (F := Ideal) x0 x1 x2 x3 x4 x5 x6 x7 x8 x13 x14 (ix2 P k)) (q : Fin 128) :
    dense y (val_main_v82 (F := Ideal) x15) x16 (ix2 p q)
      = val_main_v86 (F := Ideal) x0 x1 x2 x3 x4 x5 x6 x7 x8 x13 x14 x15 x16 (ix2 P q) := by
  rw [dense_apply, ref_pre2]
  exact congrArg₂ (· + ·) (Finset.sum_congr rfl fun k _ => by rw [h k]) rfl

/-- Second activation. -/
theorem silu2_row (y : FVec Ideal S5000x128 .f32) (p : Fin 5000) (P : Fin 50000) (q : Fin 128)
    (h : y (ix2 p q) = val_main_v86 (F := Ideal) x0 x1 x2 x3 x4 x5 x6 x7 x8 x13 x14 x15 x16 (ix2 P q)) :
    silu y (ix2 p q) = val_main_v87 (F := Ideal) x0 x1 x2 x3 x4 x5 x6 x7 x8 x13 x14 x15 x16 (ix2 P q) := by
  rw [silu_apply, ref_silu2, h]

/-- Third layer. -/
theorem pre3_row (y : FVec Ideal S5000x128 .f32) (p : Fin 5000) (P : Fin 50000)
    (h : ∀ k : Fin 128, y (ix2 p k) = val_main_v87 (F := Ideal) x0 x1 x2 x3 x4 x5 x6 x7 x8 x13 x14 x15 x16 (ix2 P k)) (q : Fin 128) :
    dense y (val_main_v88 (F := Ideal) x17) x18 (ix2 p q)
      = val_main_v92 (F := Ideal) x0 x1 x2 x3 x4 x5 x6 x7 x8 x13 x14 x15 x16 x17 x18 (ix2 P q) := by
  rw [dense_apply, ref_pre3]
  exact congrArg₂ (· + ·) (Finset.sum_congr rfl fun k _ => by rw [h k]) rfl

end Rows

open Cert.KernelIdeal in
/-- THE NODE UPDATE, ROW BY ROW: entry (p, q) of the block's output is entry (P, q) of the reference's node update, when
    row p of the block's two inputs is row P of the reference's h and of its aggregated messages, the two weight blocks
    are the two halves of the reference's transposed first-layer weight, and the remaining weights and biases are the
    reference's. -/
theorem node_apply (x0 : (⟨Cert.ReferenceIdeal.S50000x3, .f32⟩ : BufTy).Contents (Elt Ideal)) (x1 : (⟨Cert.ReferenceIdeal.S50000x128, .f32⟩ : BufTy).Contents (Elt Ideal)) (x2 : (⟨Cert.ReferenceIdeal.S2x640000, .i32⟩ : BufTy).Contents (Elt Ideal)) (x3 : (⟨Cert.ReferenceIdeal.S128x257, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)) (x8 : (⟨Cert.ReferenceIdeal.S128, .f32⟩ : BufTy).Contents (Elt Ideal))
    (x13 : (⟨Cert.ReferenceIdeal.S128x256, .f32⟩ : BufTy).Contents (Elt Ideal)) (x14 : (⟨Cert.ReferenceIdeal.S128, .f32⟩ : BufTy).Contents (Elt Ideal)) (x15 : (⟨Cert.ReferenceIdeal.S128x128, .f32⟩ : BufTy).Contents (Elt Ideal)) (x16 : (⟨Cert.ReferenceIdeal.S128, .f32⟩ : BufTy).Contents (Elt Ideal)) (x17 : (⟨Cert.ReferenceIdeal.S128x128, .f32⟩ : BufTy).Contents (Elt Ideal)) (x18 : (⟨Cert.ReferenceIdeal.S128, .f32⟩ : BufTy).Contents (Elt Ideal))
    (b0 b1 : Vec Ideal S5000x128 .f32) (b2 b3 : Vec Ideal S128x128 .f32) (b4 : Vec Ideal S128 .f32) (b5 : Vec Ideal S128x128 .f32)
    (b6 : Vec Ideal S128 .f32) (b7 : Vec Ideal S128x128 .f32) (b8 : Vec Ideal S128 .f32)
    (p : Fin 5000) (P : Fin 50000)
    (h0 : ∀ k : Fin 128, b0 (ix2 p k) = x1 (ix2 P k))
    (h1 : ∀ k : Fin 128, b1 (ix2 p k) = val_main_v56 (F := Ideal) x0 x1 x2 x3 x4 x5 x6 x7 x8 (ix2 P k))
    (h2 : ∀ k q : Fin 128, b2 (ix2 k q) = val_main_v76 (F := Ideal) x13 (ix2 (⟨k.val, by omega⟩ : Fin 256) q))
    (h3 : ∀ k q : Fin 128, b3 (ix2 k q) = val_main_v76 (F := Ideal) x13 (ix2 (⟨128 + k.val, by omega⟩ : Fin 256) q))
    (h4 : b4 = x14) (h5 : b5 = val_main_v82 (F := Ideal) x15) (h6 : b6 = x16) (h7 : b7 = val_main_v88 (F := Ideal) x17) (h8 : b8 = x18)
    (q : Fin 128) :
    Gen.k1_pay1 b0 (Gen.k1_pay2 b0 b1 b2 b3 b4 b5 b6 b7 b8) (ix2 p q)
      = val_main_v93 (F := Ideal) x0 x1 x2 x3 x4 x5 x6 x7 x8 x13 x14 x15 x16 x17 x18 (ix2 P q) := by
  subst h4 h5 h6 h7 h8
  have e1 := fun k : Fin 128 => pre1_row x0 x1 x2 x3 x4 x5 x6 x7 x8 x13 b4 b0 b1 b2 b3 p P h0 h1 h2 h3 k
  have e2 := fun k : Fin 128 => silu1_row x0 x1 x2 x3 x4 x5 x6 x7 x8 x13 b4 _ p P k (e1 k)
  have e3 := fun k : Fin 128 => pre2_row x0 x1 x2 x3 x4 x5 x6 x7 x8 x13 b4 x15 b6 _ p P e2 k
  have e4 := fun k : Fin 128 => silu2_row x0 x1 x2 x3 x4 x5 x6 x7 x8 x13 b4 x15 b6 _ p P k (e3 k)
  have e5 := pre3_row x0 x1 x2 x3 x4 x5 x6 x7 x8 x13 b4 x15 b6 x17 b8 _ p P e4 q
  rw [pay_eq, addf_apply, val_main_v93_apply, h0 q, e5]
  rfl

end Cert.Bridge.Node

end
-- ==== Proof.Region1.lean ====
/-
  The node update's output array, whole.

  The node update runs on a grid of 10 points; at point t it reads rows 5000 t … 5000 t + 4999 of the feature array h
  and of the aggregated-message array m, the whole of the six weight and bias arrays, and writes rows
  5000 t … 5000 t + 4999 of its output. Entry (p, q) of what point t writes is entry (5000 t + p, q) of the
  reference's node update (the row-by-row statement, with P = 5000 t + p): an entry of a block sits in the array at
  block index × block size + its coordinate inside the block, the block index of the row-blocked windows at point t is
  (t, 0) and that of the whole-array windows is 0. The ten blocks of 5000 rows cover the 50000 rows (row i lies in
  block i / 5000), and every point writes its block back, so the array ends holding the reference's node update.
-/
import proofs.«113372_j781684048540_2_alg».proof.Proof.Gen.KernelIdeal.Frame
import proofs.«113372_j781684048540_2_alg».proof.Proof.RefStages
import proofs.«113372_j781684048540_2_alg».proof.Proof.NodeBlock
import Idealize.ShloMosaic.Lib.Pipeline.Value
import Idealize.ShloMosaic.Lib.ValueIdx

set_option maxRecDepth 16384

noncomputable section

namespace Cert.Bridge

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.ReferenceIdeal.Stages

/-- The zero offsets of a rank-2 access. -/
theorem hz2 : (![0, 0] : Fin 2 → Nat) = fun _ => 0 := funext fun a => by fin_cases a <;> rfl
/-- The zero offset of a rank-1 access. -/
theorem hz1 : (![0] : Fin 1 → Nat) = fun _ => 0 := funext fun a => by fin_cases a <;> rfl

/-- The index maps over the 10 grid points: the row-blocked windows (h, m, the output) are at block (t, 0), the
    whole-array windows at block 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_9.index t (0 : Fin 2) = t.val ∧ win1_9.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = 0 ∧ win1_7.index t (1 : Fin 2) = 0
    ∧ win1_8.index t (0 : Fin 1) = 0 :=
  (by decide +kernel : ∀ t : Fin grid1.N, _)

/-- WHAT POINT t WRITES BACK is block t of the reference's node update. -/
theorem flushed1_eq (V : (c : Dev nD) → (b : Ref sig .tc) → Buf (Elt Ideal) ((c : Thread nD τ).loc b)) (c : Dev nD)
    (x0 : (⟨Cert.ReferenceIdeal.S50000x3, .f32⟩ : BufTy).Contents (Elt Ideal)) (x1 : (⟨Cert.ReferenceIdeal.S50000x128, .f32⟩ : BufTy).Contents (Elt Ideal)) (x2 : (⟨Cert.ReferenceIdeal.S2x640000, .i32⟩ : BufTy).Contents (Elt Ideal)) (x3 : (⟨Cert.ReferenceIdeal.S128x257, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)) (x8 : (⟨Cert.ReferenceIdeal.S128, .f32⟩ : BufTy).Contents (Elt Ideal))
    (x13 : (⟨Cert.ReferenceIdeal.S128x256, .f32⟩ : BufTy).Contents (Elt Ideal)) (x14 : (⟨Cert.ReferenceIdeal.S128, .f32⟩ : BufTy).Contents (Elt Ideal)) (x15 : (⟨Cert.ReferenceIdeal.S128x128, .f32⟩ : BufTy).Contents (Elt Ideal)) (x16 : (⟨Cert.ReferenceIdeal.S128, .f32⟩ : BufTy).Contents (Elt Ideal)) (x17 : (⟨Cert.ReferenceIdeal.S128x128, .f32⟩ : BufTy).Contents (Elt Ideal)) (x18 : (⟨Cert.ReferenceIdeal.S128, .f32⟩ : BufTy).Contents (Elt Ideal))
    (e0 : V c main_arg1 = x1)
    (e1 : V c main_v56 = val_main_v56 (F := Ideal) x0 x1 x2 x3 x4 x5 x6 x7 x8)
    (e2 : V c main_v46 = extractStridedSlice S128x128 ![0, 0] (val_main_v76 (F := Ideal) x13) slices_S256x128_S128x128_0_0)
    (e3 : V c main_v47 = extractStridedSlice S128x128 ![128, 0] (val_main_v76 (F := Ideal) x13) slices_S256x128_S128x128_128_0)
    (e4 : V c main_arg14 = x14) (e5 : V c main_v48 = val_main_v82 (F := Ideal) x15) (e6 : V c main_arg16 = x16)
    (e7 : V c main_v49 = val_main_v88 (F := Ideal) x17) (e8 : V c main_arg18 = x18)
    (t : Fin cfg1.N) :
    (dat1 V c).flushed 9 t
      = ((cfg1.win 9).blk t).view.read (Elt Ideal) (val_main_v93 (F := Ideal) x0 x1 x2 x3 x4 x5 x6 x7 x8 x13 x14 x15 x16 x17 x18) := by
  show (cfg1.win 9).cut (grid1.coords t) ((dat1 V c).after 9 t) = _
  rw [after1_9]
  unfold out1_9
  rw [View.canon_unit_zero hz2]
  simp only [View.ld_unit_zero (S := S5000x128) hz2, View.ld_unit_zero (S := S128x128) hz2, View.ld_unit_zero (S := S128) hz1]
  obtain ⟨i00, i01, i10, i11, i90, i91, i20, i21, i30, i31, i40, i50, i51, i60, i70, i71, i80⟩ := idx_facts1 t
  have hN : cfg1.N = 10 := N_1
  have ht : t.val < 10 := hN ▸ t.isLt
  funext j
  obtain ⟨p, q, rfl⟩ : ∃ (p : Fin 5000) (q : Fin 128), j = ix2 p q := ⟨j 0, j 1, eq_ix2 j⟩
  have hP : 5000 * t.val + p.val < 50000 := by have := p.isLt; omega
  refine (Cert.Bridge.Node.node_apply x0 x1 x2 x3 x4 x5 x6 x7 x8 x13 x14 x15 x16 x17 x18
    (iblk1 V c 0 t) (iblk1 V c 1 t) (iblk1 V c 2 t) (iblk1 V c 3 t) (iblk1 V c 4 t) (iblk1 V c 5 t) (iblk1 V c 6 t)
    (iblk1 V c 7 t) (iblk1 V c 8 t) p ⟨5000 * t.val + p.val, hP⟩ ?_ ?_ ?_ ?_ ?_ ?_ ?_ ?_ ?_ q).trans ?_
  · -- rows of h
    intro k
    show V c main_arg1 (((cfg1.win 0).blk t).view.emb (ix2 p k)) = _
    rw [e0]
    refine congrArg _ (funext fun a => Fin.ext ?_)
    match a with
    | ⟨0, _⟩ => show win1_0.index t (0 : Fin 2) * 5000 + 1 * p.val = 5000 * t.val + p.val; omega
    | ⟨1, _⟩ => show win1_0.index t (1 : Fin 2) * 128 + 1 * k.val = k.val; omega
  · -- rows of m
    intro k
    show V c main_v56 (((cfg1.win 1).blk t).view.emb (ix2 p k)) = _
    rw [e1]
    refine congrArg _ (funext fun a => Fin.ext ?_)
    match a with
    | ⟨0, _⟩ => show win1_1.index t (0 : Fin 2) * 5000 + 1 * p.val = 5000 * t.val + p.val; omega
    | ⟨1, _⟩ => show win1_1.index t (1 : Fin 2) * 128 + 1 * k.val = k.val; omega
  · -- the first half of the first layer's weight
    intro k q'
    show V c main_v46 (((cfg1.win 2).blk t).view.emb (ix2 k q')) = _
    rw [e2]
    refine extractStridedSlice_apply _ _ _ _ _ (fun a => ?_)
    match a with
    | ⟨0, _⟩ => show k.val = 0 + (win1_2.index t (0 : Fin 2) * 128 + 1 * k.val); omega
    | ⟨1, _⟩ => show q'.val = 0 + (win1_2.index t (1 : Fin 2) * 128 + 1 * q'.val); omega
  · -- the second half
    intro k q'
    show V c main_v47 (((cfg1.win 3).blk t).view.emb (ix2 k q')) = _
    rw [e3]
    refine extractStridedSlice_apply _ _ _ _ _ (fun a => ?_)
    match a with
    | ⟨0, _⟩ => show 128 + k.val = 128 + (win1_3.index t (0 : Fin 2) * 128 + 1 * k.val); omega
    | ⟨1, _⟩ => show q'.val = 0 + (win1_3.index t (1 : Fin 2) * 128 + 1 * q'.val); omega
  · -- first bias
    funext y
    show V c main_arg14 (((cfg1.win 4).blk t).view.emb y) = _
    rw [e4]
    refine congrArg _ (funext fun a => Fin.ext ?_)
    match a with
    | ⟨0, _⟩ => show win1_4.index t (0 : Fin 1) * 128 + 1 * (y 0).val = (y 0).val; omega
  · -- second weight
    funext y
    show V c main_v48 (((cfg1.win 5).blk t).view.emb y) = _
    rw [e5]
    refine congrArg _ (funext fun a => Fin.ext ?_)
    match a with
    | ⟨0, _⟩ => show win1_5.index t (0 : Fin 2) * 128 + 1 * (y 0).val = (y 0).val; omega
    | ⟨1, _⟩ => show win1_5.index t (1 : Fin 2) * 128 + 1 * (y 1).val = (y 1).val; omega
  · -- second bias
    funext y
    show V c main_arg16 (((cfg1.win 6).blk t).view.emb y) = _
    rw [e6]
    refine congrArg _ (funext fun a => Fin.ext ?_)
    match a with
    | ⟨0, _⟩ => show win1_6.index t (0 : Fin 1) * 128 + 1 * (y 0).val = (y 0).val; omega
  · -- third weight
    funext y
    show V c main_v49 (((cfg1.win 7).blk t).view.emb y) = _
    rw [e7]
    refine congrArg _ (funext fun a => Fin.ext ?_)
    match a with
    | ⟨0, _⟩ => show win1_7.index t (0 : Fin 2) * 128 + 1 * (y 0).val = (y 0).val; omega
    | ⟨1, _⟩ => show win1_7.index t (1 : Fin 2) * 128 + 1 * (y 1).val = (y 1).val; omega
  · -- third bias
    funext y
    show V c main_arg18 (((cfg1.win 8).blk t).view.emb y) = _
    rw [e8]
    refine congrArg _ (funext fun a => Fin.ext ?_)
    match a with
    | ⟨0, _⟩ => show win1_8.index t (0 : Fin 1) * 128 + 1 * (y 0).val = (y 0).val; omega
  · -- the output block's entry (p, q) sits at row 5000 t + p of the array
    show _ = val_main_v93 (F := Ideal) x0 x1 x2 x3 x4 x5 x6 x7 x8 x13 x14 x15 x16 x17 x18 (((cfg1.win 9).blk t).view.emb (ix2 p q))
    refine congrArg _ (funext fun a => Fin.ext ?_)
    match a with
    | ⟨0, _⟩ => show 5000 * t.val + p.val = win1_9.index t (0 : Fin 2) * 5000 + 1 * p.val; omega
    | ⟨1, _⟩ => show q.val = win1_9.index t (1 : Fin 2) * 128 + 1 * q.val; omega

/-- An index of the output array is in point t's block iff each coordinate is in the block's range on its axis. -/
theorem mem_blk1 (t : Fin cfg1.N) (i : S50000x128.Idx) :
    i ∈ ((cfg1.win 9).blk t).view.set ↔ ∀ a : Fin 2, win1_9.index t a * S5000x128.size a ≤ (i a).val ∧ (i a).val < win1_9.index t a * S5000x128.size a + S5000x128.size a := by
  show i ∈ ((View.whole main_v59).slice (win1_9.rect t)).set ↔ _
  rw [View.set_slice_whole, Rect.mem_set_unit]
  exact Iff.rfl

/-- THE NODE UPDATE'S OUTPUT ARRAY after the ten points: the reference's node update. -/
theorem region1_array (V : (c : Dev nD) → (b : Ref sig .tc) → Buf (Elt Ideal) ((c : Thread nD τ).loc b)) (c : Dev nD)
    (x0 : (⟨Cert.ReferenceIdeal.S50000x3, .f32⟩ : BufTy).Contents (Elt Ideal)) (x1 : (⟨Cert.ReferenceIdeal.S50000x128, .f32⟩ : BufTy).Contents (Elt Ideal)) (x2 : (⟨Cert.ReferenceIdeal.S2x640000, .i32⟩ : BufTy).Contents (Elt Ideal)) (x3 : (⟨Cert.ReferenceIdeal.S128x257, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)) (x8 : (⟨Cert.ReferenceIdeal.S128, .f32⟩ : BufTy).Contents (Elt Ideal))
    (x13 : (⟨Cert.ReferenceIdeal.S128x256, .f32⟩ : BufTy).Contents (Elt Ideal)) (x14 : (⟨Cert.ReferenceIdeal.S128, .f32⟩ : BufTy).Contents (Elt Ideal)) (x15 : (⟨Cert.ReferenceIdeal.S128x128, .f32⟩ : BufTy).Contents (Elt Ideal)) (x16 : (⟨Cert.ReferenceIdeal.S128, .f32⟩ : BufTy).Contents (Elt Ideal)) (x17 : (⟨Cert.ReferenceIdeal.S128x128, .f32⟩ : BufTy).Contents (Elt Ideal)) (x18 : (⟨Cert.ReferenceIdeal.S128, .f32⟩ : BufTy).Contents (Elt Ideal))
    (e0 : V c main_arg1 = x1)
    (e1 : V c main_v56 = val_main_v56 (F := Ideal) x0 x1 x2 x3 x4 x5 x6 x7 x8)
    (e2 : V c main_v46 = extractStridedSlice S128x128 ![0, 0] (val_main_v76 (F := Ideal) x13) slices_S256x128_S128x128_0_0)
    (e3 : V c main_v47 = extractStridedSlice S128x128 ![128, 0] (val_main_v76 (F := Ideal) x13) slices_S256x128_S128x128_128_0)
    (e4 : V c main_arg14 = x14) (e5 : V c main_v48 = val_main_v82 (F := Ideal) x15) (e6 : V c main_arg16 = x16)
    (e7 : V c main_v49 = val_main_v88 (F := Ideal) x17) (e8 : V c main_arg18 = x18) :
    (dat1 V c).arrAt 9 cfg1.N = val_main_v93 (F := Ideal) x0 x1 x2 x3 x4 x5 x6 x7 x8 x13 x14 x15 x16 x17 x18 := by
  refine (dat1 V c).arrAt_eq_of_cover 9 (val_main_v93 (F := Ideal) x0 x1 x2 x3 x4 x5 x6 x7 x8 x13 x14 x15 x16 x17 x18)
    (fun t _ => flushed1_eq V c x0 x1 x2 x3 x4 x5 x6 x7 x8 x13 x14 x15 x16 x17 x18 e0 e1 e2 e3 e4 e5 e6 e7 e8 t) (fun i => ?_)
  have hN : cfg1.N = 10 := N_1
  have hi0 : (i 0).val < 50000 := (i 0).isLt
  have hi1 : (i 1).val < 128 := (i 1).isLt
  refine ⟨⟨(i 0).val / 5000, by rw [hN]; omega⟩, flush1_9 _, ?_⟩
  obtain ⟨-, -, -, -, i90, i91, -⟩ := idx_facts1 ⟨(i 0).val / 5000, by rw [hN]; omega⟩
  rw [mem_blk1]
  intro a
  match a with
  | ⟨0, _⟩ =>
    show win1_9.index _ (0 : Fin 2) * 5000 ≤ (i 0).val ∧ (i 0).val < win1_9.index _ (0 : Fin 2) * 5000 + 5000
    rw [i90]
    show (i 0).val / 5000 * 5000 ≤ (i 0).val ∧ (i 0).val < (i 0).val / 5000 * 5000 + 5000
    omega
  | ⟨1, _⟩ =>
    show win1_9.index _ (1 : Fin 2) * 128 ≤ (i 1).val ∧ (i 1).val < win1_9.index _ (1 : Fin 2) * 128 + 128
    rw [i91]
    omega

end Cert.Bridge

end
-- ==== Proof.KernelValue.lean ====
/-
  What the idealized kernel program returns: the reference's two results, as functions of the launch arguments.

  Follow the buffers through the four segments of the program.
    * When the edge pipeline is entered, its input arrays are stages of the reference (the gathered rows of h, the
      difference rel beside its squared length, the transposed weights). Block by block it writes the edge messages m
      and the scaled differences rs; its blocks tile the two output arrays, so these end as the reference's m and rs.
    * The nine host operations between the calls scatter-add [m | rs] by sending node and cut the result in two: the
      aggregated messages and the position update, each the reference's own scatter-add; the new positions are x plus
      the latter. The pipeline's other arrays, and the buffers computed before the first call, pass through unchanged.
    * The node pipeline, entered with h, the aggregated messages and the transposed node weights, writes h plus the node
      perceptron block by block; its blocks tile the output array, which ends as the reference's second result.
  The run of the program then gives both results, and the arguments unchanged.
-/
import proofs.«113372_j781684048540_2_alg».proof.Proof.KRun
import proofs.«113372_j781684048540_2_alg».proof.Proof.HostArgs
import proofs.«113372_j781684048540_2_alg».proof.Proof.HostEdge
import proofs.«113372_j781684048540_2_alg».proof.Proof.HostWeights
import proofs.«113372_j781684048540_2_alg».proof.Proof.Between
import proofs.«113372_j781684048540_2_alg».proof.Proof.Region0
import proofs.«113372_j781684048540_2_alg».proof.Proof.Region1

set_option maxRecDepth 16384

noncomputable section

namespace Cert.Bridge

open Idealize.ShloMosaic Idealize.ShloMosaic.TcCoe Idealize.SL.Sem Idealize.ShloMosaic.StableHlo
open Cert.KernelIdeal Cert.KernelIdeal.Gen Cert.ReferenceIdeal.Stages

variable (m : (ℓ : Loc nD τ sig) → Buf (Elt Ideal) ℓ) (ρ : Dev nD → PrngReg) (c : Dev nD)

/-! ## After the edge pipeline -/

/-- A buffer the edge pipeline does not stage keeps what it held when the pipeline was entered. -/
theorem W2_keep (b : Ref sig .tc) (hb : ∀ w, Pipeline.arrRef spec0 w ≠ b) :
    W2 m ρ c (Proc.devRef .tc b) = W1 m ρ c (Proc.devRef .tc b) := W2_of_ne m ρ c b hb

/-- The edge messages, for all 640000 edges. -/
theorem W2_m : W2 m ρ c (Proc.devRef .tc main_v50_0) = val_main_v53 (F := Ideal) (A0 m c) (A1 m c) (A2 m c) (A3 m c) (A4 m c) (A5 m c) (A6 m c) (A7 m c) (A8 m c) :=
  (W2_arr m ρ c 15).trans
    (region0_m (V1 m ρ) c (A0 m c) (A1 m c) (A2 m c) (A3 m c) (A4 m c) (A5 m c) (A6 m c) (A7 m c) (A8 m c)
      (W1_v11 m ρ c) (W1_v18 m ρ c) (W1_v37 m ρ c) (W1_v39 m ρ c) (W1_v40 m ρ c) (W1_v41 m ρ c)
      (W1_arg4 m ρ c) (W1_v42 m ρ c) (W1_arg6 m ρ c) (W1_v43 m ρ c) (W1_arg8 m ρ c))

/-- The scaled differences of positions, for all edges. -/
theorem W2_rs : W2 m ρ c (Proc.devRef .tc main_v50_1) = val_main_v70 (F := Ideal) (A0 m c) (A1 m c) (A2 m c) (A3 m c) (A4 m c) (A5 m c) (A6 m c) (A7 m c) (A8 m c) (A9 m c) (A10 m c) (A11 m c) (A12 m c) :=
  (W2_arr m ρ c 16).trans
    (region0_rs (V1 m ρ) c (A0 m c) (A1 m c) (A2 m c) (A3 m c) (A4 m c) (A5 m c) (A6 m c) (A7 m c) (A8 m c) (A9 m c) (A10 m c) (A11 m c) (A12 m c)
      (W1_v11 m ρ c) (W1_v18 m ρ c) (W1_v37 m ρ c) (W1_v39 m ρ c) (W1_v40 m ρ c) (W1_v41 m ρ c)
      (W1_arg4 m ρ c) (W1_v42 m ρ c) (W1_arg6 m ρ c) (W1_v43 m ρ c) (W1_arg8 m ρ c)
      (W1_v44 m ρ c) (W1_arg10 m ρ c) (W1_arg11 m ρ c) (W1_arg12 m ρ c))

theorem W2_v1 : W2 m ρ c (Proc.devRef .tc main_v1) = val_main_v1 (F := Ideal) (A2 m c) :=
  (W2_keep m ρ c main_v1 (by decide)).trans (W1_v1 m ρ c)
theorem W2_arg0 : W2 m ρ c (Proc.devRef .tc main_arg0) = A0 m c :=
  (W2_keep m ρ c main_arg0 (by decide)).trans (W1_arg0 m ρ c)

/-! ## When the node pipeline is entered -/

theorem W3_v56 : W3 m ρ c (Proc.devRef .tc main_v56) = val_main_v56 (F := Ideal) (A0 m c) (A1 m c) (A2 m c) (A3 m c) (A4 m c) (A5 m c) (A6 m c) (A7 m c) (A8 m c) :=
  host1_v56 (W2 m ρ c) (A0 m c) (A1 m c) (A2 m c) (A3 m c) (A4 m c) (A5 m c) (A6 m c) (A7 m c) (A8 m c) (A9 m c) (A10 m c) (A11 m c) (A12 m c) (W2_v1 m ρ c) (W2_m m ρ c) (W2_rs m ρ c)

/-- The new positions: the reference's first result. -/
theorem W3_v58 : W3 m ρ c (Proc.devRef .tc main_v58) = val_main_v74 (F := Ideal) (A0 m c) (A1 m c) (A2 m c) (A3 m c) (A4 m c) (A5 m c) (A6 m c) (A7 m c) (A8 m c) (A9 m c) (A10 m c) (A11 m c) (A12 m c) :=
  host1_v58 (W2 m ρ c) (A0 m c) (A1 m c) (A2 m c) (A3 m c) (A4 m c) (A5 m c) (A6 m c) (A7 m c) (A8 m c) (A9 m c) (A10 m c) (A11 m c) (A12 m c) (W2_arg0 m ρ c) (W2_v1 m ρ c) (W2_m m ρ c) (W2_rs m ρ c)

theorem W3_arg1 : W3 m ρ c (Proc.devRef .tc main_arg1) = A1 m c :=
  (host1_arg1 (W2 m ρ c)).trans ((W2_keep m ρ c main_arg1 (by decide)).trans (W1_arg1 m ρ c))
theorem W3_v46 : W3 m ρ c (Proc.devRef .tc main_v46) = extractStridedSlice S128x128 ![0, 0] (val_main_v76 (F := Ideal) (A13 m c)) slices_S256x128_S128x128_0_0 :=
  (host1_v46 (W2 m ρ c)).trans ((W2_keep m ρ c main_v46 (by decide)).trans (W1_v46 m ρ c))
theorem W3_v47 : W3 m ρ c (Proc.devRef .tc main_v47) = extractStridedSlice S128x128 ![128, 0] (val_main_v76 (F := Ideal) (A13 m c)) slices_S256x128_S128x128_128_0 :=
  (host1_v47 (W2 m ρ c)).trans ((W2_keep m ρ c main_v47 (by decide)).trans (W1_v47 m ρ c))
theorem W3_arg14 : W3 m ρ c (Proc.devRef .tc main_arg14) = A14 m c :=
  (host1_arg14 (W2 m ρ c)).trans ((W2_keep m ρ c main_arg14 (by decide)).trans (W1_arg14 m ρ c))
theorem W3_v48 : W3 m ρ c (Proc.devRef .tc main_v48) = val_main_v82 (F := Ideal) (A15 m c) :=
  (host1_v48 (W2 m ρ c)).trans ((W2_keep m ρ c main_v48 (by decide)).trans (W1_v48 m ρ c))
theorem W3_arg16 : W3 m ρ c (Proc.devRef .tc main_arg16) = A16 m c :=
  (host1_arg16 (W2 m ρ c)).trans ((W2_keep m ρ c main_arg16 (by decide)).trans (W1_arg16 m ρ c))
theorem W3_v49 : W3 m ρ c (Proc.devRef .tc main_v49) = val_main_v88 (F := Ideal) (A17 m c) :=
  (host1_v49 (W2 m ρ c)).trans ((W2_keep m ρ c main_v49 (by decide)).trans (W1_v49 m ρ c))
theorem W3_arg18 : W3 m ρ c (Proc.devRef .tc main_arg18) = A18 m c :=
  (host1_arg18 (W2 m ρ c)).trans ((W2_keep m ρ c main_arg18 (by decide)).trans (W1_arg18 m ρ c))

/-! ## After the node pipeline -/

/-- The new positions are not an array of the node pipeline. -/
theorem kernel_x_out : W4 m ρ c (Proc.devRef .tc main_v58) = val_main_v74 (F := Ideal) (A0 m c) (A1 m c) (A2 m c) (A3 m c) (A4 m c) (A5 m c) (A6 m c) (A7 m c) (A8 m c) (A9 m c) (A10 m c) (A11 m c) (A12 m c) :=
  (W4_of_ne m ρ c main_v58 (by decide)).trans (W3_v58 m ρ c)

/-- The new features: the reference's second result. -/
theorem kernel_h_out : W4 m ρ c (Proc.devRef .tc main_v59) = val_main_v93 (F := Ideal) (A0 m c) (A1 m c) (A2 m c) (A3 m c) (A4 m c) (A5 m c) (A6 m c) (A7 m c) (A8 m c) (A13 m c) (A14 m c) (A15 m c) (A16 m c) (A17 m c) (A18 m c) :=
  (W4_arr m ρ c 9).trans
    (region1_array (V3 m ρ) c (A0 m c) (A1 m c) (A2 m c) (A3 m c) (A4 m c) (A5 m c) (A6 m c) (A7 m c) (A8 m c) (A13 m c) (A14 m c) (A15 m c) (A16 m c) (A17 m c) (A18 m c)
      (W3_arg1 m ρ c) (W3_v56 m ρ c) (W3_v46 m ρ c) (W3_v47 m ρ c) (W3_arg14 m ρ c) (W3_v48 m ρ c) (W3_arg16 m ρ c)
      (W3_v49 m ρ c) (W3_arg18 m ρ c))

/-! ## The run -/

/-- Every weakly fair execution of the idealized kernel program terminates without a fault with the reference's two
    results in its result buffers and its arguments unchanged. -/
theorem kernel_run : θ_run (defs (F := Ideal)) (onTc (τ := τ) (main (F := Ideal))) ⟨m, fun _ => 0, ρ⟩ (fun r => ∀ c : Dev nD,
      r.2.mem ((c.tc : Thread nD τ).loc main_v58) = val_main_v74 (F := Ideal) (A0 m c) (A1 m c) (A2 m c) (A3 m c) (A4 m c) (A5 m c) (A6 m c) (A7 m c) (A8 m c) (A9 m c) (A10 m c) (A11 m c) (A12 m c)
      ∧ r.2.mem ((c.tc : Thread nD τ).loc main_v59) = val_main_v93 (F := Ideal) (A0 m c) (A1 m c) (A2 m c) (A3 m c) (A4 m c) (A5 m c) (A6 m c) (A7 m c) (A8 m c) (A13 m c) (A14 m c) (A15 m c) (A16 m c) (A17 m c) (A18 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
    ⟨(h c main_v58 (by decide)).trans (kernel_x_out m ρ c),
     (h c main_v59 (by decide)).trans (kernel_h_out m ρ c),
     (h c main_arg0 (by decide)).trans (W4_main_arg0 m ρ c),
     (h c main_arg1 (by decide)).trans (W4_main_arg1 m ρ c),
     (h c main_arg2 (by decide)).trans (W4_main_arg2 m ρ c),
     (h c main_arg3 (by decide)).trans (W4_main_arg3 m ρ c),
     (h c main_arg4 (by decide)).trans (W4_main_arg4 m ρ c),
     (h c main_arg5 (by decide)).trans (W4_main_arg5 m ρ c),
     (h c main_arg6 (by decide)).trans (W4_main_arg6 m ρ c),
     (h c main_arg7 (by decide)).trans (W4_main_arg7 m ρ c),
     (h c main_arg8 (by decide)).trans (W4_main_arg8 m ρ c),
     (h c main_arg9 (by decide)).trans (W4_main_arg9 m ρ c),
     (h c main_arg10 (by decide)).trans (W4_main_arg10 m ρ c),
     (h c main_arg11 (by decide)).trans (W4_main_arg11 m ρ c),
     (h c main_arg12 (by decide)).trans (W4_main_arg12 m ρ c),
     (h c main_arg13 (by decide)).trans (W4_main_arg13 m ρ c),
     (h c main_arg14 (by decide)).trans (W4_main_arg14 m ρ c),
     (h c main_arg15 (by decide)).trans (W4_main_arg15 m ρ c),
     (h c main_arg16 (by decide)).trans (W4_main_arg16 m ρ c),
     (h c main_arg17 (by decide)).trans (W4_main_arg17 m ρ c),
     (h c main_arg18 (by decide)).trans (W4_main_arg18 m ρ c)⟩)
    (Cert.KernelIdeal.KRun.run_all m ρ)

end Cert.Bridge

end
-- ==== Proof.LibNary3.lean ====
/-
  A host operation over a literal family of THREE operand arrays (a concatenation of three pieces).

  Its result is its function applied to the family of the operands' contents; stated with each operand's contents at
  its own array — the family spelt out entry by entry — the contents can be rewritten further one array at a time,
  which the form under a binder over the family's index does not allow.
-/
import Idealize.ShloMosaic.Lib.StableHlo.Run

noncomputable section

namespace Cert.LibNary3

open Idealize.ShloMosaic Idealize.ShloMosaic.StableHlo Idealize.SL.Sem

variable {τ : Topo} {sig : RefSig} {Val : EltTy → Type} {x a b y : Ref sig .tc}

/-- The result of an operation over the literal family `![x, a, b]`, each operand's contents at its own array. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, keyed for rewriting by simplification. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Cert.LibNary3

/-- What one array holds after a line of host operations, in one simplification pass, with extra rewriting lemmas for
    operations the pass has no rule of its own for (a concatenation of three pieces, stated at its literal arrays). -/
macro "after_results_with" "[" ts:Lean.Parser.Tactic.simpLemma,* "]" : tactic =>
  `(tactic| (simp (disch := decide) only [$ts,*, Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

/-- The same computation by rewriting, one step at a time, for the few steps the simplification pass cannot reach (the
    contents of a piece inside a joined array). -/
macro "after_results_rw" : tactic =>
  `(tactic| (repeat (first
      | rw [Idealize.ShloMosaic.StableHlo.nullary_result] | rw [Idealize.ShloMosaic.StableHlo.unary_result] | rw [Idealize.ShloMosaic.StableHlo.binary_result] | rw [Idealize.ShloMosaic.StableHlo.ternary_result]
      | rw [Idealize.ShloMosaic.StableHlo.reshape_result]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.reshape_result_ne]; rotate_left; decide)
      | (rw [Idealize.ShloMosaic.StableHlo.nary_result_ne]; rotate_left; decide))))

end
-- ==== Proof.RefValueA.lean ====
/-
  The reference program's first stretch of operations — up to the joined row [h[src] | h[dst] | d2] of each edge —
  read back: what it leaves in the arrays the later operations read is the stages' value of the arguments.
-/
import proofs.«113372_j781684048540_2_alg».proof.Proof.RefRunP
import proofs.«113372_j781684048540_2_alg».proof.Proof.RefStages
import Idealize.ShloMosaic.Lib.StableHlo.Run
import proofs.«113372_j781684048540_2_alg».proof.Proof.LibNary3

set_option maxRecDepth 8192

noncomputable section

namespace Cert.ReferenceIdeal.RunV

open Cert.ReferenceIdeal Cert.ReferenceIdeal.Gen Cert.ReferenceIdeal.RunP Cert.ReferenceIdeal.Stages Idealize.ShloMosaic Idealize.ShloMosaic.TcCoe Idealize.SL.Sem Idealize.ShloMosaic.StableHlo

variable {F : FTy → Type} [FloatOps F]

/-- A three-piece joined row depends on its pieces only. -/
theorem cat3_congr {a a' b b' : (⟨S640000x128, .f32⟩ : BufTy).Contents (Elt F)} {c c' : (⟨S640000x1, .f32⟩ : BufTy).Contents (Elt F)}
    (ha : a = a') (hb : b = b') (hc : c = c') :
    concatenate S640000x257 1 [⟨S640000x128, a⟩, ⟨S640000x128, b⟩, ⟨S640000x1, c⟩] concatenates_S640000x128_S640000x128_S640000x1_S640000x257_d1
      = concatenate S640000x257 1 [⟨S640000x128, a'⟩, ⟨S640000x128, b'⟩, ⟨S640000x1, c'⟩] concatenates_S640000x128_S640000x128_S640000x1_S640000x257_d1 := by
  subst ha hb hc; rfl

/-! ## The first stretch: up to the joined row [h[src] | h[dst] | d2] of each edge -/

/-- The first row of the edge list, as a vector. -/
theorem A_v1 (V : Valuation τ sig (Elt F)) :
    after opsA V (Proc.devRef .tc main_v1) = val_main_v1 (F := F) (V (Proc.devRef .tc main_arg2)) := by
  after_results_simp <;> rfl

/-- The difference of positions along each edge. -/
theorem A_v18 (V : Valuation τ sig (Elt F)) :
    after opsA V (Proc.devRef .tc main_v18) = val_main_v18 (F := F) (V (Proc.devRef .tc main_arg0)) (V (Proc.devRef .tc main_arg2)) := by
  after_results_simp <;> rfl

/-- The joined row of each edge: the pass stops at the joined array, so it is split into its three pieces and each is
    read in turn. -/
theorem A_v36 (V : Valuation τ sig (Elt F)) :
    after opsA V (Proc.devRef .tc main_v36)
      = val_main_v36 (F := F) (V (Proc.devRef .tc main_arg0)) (V (Proc.devRef .tc main_arg1)) (V (Proc.devRef .tc main_arg2)) := by
  after_results_with [Cert.LibNary3.nary3_result']
  unfold val_main_v36
  refine cat3_congr ?_ ?_ ?_
  · refine (Fin.cons_zero _ _).trans ?_
    after_results_simp <;> rfl
  · refine (Fin.cons_one _ _).trans ?_
    refine (Fin.cons_zero _ _).trans ?_
    after_results_simp <;> rfl
  · refine (Fin.cons_succ _ _ (1 : Fin 2)).trans ?_
    refine (Fin.cons_one _ _).trans ?_
    refine (Fin.cons_zero _ _).trans ?_
    after_results_simp <;> rfl

end Cert.ReferenceIdeal.RunV

end
-- ==== Proof.RefValueAk.lean ====
/-
  The reference program's first stretch of operations writes none of the 19 argument arrays.
-/
import proofs.«113372_j781684048540_2_alg».proof.Proof.RefRunP
import proofs.«113372_j781684048540_2_alg».proof.Proof.RefStages
import Idealize.ShloMosaic.Lib.StableHlo.Run

set_option maxRecDepth 8192

noncomputable section

namespace Cert.ReferenceIdeal.RunV

open Cert.ReferenceIdeal Cert.ReferenceIdeal.Gen Cert.ReferenceIdeal.RunP Cert.ReferenceIdeal.Stages Idealize.ShloMosaic Idealize.ShloMosaic.TcCoe Idealize.SL.Sem Idealize.ShloMosaic.StableHlo

variable {F : FTy → Type} [FloatOps F]

/-! The first stretch writes no argument: each argument array is as it was. -/
theorem A_arg0 (V : Valuation τ sig (Elt F)) : after opsA V (Proc.devRef .tc main_arg0) = V (Proc.devRef .tc main_arg0) := by after_results_simp
theorem A_arg1 (V : Valuation τ sig (Elt F)) : after opsA V (Proc.devRef .tc main_arg1) = V (Proc.devRef .tc main_arg1) := by after_results_simp
theorem A_arg2 (V : Valuation τ sig (Elt F)) : after opsA V (Proc.devRef .tc main_arg2) = V (Proc.devRef .tc main_arg2) := by after_results_simp
theorem A_arg3 (V : Valuation τ sig (Elt F)) : after opsA V (Proc.devRef .tc main_arg3) = V (Proc.devRef .tc main_arg3) := by after_results_simp
theorem A_arg4 (V : Valuation τ sig (Elt F)) : after opsA V (Proc.devRef .tc main_arg4) = V (Proc.devRef .tc main_arg4) := by after_results_simp
theorem A_arg5 (V : Valuation τ sig (Elt F)) : after opsA V (Proc.devRef .tc main_arg5) = V (Proc.devRef .tc main_arg5) := by after_results_simp
theorem A_arg6 (V : Valuation τ sig (Elt F)) : after opsA V (Proc.devRef .tc main_arg6) = V (Proc.devRef .tc main_arg6) := by after_results_simp
theorem A_arg7 (V : Valuation τ sig (Elt F)) : after opsA V (Proc.devRef .tc main_arg7) = V (Proc.devRef .tc main_arg7) := by after_results_simp
theorem A_arg8 (V : Valuation τ sig (Elt F)) : after opsA V (Proc.devRef .tc main_arg8) = V (Proc.devRef .tc main_arg8) := by after_results_simp
theorem A_arg9 (V : Valuation τ sig (Elt F)) : after opsA V (Proc.devRef .tc main_arg9) = V (Proc.devRef .tc main_arg9) := by after_results_simp
theorem A_arg10 (V : Valuation τ sig (Elt F)) : after opsA V (Proc.devRef .tc main_arg10) = V (Proc.devRef .tc main_arg10) := by after_results_simp
theorem A_arg11 (V : Valuation τ sig (Elt F)) : after opsA V (Proc.devRef .tc main_arg11) = V (Proc.devRef .tc main_arg11) := by after_results_simp
theorem A_arg12 (V : Valuation τ sig (Elt F)) : after opsA V (Proc.devRef .tc main_arg12) = V (Proc.devRef .tc main_arg12) := by after_results_simp
theorem A_arg13 (V : Valuation τ sig (Elt F)) : after opsA V (Proc.devRef .tc main_arg13) = V (Proc.devRef .tc main_arg13) := by after_results_simp
theorem A_arg14 (V : Valuation τ sig (Elt F)) : after opsA V (Proc.devRef .tc main_arg14) = V (Proc.devRef .tc main_arg14) := by after_results_simp
theorem A_arg15 (V : Valuation τ sig (Elt F)) : after opsA V (Proc.devRef .tc main_arg15) = V (Proc.devRef .tc main_arg15) := by after_results_simp
theorem A_arg16 (V : Valuation τ sig (Elt F)) : after opsA V (Proc.devRef .tc main_arg16) = V (Proc.devRef .tc main_arg16) := by after_results_simp
theorem A_arg17 (V : Valuation τ sig (Elt F)) : after opsA V (Proc.devRef .tc main_arg17) = V (Proc.devRef .tc main_arg17) := by after_results_simp
theorem A_arg18 (V : Valuation τ sig (Elt F)) : after opsA V (Proc.devRef .tc main_arg18) = V (Proc.devRef .tc main_arg18) := by after_results_simp

end Cert.ReferenceIdeal.RunV

end
-- ==== Proof.RefValueB1.lean ====
/-
  The reference program's second stretch of operations — the edge model, the two aggregations, the first result, the
  joined row [h | m] of each node — read back at the first result.
-/
import proofs.«113372_j781684048540_2_alg».proof.Proof.RefRunP
import proofs.«113372_j781684048540_2_alg».proof.Proof.RefStages
import Idealize.ShloMosaic.Lib.StableHlo.Run

set_option maxRecDepth 8192

noncomputable section

namespace Cert.ReferenceIdeal.RunV

open Cert.ReferenceIdeal Cert.ReferenceIdeal.Gen Cert.ReferenceIdeal.RunP Cert.ReferenceIdeal.Stages Idealize.ShloMosaic Idealize.ShloMosaic.TcCoe Idealize.SL.Sem Idealize.ShloMosaic.StableHlo

variable {F : FTy → Type} [FloatOps F]

/-! ## The second stretch: the first result -/

/-- The first result, from the joined edge rows, the position differences and the edge list's first row as the first
    stretch left them. -/
theorem B_v74 (W : Valuation τ sig (Elt F)) (x0 : (⟨S50000x3, .f32⟩ : BufTy).Contents (Elt F)) (x1 : (⟨S50000x128, .f32⟩ : BufTy).Contents (Elt F)) (x2 : (⟨S2x640000, .i32⟩ : BufTy).Contents (Elt F)) (x3 : (⟨S128x257, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S1x128, .f32⟩ : BufTy).Contents (Elt F)) (x12 : (⟨S1, .f32⟩ : BufTy).Contents (Elt F))
    (h36 : W (Proc.devRef .tc main_v36) = val_main_v36 (F := F) x0 x1 x2)
    (h18 : W (Proc.devRef .tc main_v18) = val_main_v18 (F := F) x0 x2)
    (h1 : W (Proc.devRef .tc main_v1) = val_main_v1 (F := F) x2)
    (a0 : W (Proc.devRef .tc main_arg0) = x0) (a3 : W (Proc.devRef .tc main_arg3) = x3) (a4 : W (Proc.devRef .tc main_arg4) = x4) (a5 : W (Proc.devRef .tc main_arg5) = x5) (a6 : W (Proc.devRef .tc main_arg6) = x6) (a7 : W (Proc.devRef .tc main_arg7) = x7) (a8 : W (Proc.devRef .tc main_arg8) = x8) (a9 : W (Proc.devRef .tc main_arg9) = x9) (a10 : W (Proc.devRef .tc main_arg10) = x10) (a11 : W (Proc.devRef .tc main_arg11) = x11) (a12 : W (Proc.devRef .tc main_arg12) = x12) :
    after opsB W (Proc.devRef .tc main_v74) = val_main_v74 (F := F) x0 x1 x2 x3 x4 x5 x6 x7 x8 x9 x10 x11 x12 := by
  after_results_simp
  rw [h36, h18, h1, a0, a3, a4, a5, a6, a7, a8, a9, a10, a11, a12]
  rfl

end Cert.ReferenceIdeal.RunV

end
-- ==== Proof.RefValueB2.lean ====
/-
  The reference program's second stretch of operations read back at the joined row [h | m] of each node.
-/
import proofs.«113372_j781684048540_2_alg».proof.Proof.RefRunP
import proofs.«113372_j781684048540_2_alg».proof.Proof.RefStages
import Idealize.ShloMosaic.Lib.StableHlo.Run

set_option maxRecDepth 8192

noncomputable section

namespace Cert.ReferenceIdeal.RunV

open Cert.ReferenceIdeal Cert.ReferenceIdeal.Gen Cert.ReferenceIdeal.RunP Cert.ReferenceIdeal.Stages Idealize.ShloMosaic Idealize.ShloMosaic.TcCoe Idealize.SL.Sem Idealize.ShloMosaic.StableHlo

variable {F : FTy → Type} [FloatOps F]

/-- A two-piece joined row depends on its pieces only. -/
theorem cat2_congr {a a' b b' : (⟨S50000x128, .f32⟩ : BufTy).Contents (Elt F)} (ha : a = a') (hb : b = b') :
    concatenate S50000x256 1 [⟨S50000x128, a⟩, ⟨S50000x128, b⟩] concatenates_S50000x128_S50000x128_S50000x256_d1
      = concatenate S50000x256 1 [⟨S50000x128, a'⟩, ⟨S50000x128, b'⟩] concatenates_S50000x128_S50000x128_S50000x256_d1 := by
  subst ha hb; rfl

/-! ## The second stretch: the joined node rows -/

/-- The joined row of each node: split into its two pieces. -/
theorem B_v75 (W : Valuation τ sig (Elt F)) (x0 : (⟨S50000x3, .f32⟩ : BufTy).Contents (Elt F)) (x1 : (⟨S50000x128, .f32⟩ : BufTy).Contents (Elt F)) (x2 : (⟨S2x640000, .i32⟩ : BufTy).Contents (Elt F)) (x3 : (⟨S128x257, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F))
    (h36 : W (Proc.devRef .tc main_v36) = val_main_v36 (F := F) x0 x1 x2)
    (h1 : W (Proc.devRef .tc main_v1) = val_main_v1 (F := F) x2)
    (a1 : W (Proc.devRef .tc main_arg1) = x1) (a3 : W (Proc.devRef .tc main_arg3) = x3) (a4 : W (Proc.devRef .tc main_arg4) = x4) (a5 : W (Proc.devRef .tc main_arg5) = x5) (a6 : W (Proc.devRef .tc main_arg6) = x6) (a7 : W (Proc.devRef .tc main_arg7) = x7) (a8 : W (Proc.devRef .tc main_arg8) = x8) :
    after opsB W (Proc.devRef .tc main_v75) = val_main_v75 (F := F) x0 x1 x2 x3 x4 x5 x6 x7 x8 := by
  after_results_simp
  unfold val_main_v75
  refine cat2_congr ?_ ?_
  · after_results_simp
    exact a1
  · after_results_simp
    rw [h36, h1, a3, a4, a5, a6, a7, a8]
    rfl

end Cert.ReferenceIdeal.RunV

end
-- ==== Proof.RefValueBk.lean ====
/-
  The reference program's second stretch of operations writes none of the 19 argument arrays.
-/
import proofs.«113372_j781684048540_2_alg».proof.Proof.RefRunP
import proofs.«113372_j781684048540_2_alg».proof.Proof.RefStages
import Idealize.ShloMosaic.Lib.StableHlo.Run

set_option maxRecDepth 8192

noncomputable section

namespace Cert.ReferenceIdeal.RunV

open Cert.ReferenceIdeal Cert.ReferenceIdeal.Gen Cert.ReferenceIdeal.RunP Cert.ReferenceIdeal.Stages Idealize.ShloMosaic Idealize.ShloMosaic.TcCoe Idealize.SL.Sem Idealize.ShloMosaic.StableHlo

variable {F : FTy → Type} [FloatOps F]

/-! The second stretch writes no argument: each argument array is as it was. -/
theorem B_arg0 (W : Valuation τ sig (Elt F)) : after opsB W (Proc.devRef .tc main_arg0) = W (Proc.devRef .tc main_arg0) := by after_results_simp
theorem B_arg1 (W : Valuation τ sig (Elt F)) : after opsB W (Proc.devRef .tc main_arg1) = W (Proc.devRef .tc main_arg1) := by after_results_simp
theorem B_arg2 (W : Valuation τ sig (Elt F)) : after opsB W (Proc.devRef .tc main_arg2) = W (Proc.devRef .tc main_arg2) := by after_results_simp
theorem B_arg3 (W : Valuation τ sig (Elt F)) : after opsB W (Proc.devRef .tc main_arg3) = W (Proc.devRef .tc main_arg3) := by after_results_simp
theorem B_arg4 (W : Valuation τ sig (Elt F)) : after opsB W (Proc.devRef .tc main_arg4) = W (Proc.devRef .tc main_arg4) := by after_results_simp
theorem B_arg5 (W : Valuation τ sig (Elt F)) : after opsB W (Proc.devRef .tc main_arg5) = W (Proc.devRef .tc main_arg5) := by after_results_simp
theorem B_arg6 (W : Valuation τ sig (Elt F)) : after opsB W (Proc.devRef .tc main_arg6) = W (Proc.devRef .tc main_arg6) := by after_results_simp
theorem B_arg7 (W : Valuation τ sig (Elt F)) : after opsB W (Proc.devRef .tc main_arg7) = W (Proc.devRef .tc main_arg7) := by after_results_simp
theorem B_arg8 (W : Valuation τ sig (Elt F)) : after opsB W (Proc.devRef .tc main_arg8) = W (Proc.devRef .tc main_arg8) := by after_results_simp
theorem B_arg9 (W : Valuation τ sig (Elt F)) : after opsB W (Proc.devRef .tc main_arg9) = W (Proc.devRef .tc main_arg9) := by after_results_simp
theorem B_arg10 (W : Valuation τ sig (Elt F)) : after opsB W (Proc.devRef .tc main_arg10) = W (Proc.devRef .tc main_arg10) := by after_results_simp
theorem B_arg11 (W : Valuation τ sig (Elt F)) : after opsB W (Proc.devRef .tc main_arg11) = W (Proc.devRef .tc main_arg11) := by after_results_simp
theorem B_arg12 (W : Valuation τ sig (Elt F)) : after opsB W (Proc.devRef .tc main_arg12) = W (Proc.devRef .tc main_arg12) := by after_results_simp
theorem B_arg13 (W : Valuation τ sig (Elt F)) : after opsB W (Proc.devRef .tc main_arg13) = W (Proc.devRef .tc main_arg13) := by after_results_simp
theorem B_arg14 (W : Valuation τ sig (Elt F)) : after opsB W (Proc.devRef .tc main_arg14) = W (Proc.devRef .tc main_arg14) := by after_results_simp
theorem B_arg15 (W : Valuation τ sig (Elt F)) : after opsB W (Proc.devRef .tc main_arg15) = W (Proc.devRef .tc main_arg15) := by after_results_simp
theorem B_arg16 (W : Valuation τ sig (Elt F)) : after opsB W (Proc.devRef .tc main_arg16) = W (Proc.devRef .tc main_arg16) := by after_results_simp
theorem B_arg17 (W : Valuation τ sig (Elt F)) : after opsB W (Proc.devRef .tc main_arg17) = W (Proc.devRef .tc main_arg17) := by after_results_simp
theorem B_arg18 (W : Valuation τ sig (Elt F)) : after opsB W (Proc.devRef .tc main_arg18) = W (Proc.devRef .tc main_arg18) := by after_results_simp

end Cert.ReferenceIdeal.RunV

end
-- ==== Proof.RefValueC.lean ====
/-
  The reference program's third stretch of operations — the node update — read back: the second result is the
  stages' value of the arguments, the first result and the arguments stay as they were.
-/
import proofs.«113372_j781684048540_2_alg».proof.Proof.RefRunP
import proofs.«113372_j781684048540_2_alg».proof.Proof.RefStages
import Idealize.ShloMosaic.Lib.StableHlo.Run

set_option maxRecDepth 8192

noncomputable section

namespace Cert.ReferenceIdeal.RunV

open Cert.ReferenceIdeal Cert.ReferenceIdeal.Gen Cert.ReferenceIdeal.RunP Cert.ReferenceIdeal.Stages Idealize.ShloMosaic Idealize.ShloMosaic.TcCoe Idealize.SL.Sem Idealize.ShloMosaic.StableHlo

variable {F : FTy → Type} [FloatOps F]

/-! ## The third stretch: the node update -/

/-- The second result, from the joined node rows as the second stretch left them. -/
theorem C_v93 (U : Valuation τ sig (Elt F)) (x0 : (⟨S50000x3, .f32⟩ : BufTy).Contents (Elt F)) (x1 : (⟨S50000x128, .f32⟩ : BufTy).Contents (Elt F)) (x2 : (⟨S2x640000, .i32⟩ : BufTy).Contents (Elt F)) (x3 : (⟨S128x257, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x13 : (⟨S128x256, .f32⟩ : BufTy).Contents (Elt F)) (x14 : (⟨S128, .f32⟩ : BufTy).Contents (Elt F)) (x15 : (⟨S128x128, .f32⟩ : BufTy).Contents (Elt F)) (x16 : (⟨S128, .f32⟩ : BufTy).Contents (Elt F)) (x17 : (⟨S128x128, .f32⟩ : BufTy).Contents (Elt F)) (x18 : (⟨S128, .f32⟩ : BufTy).Contents (Elt F))
    (h75 : U (Proc.devRef .tc main_v75) = val_main_v75 (F := F) x0 x1 x2 x3 x4 x5 x6 x7 x8)
    (a1 : U (Proc.devRef .tc main_arg1) = x1) (a13 : U (Proc.devRef .tc main_arg13) = x13) (a14 : U (Proc.devRef .tc main_arg14) = x14) (a15 : U (Proc.devRef .tc main_arg15) = x15) (a16 : U (Proc.devRef .tc main_arg16) = x16) (a17 : U (Proc.devRef .tc main_arg17) = x17) (a18 : U (Proc.devRef .tc main_arg18) = x18) :
    after opsC U (Proc.devRef .tc main_v93) = val_main_v93 (F := F) x0 x1 x2 x3 x4 x5 x6 x7 x8 x13 x14 x15 x16 x17 x18 := by
  after_results_simp
  rw [h75, a1, a13, a14, a15, a16, a17, a18]
  rfl

/-- The third stretch leaves the first result in place. -/
theorem C_v74 (U : Valuation τ sig (Elt F)) : after opsC U (Proc.devRef .tc main_v74) = U (Proc.devRef .tc main_v74) := by after_results_simp

/-! The third stretch writes no argument. -/
theorem C_arg0 (U : Valuation τ sig (Elt F)) : after opsC U (Proc.devRef .tc main_arg0) = U (Proc.devRef .tc main_arg0) := by after_results_simp
theorem C_arg1 (U : Valuation τ sig (Elt F)) : after opsC U (Proc.devRef .tc main_arg1) = U (Proc.devRef .tc main_arg1) := by after_results_simp
theorem C_arg2 (U : Valuation τ sig (Elt F)) : after opsC U (Proc.devRef .tc main_arg2) = U (Proc.devRef .tc main_arg2) := by after_results_simp
theorem C_arg3 (U : Valuation τ sig (Elt F)) : after opsC U (Proc.devRef .tc main_arg3) = U (Proc.devRef .tc main_arg3) := by after_results_simp
theorem C_arg4 (U : Valuation τ sig (Elt F)) : after opsC U (Proc.devRef .tc main_arg4) = U (Proc.devRef .tc main_arg4) := by after_results_simp
theorem C_arg5 (U : Valuation τ sig (Elt F)) : after opsC U (Proc.devRef .tc main_arg5) = U (Proc.devRef .tc main_arg5) := by after_results_simp
theorem C_arg6 (U : Valuation τ sig (Elt F)) : after opsC U (Proc.devRef .tc main_arg6) = U (Proc.devRef .tc main_arg6) := by after_results_simp
theorem C_arg7 (U : Valuation τ sig (Elt F)) : after opsC U (Proc.devRef .tc main_arg7) = U (Proc.devRef .tc main_arg7) := by after_results_simp
theorem C_arg8 (U : Valuation τ sig (Elt F)) : after opsC U (Proc.devRef .tc main_arg8) = U (Proc.devRef .tc main_arg8) := by after_results_simp
theorem C_arg9 (U : Valuation τ sig (Elt F)) : after opsC U (Proc.devRef .tc main_arg9) = U (Proc.devRef .tc main_arg9) := by after_results_simp
theorem C_arg10 (U : Valuation τ sig (Elt F)) : after opsC U (Proc.devRef .tc main_arg10) = U (Proc.devRef .tc main_arg10) := by after_results_simp
theorem C_arg11 (U : Valuation τ sig (Elt F)) : after opsC U (Proc.devRef .tc main_arg11) = U (Proc.devRef .tc main_arg11) := by after_results_simp
theorem C_arg12 (U : Valuation τ sig (Elt F)) : after opsC U (Proc.devRef .tc main_arg12) = U (Proc.devRef .tc main_arg12) := by after_results_simp
theorem C_arg13 (U : Valuation τ sig (Elt F)) : after opsC U (Proc.devRef .tc main_arg13) = U (Proc.devRef .tc main_arg13) := by after_results_simp
theorem C_arg14 (U : Valuation τ sig (Elt F)) : after opsC U (Proc.devRef .tc main_arg14) = U (Proc.devRef .tc main_arg14) := by after_results_simp
theorem C_arg15 (U : Valuation τ sig (Elt F)) : after opsC U (Proc.devRef .tc main_arg15) = U (Proc.devRef .tc main_arg15) := by after_results_simp
theorem C_arg16 (U : Valuation τ sig (Elt F)) : after opsC U (Proc.devRef .tc main_arg16) = U (Proc.devRef .tc main_arg16) := by after_results_simp
theorem C_arg17 (U : Valuation τ sig (Elt F)) : after opsC U (Proc.devRef .tc main_arg17) = U (Proc.devRef .tc main_arg17) := by after_results_simp
theorem C_arg18 (U : Valuation τ sig (Elt F)) : after opsC U (Proc.devRef .tc main_arg18) = U (Proc.devRef .tc main_arg18) := by after_results_simp

end Cert.ReferenceIdeal.RunV

end
-- ==== Proof.RefValue.lean ====
/-
  The reference program run, with its two results read back as the stages' values of the arguments.

  The program is a straight line of 145 host operations, cut into three stretches at its two joined arrays (the row
  [h[src] | h[dst] | d2] of each edge and the row [h | m] of each node). What a stretch leaves in an array is read off the
  operations one array at a time; the later stretch takes the earlier one's arrays as given. The line writes no
  argument array, so each argument ends as it began.
-/
import proofs.«113372_j781684048540_2_alg».proof.Proof.RefRunP
import proofs.«113372_j781684048540_2_alg».proof.Proof.RefStages
import Idealize.ShloMosaic.Lib.StableHlo.Run
import proofs.«113372_j781684048540_2_alg».proof.Proof.RefValueA
import proofs.«113372_j781684048540_2_alg».proof.Proof.RefValueAk
import proofs.«113372_j781684048540_2_alg».proof.Proof.RefValueB1
import proofs.«113372_j781684048540_2_alg».proof.Proof.RefValueB2
import proofs.«113372_j781684048540_2_alg».proof.Proof.RefValueBk
import proofs.«113372_j781684048540_2_alg».proof.Proof.RefValueC

set_option maxRecDepth 8192

noncomputable section

namespace Cert.ReferenceIdeal.RunV

open Cert.ReferenceIdeal Cert.ReferenceIdeal.Gen Cert.ReferenceIdeal.RunP Cert.ReferenceIdeal.Stages Idealize.ShloMosaic Idealize.ShloMosaic.TcCoe Idealize.SL.Sem Idealize.ShloMosaic.StableHlo

variable {F : FTy → Type} [FloatOps F]

/-- Two lines of operations run one after the other: the second from what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## The three stretches in a row -/

/-- The whole line is the three stretches one after the other. -/
theorem ops_after (V : Valuation τ sig (Elt F)) : after ops V = after opsC (after opsB (after opsA V)) := by
  show after ((opsA ++ opsB) ++ opsC) V = _
  rw [after_append, after_append]

/-- The first result after the whole line, from the contents at the start. -/
theorem final_v74 (V : Valuation τ sig (Elt F)) :
    after ops V (Proc.devRef .tc main_v74) = val_main_v74 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [ops_after, C_v74]
  exact B_v74 (after opsA V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12))
    (A_v36 V) (A_v18 V) (A_v1 V) (A_arg0 V) (A_arg3 V) (A_arg4 V) (A_arg5 V) (A_arg6 V) (A_arg7 V) (A_arg8 V) (A_arg9 V) (A_arg10 V) (A_arg11 V) (A_arg12 V)

/-- The second result after the whole line, from the contents at the start. -/
theorem final_v93 (V : Valuation τ sig (Elt F)) :
    after ops V (Proc.devRef .tc main_v93) = val_main_v93 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg13)) (V (Proc.devRef .tc main_arg14)) (V (Proc.devRef .tc main_arg15)) (V (Proc.devRef .tc main_arg16)) (V (Proc.devRef .tc main_arg17)) (V (Proc.devRef .tc main_arg18)) := by
  rw [ops_after]
  exact C_v93 (after opsB (after opsA V)) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg13)) (V (Proc.devRef .tc main_arg14)) (V (Proc.devRef .tc main_arg15)) (V (Proc.devRef .tc main_arg16)) (V (Proc.devRef .tc main_arg17)) (V (Proc.devRef .tc main_arg18))
    (B_v75 (after opsA V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8))
      (A_v36 V) (A_v1 V) (A_arg1 V) (A_arg3 V) (A_arg4 V) (A_arg5 V) (A_arg6 V) (A_arg7 V) (A_arg8 V))
    ((B_arg1 _).trans (A_arg1 V)) ((B_arg13 _).trans (A_arg13 V)) ((B_arg14 _).trans (A_arg14 V)) ((B_arg15 _).trans (A_arg15 V)) ((B_arg16 _).trans (A_arg16 V)) ((B_arg17 _).trans (A_arg17 V)) ((B_arg18 _).trans (A_arg18 V))

/-! The whole line writes no argument. -/
theorem final_arg0 (V : Valuation τ sig (Elt F)) : after ops V (Proc.devRef .tc main_arg0) = V (Proc.devRef .tc main_arg0) := by
  rw [ops_after, C_arg0, B_arg0, A_arg0]
theorem final_arg1 (V : Valuation τ sig (Elt F)) : after ops V (Proc.devRef .tc main_arg1) = V (Proc.devRef .tc main_arg1) := by
  rw [ops_after, C_arg1, B_arg1, A_arg1]
theorem final_arg2 (V : Valuation τ sig (Elt F)) : after ops V (Proc.devRef .tc main_arg2) = V (Proc.devRef .tc main_arg2) := by
  rw [ops_after, C_arg2, B_arg2, A_arg2]
theorem final_arg3 (V : Valuation τ sig (Elt F)) : after ops V (Proc.devRef .tc main_arg3) = V (Proc.devRef .tc main_arg3) := by
  rw [ops_after, C_arg3, B_arg3, A_arg3]
theorem final_arg4 (V : Valuation τ sig (Elt F)) : after ops V (Proc.devRef .tc main_arg4) = V (Proc.devRef .tc main_arg4) := by
  rw [ops_after, C_arg4, B_arg4, A_arg4]
theorem final_arg5 (V : Valuation τ sig (Elt F)) : after ops V (Proc.devRef .tc main_arg5) = V (Proc.devRef .tc main_arg5) := by
  rw [ops_after, C_arg5, B_arg5, A_arg5]
theorem final_arg6 (V : Valuation τ sig (Elt F)) : after ops V (Proc.devRef .tc main_arg6) = V (Proc.devRef .tc main_arg6) := by
  rw [ops_after, C_arg6, B_arg6, A_arg6]
theorem final_arg7 (V : Valuation τ sig (Elt F)) : after ops V (Proc.devRef .tc main_arg7) = V (Proc.devRef .tc main_arg7) := by
  rw [ops_after, C_arg7, B_arg7, A_arg7]
theorem final_arg8 (V : Valuation τ sig (Elt F)) : after ops V (Proc.devRef .tc main_arg8) = V (Proc.devRef .tc main_arg8) := by
  rw [ops_after, C_arg8, B_arg8, A_arg8]
theorem final_arg9 (V : Valuation τ sig (Elt F)) : after ops V (Proc.devRef .tc main_arg9) = V (Proc.devRef .tc main_arg9) := by
  rw [ops_after, C_arg9, B_arg9, A_arg9]
theorem final_arg10 (V : Valuation τ sig (Elt F)) : after ops V (Proc.devRef .tc main_arg10) = V (Proc.devRef .tc main_arg10) := by
  rw [ops_after, C_arg10, B_arg10, A_arg10]
theorem final_arg11 (V : Valuation τ sig (Elt F)) : after ops V (Proc.devRef .tc main_arg11) = V (Proc.devRef .tc main_arg11) := by
  rw [ops_after, C_arg11, B_arg11, A_arg11]
theorem final_arg12 (V : Valuation τ sig (Elt F)) : after ops V (Proc.devRef .tc main_arg12) = V (Proc.devRef .tc main_arg12) := by
  rw [ops_after, C_arg12, B_arg12, A_arg12]
theorem final_arg13 (V : Valuation τ sig (Elt F)) : after ops V (Proc.devRef .tc main_arg13) = V (Proc.devRef .tc main_arg13) := by
  rw [ops_after, C_arg13, B_arg13, A_arg13]
theorem final_arg14 (V : Valuation τ sig (Elt F)) : after ops V (Proc.devRef .tc main_arg14) = V (Proc.devRef .tc main_arg14) := by
  rw [ops_after, C_arg14, B_arg14, A_arg14]
theorem final_arg15 (V : Valuation τ sig (Elt F)) : after ops V (Proc.devRef .tc main_arg15) = V (Proc.devRef .tc main_arg15) := by
  rw [ops_after, C_arg15, B_arg15, A_arg15]
theorem final_arg16 (V : Valuation τ sig (Elt F)) : after ops V (Proc.devRef .tc main_arg16) = V (Proc.devRef .tc main_arg16) := by
  rw [ops_after, C_arg16, B_arg16, A_arg16]
theorem final_arg17 (V : Valuation τ sig (Elt F)) : after ops V (Proc.devRef .tc main_arg17) = V (Proc.devRef .tc main_arg17) := by
  rw [ops_after, C_arg17, B_arg17, A_arg17]
theorem final_arg18 (V : Valuation τ sig (Elt F)) : after ops V (Proc.devRef .tc main_arg18) = V (Proc.devRef .tc main_arg18) := by
  rw [ops_after, C_arg18, B_arg18, A_arg18]

/-! ## The run -/

/-- On every device, from any memory with zero counters: every weakly fair execution of the reference program
    terminates with its two results at the stages' values of the arguments, and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v74) = val_main_v74 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v93) = val_main_v93 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun r h c => ⟨(h c main_v74).trans (final_v74 (launchContents m c)),
      (h c main_v93).trans (final_v93 (launchContents m c)),
      (h c main_arg0).trans (final_arg0 (launchContents m c)),
      (h c main_arg1).trans (final_arg1 (launchContents m c)),
      (h c main_arg2).trans (final_arg2 (launchContents m c)),
      (h c main_arg3).trans (final_arg3 (launchContents m c)),
      (h c main_arg4).trans (final_arg4 (launchContents m c)),
      (h c main_arg5).trans (final_arg5 (launchContents m c)),
      (h c main_arg6).trans (final_arg6 (launchContents m c)),
      (h c main_arg7).trans (final_arg7 (launchContents m c)),
      (h c main_arg8).trans (final_arg8 (launchContents m c)),
      (h c main_arg9).trans (final_arg9 (launchContents m c)),
      (h c main_arg10).trans (final_arg10 (launchContents m c)),
      (h c main_arg11).trans (final_arg11 (launchContents m c)),
      (h c main_arg12).trans (final_arg12 (launchContents m c)),
      (h c main_arg13).trans (final_arg13 (launchContents m c)),
      (h c main_arg14).trans (final_arg14 (launchContents m c)),
      (h c main_arg15).trans (final_arg15 (launchContents m c)),
      (h c main_arg16).trans (final_arg16 (launchContents m c)),
      (h c main_arg17).trans (final_arg17 (launchContents m c)),
      (h c main_arg18).trans (final_arg18 (launchContents m c))⟩)
    (run_after m ρ)

end Cert.ReferenceIdeal.RunV

end
-- ==== Proof.lean ====
/-
  The certificate of one message-passing layer on a graph with positions: the Pallas program against the plain jnp one.

  The layer. Every edge (s, d) forms rel = x[s] − x[d] and d2 = |rel|², sends the row [h[s] | h[d] | d2] through a
  three-layer perceptron with silu to a message m, and a coordinate head (one more silu layer, a weighted sum, tanh)
  turns m into a scalar that scales rel. Messages and scaled differences are summed over the edges leaving each node;
  the positions move by the summed differences, and the node features by a second three-layer perceptron of [h | summed
  messages], added to h.

  The two programs. The reference does this with whole-array operations. The kernel program gathers and subtracts on
  the host, runs the edge perceptrons in a pallas_call over blocks of 5120 edges (the first layer's weight in three
  parts, the coordinate head as a lane sum), scatter-adds messages and scaled differences TOGETHER as one 131-column
  array and cuts the sum apart, and runs the node perceptron in a second pallas_call over blocks of 5000 nodes (the
  first layer's weight in two parts). On the extended reals a change of float format is the identity, a matrix product
  into a zero accumulator, a host product and a lane sum are plain sums, and logistic x is by definition
  1 / (1 + exp (−x)); the only laws that join the two sides are the regrouping of a finite sum (257 = 128 + 128 + 1,
  256 = 128 + 128, the columns of a row scatter) and that a block of rows of a product is the product of the block —
  commutativity and associativity of +, no finiteness. So the precondition is never opened.

  The frames of the two kernel programs are the generated ones; the reference's frame is its run with the results
  dropped; the idealization rewrote nothing, so `preserves` is trivial; `algebraic` puts the two runs side by side, both
  ending at the reference's own stages of the arguments (Proof/KernelValue.lean, Proof/RefValue.lean).
-/
import proofs.«113372_j781684048540_2_alg».proof.Defs
import proofs.«113372_j781684048540_2_alg».proof.Proof.Gen.Kernel
import proofs.«113372_j781684048540_2_alg».proof.Proof.Gen.Kernel.Skeleton
import proofs.«113372_j781684048540_2_alg».proof.Proof.Gen.Kernel.Launch
import proofs.«113372_j781684048540_2_alg».proof.Proof.Gen.Kernel.Points
import proofs.«113372_j781684048540_2_alg».proof.Proof.Gen.Kernel.Frame
import proofs.«113372_j781684048540_2_alg».proof.Proof.Gen.KernelIdeal
import proofs.«113372_j781684048540_2_alg».proof.Proof.Gen.KernelIdeal.Skeleton
import proofs.«113372_j781684048540_2_alg».proof.Proof.Gen.KernelIdeal.Launch
import proofs.«113372_j781684048540_2_alg».proof.Proof.Gen.KernelIdeal.Points
import proofs.«113372_j781684048540_2_alg».proof.Proof.Gen.KernelIdeal.Frame
import proofs.«113372_j781684048540_2_alg».proof.Proof.Gen.ReferenceIdeal
import proofs.«113372_j781684048540_2_alg».proof.Proof.Gen.Pre_finite_inputs
import proofs.«113372_j781684048540_2_alg».proof.Proof.KernelValue
import proofs.«113372_j781684048540_2_alg».proof.Proof.RefValue
import Idealize.ShloMosaic.Adequacy
import Idealize.ShloMosaic.Init

noncomputable section

namespace Cert.Proof

open Idealize.ShloMosaic Idealize.ShloMosaic.TcCoe Idealize.SL.Sem
open Cert.ReferenceIdeal.Stages Cert.Bridge

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.RunV.run m ρ)

/-- The ideal pass rewrote no operation. -/
theorem preserves : Cert.preserves_Kernel_KernelIdeal := trivial

/-- Both programs, run from memories that agree on the arguments, end with the reference's two stages of those
    arguments in their result buffers. -/
theorem algebraic : Cert.algebraic_KernelIdeal_ReferenceIdeal := by
  intro m ρ m' ρ' _ hagree
  refine ⟨fun c => val_main_v74 (F := Ideal) (A0 m c) (A1 m c) (A2 m c) (A3 m c) (A4 m c) (A5 m c) (A6 m c) (A7 m c) (A8 m c) (A9 m c) (A10 m c) (A11 m c) (A12 m c),
    fun c => val_main_v93 (F := Ideal) (A0 m c) (A1 m c) (A2 m c) (A3 m c) (A4 m c) (A5 m c) (A6 m c) (A7 m c) (A8 m c) (A13 m c) (A14 m c) (A15 m c) (A16 m c) (A17 m c) (A18 m c),
    kernel_run m ρ, ?_⟩
  refine (θ_run Cert.ReferenceIdeal.defs _ _).mono (fun r h c => ?_) (Cert.ReferenceIdeal.RunV.run m' ρ')
  obtain ⟨h74, h93, hk⟩ := h c
  refine ⟨h74.trans ?_, h93.trans ?_, hk⟩
  · rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1]
  · rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
